-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096 : Shape := ⟨1, ![4096]⟩
abbrev S4096x4096 : Shape := ⟨2, ![4096, 4096]⟩
abbrev S1000x4096 : Shape := ⟨2, ![1000, 4096]⟩
abbrev S1000 : Shape := ⟨1, ![1000]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S1000x4096 : S_.BroadcastsInDim S1000x4096 (![] : Fin 0 → Fin S1000x4096.rank)
  reducesTo_S1000x4096_S_d0_1 : S1000x4096.ReducesTo [0, 1] S_
  bcast_S_S1000 : S_.BroadcastsInDim S1000 (![] : Fin 0 → Fin S1000.rank)
  reducesTo_S1000_S_d0 : S1000.ReducesTo [0] S_

variable [Facts]

def fn_part6 {F : FTy → Type} [FloatOps F] (main_arg6 : FVec F S4096 .f32) (main_arg12 : FVec F S4096 .f32) (main_arg18 : FVec F S4096 .f32) (main_v98 : IVec S_ 1) (main_v101 : IVec S1000 1) (main_c_39 : IVec S_ 1) : IVec S_ 1 :=
  let main_v102 : IVec S_ 1 := (fun x v => Host.reduce IntOp.andi x v reducesTo_S1000_S_d0 h_S_) main_v101 main_c_39
  let main_v103 : IVec S_ 1 := andi main_v98 main_v102
  let main_cst_40 : FVec F S_ .f32 := constant S_ .f32 0x00000000#32
  let main_v104 : FVec F S4096 .f32 := broadcastInDim S4096 ![] bcast_S_S4096 main_cst_40
  let main_v105 : IVec S4096 1 := cmpf .oge main_arg6 main_v104
  let main_c_41 : IVec S_ 1 := constantI S_ 1 1#1
  let main_v106 : IVec S_ 1 := (fun x v => Host.reduce IntOp.andi x v reducesTo_S4096_S_d0 h_S_) main_v105 main_c_41
  let main_v107 : IVec S_ 1 := andi main_v103 main_v106
  let main_cst_42 : FVec F S_ .f32 := constant S_ .f32 0x00000000#32
  let main_v108 : FVec F S4096 .f32 := broadcastInDim S4096 ![] bcast_S_S4096 main_cst_42
  let main_v109 : IVec S4096 1 := cmpf .oge main_arg12 main_v108
  let main_c_43 : IVec S_ 1 := constantI S_ 1 1#1
  let main_v110 : IVec S_ 1 := (fun x v => Host.reduce IntOp.andi x v reducesTo_S4096_S_d0 h_S_) main_v109 main_c_43
  let main_v111 : IVec S_ 1 := andi main_v107 main_v110
  let main_cst_44 : FVec F S_ .f32 := constant S_ .f32 0x00000000#32
  let main_v112 : FVec F S4096 .f32 := broadcastInDim S4096 ![] bcast_S_S4096 main_cst_44
  let main_v113 : IVec S4096 1 := cmpf .oge main_arg18 main_v112
  let main_c_45 : IVec S_ 1 := constantI S_ 1 1#1
  let main_v114 : IVec S_ 1 := (fun x v => Host.reduce IntOp.andi x v reducesTo_S4096_S_d0 h_S_) main_v113 main_c_45
  let main_v115 : IVec S_ 1 := andi main_v111 main_v114
  main_v115

def fn_part5 {F : FTy → Type} [FloatOps F] (main_arg6 : FVec F S4096 .f32) (main_arg12 : FVec F S4096 .f32) (main_arg18 : FVec F S4096 .f32) (main_arg19 : FVec F S1000x4096 .f32) (main_arg20 : FVec F S1000 .f32) (main_v83 : IVec S_ 1) (main_v84 : FVec F S4096 .f32) (main_cst_32 : FVec F S_ .f32) : IVec S_ 1 :=
  let main_v85 : FVec F S4096 .f32 := broadcastInDim S4096 ![] bcast_S_S4096 main_cst_32
  let main_v86 : IVec S4096 1 := cmpf .olt main_v84 main_v85
  let main_c_33 : IVec S_ 1 := constantI S_ 1 1#1
  let main_v87 : IVec S_ 1 := (fun x v => Host.reduce IntOp.andi x v reducesTo_S4096_S_d0 h_S_) main_v86 main_c_33
  let main_v88 : IVec S_ 1 := andi main_v83 main_v87
  let main_v89 : FVec F S4096 .f32 := Host.absf main_arg18
  let main_cst_34 : FVec F S_ .f32 := constant S_ .f32 0x7F800000#32
  let main_v90 : FVec F S4096 .f32 := broadcastInDim S4096 ![] bcast_S_S4096 main_cst_34
  let main_v91 : IVec S4096 1 := cmpf .olt main_v89 main_v90
  let main_c_35 : IVec S_ 1 := constantI S_ 1 1#1
  let main_v92 : IVec S_ 1 := (fun x v => Host.reduce IntOp.andi x v reducesTo_S4096_S_d0 h_S_) main_v91 main_c_35
  let main_v93 : IVec S_ 1 := andi main_v88 main_v92
  let main_v94 : FVec F S1000x4096 .f32 := Host.absf main_arg19
  let main_cst_36 : FVec F S_ .f32 := constant S_ .f32 0x7F800000#32
  let main_v95 : FVec F S1000x4096 .f32 := broadcastInDim S1000x4096 ![] bcast_S_S1000x4096 main_cst_36
  let main_v96 : IVec S1000x4096 1 := cmpf .olt main_v94 main_v95
  let main_c_37 : IVec S_ 1 := constantI S_ 1 1#1
  let main_v97 : IVec S_ 1 := (fun x v => Host.reduce IntOp.andi x v reducesTo_S1000x4096_S_d0_1 h_S_) main_v96 main_c_37
  let main_v98 : IVec S_ 1 := andi main_v93 main_v97
  let main_v99 : FVec F S1000 .f32 := Host.absf main_arg20
  let main_cst_38 : FVec F S_ .f32 := constant S_ .f32 0x7F800000#32
  let main_v100 : FVec F S1000 .f32 := broadcastInDim S1000 ![] bcast_S_S1000 main_cst_38
  let main_v101 : IVec S1000 1 := cmpf .olt main_v99 main_v100
  let main_c_39 : IVec S_ 1 := constantI S_ 1 1#1
  fn_part6 (F := F) main_arg6 main_arg12 main_arg18 main_v98 main_v101 main_c_39

def fn_part4 {F : FTy → Type} [FloatOps F] (main_arg6 : FVec F S4096 .f32) (main_arg12 : FVec F S4096 .f32) (main_arg14 : FVec F S4096 .f32) (main_arg15 : FVec F S4096 .f32) (main_arg16 : FVec F S4096 .f32) (main_arg17 : FVec F S4096 .f32) (main_arg18 : FVec F S4096 .f32) (main_arg19 : FVec F S1000x4096 .f32) (main_arg20 : FVec F S1000 .f32) (main_v63 : IVec S_ 1) (main_v67 : IVec S_ 1) : IVec S_ 1 :=
  let main_v68 : IVec S_ 1 := andi main_v63 main_v67
  let main_v69 : FVec F S4096 .f32 := Host.absf main_arg14
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  let main_v74 : FVec F S4096 .f32 := Host.absf main_arg15
  let main_cst_28 : FVec F S_ .f32 := constant S_ .f32 0x7F800000#32
  let main_v75 : FVec F S4096 .f32 := broadcastInDim S4096 ![] bcast_S_S4096 main_cst_28
  let main_v76 : IVec S4096 1 := cmpf .olt main_v74 main_v75
  let main_c_29 : IVec S_ 1 := constantI S_ 1 1#1
  let main_v77 : IVec S_ 1 := (fun x v => Host.reduce IntOp.andi x v reducesTo_S4096_S_d0 h_S_) main_v76 main_c_29
  let main_v78 : IVec S_ 1 := andi main_v73 main_v77
  let main_v79 : FVec F S4096 .f32 := Host.absf main_arg16
  let main_cst_30 : FVec F S_ .f32 := constant S_ .f32 0x7F800000#32
  let main_v80 : FVec F S4096 .f32 := broadcastInDim S4096 ![] bcast_S_S4096 main_cst_30
  let main_v81 : IVec S4096 1 := cmpf .olt main_v79 main_v80
  let main_c_31 : IVec S_ 1 := constantI S_ 1 1#1
  let main_v82 : IVec S_ 1 := (fun x v => Host.reduce IntOp.andi x v reducesTo_S4096_S_d0 h_S_) main_v81 main_c_31
  let main_v83 : IVec S_ 1 := andi main_v78 main_v82
  let main_v84 : FVec F S4096 .f32 := Host.absf main_arg17
  let main_cst_32 : FVec F S_ .f32 := constant S_ .f32 0x7F800000#32
  fn_part5 (F := F) main_arg6 main_arg12 main_arg18 main_arg19 main_arg20 main_v83 main_v84 main_cst_32

def fn_part3 {F : FTy → Type} [FloatOps F] (main_arg6 : FVec F S4096 .f32) (main_arg11 : FVec F S4096 .f32) (main_arg12 : FVec F S4096 .f32) (main_arg13 : FVec F S4096x4096 .f32) (main_arg14 : FVec F S4096 .f32) (main_arg15 : FVec F S4096 .f32) (main_arg16 : FVec F S4096 .f32) (main_arg17 : FVec F S4096 .f32) (main_arg18 : FVec F S4096 .f32) (main_arg19 : FVec F S1000x4096 .f32) (main_arg20 : FVec F S1000 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S4096x4096 .f32 := Host.absf main_arg13
  let main_cst_24 : FVec F S_ .f32 := constant S_ .f32 0x7F800000#32
  let main_v65 : FVec F S4096x4096 .f32 := broadcastInDim S4096x4096 ![] bcast_S_S4096x4096 main_cst_24
  let main_v66 : IVec S4096x4096 1 := cmpf .olt main_v64 main_v65
  let main_c_25 : IVec S_ 1 := constantI S_ 1 1#1
  let main_v67 : IVec S_ 1 := (fun x v => Host.reduce IntOp.andi x v reducesTo_S4096x4096_S_d0_1 h_S_) main_v66 main_c_25
  fn_part4 (F := F) main_arg6 main_arg12 main_arg14 main_arg15 main_arg16 main_arg17 main_arg18 main_arg19 main_arg20 main_v63 main_v67

def fn_part2 {F : FTy → Type} [FloatOps F] (main_arg6 : FVec F S4096 .f32) (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S4096x4096 .f32) (main_arg14 : FVec F S4096 .f32) (main_arg15 : FVec F S4096 .f32) (main_arg16 : FVec F S4096 .f32) (main_arg17 : FVec F S4096 .f32) (main_arg18 : FVec F S4096 .f32) (main_arg19 : FVec F S1000x4096 .f32) (main_arg20 : FVec F S1000 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg6 main_arg11 main_arg12 main_arg13 main_arg14 main_arg15 main_arg16 main_arg17 main_arg18 main_arg19 main_arg20 main_v48 main_v49 main_v50

def fn_part1 {F : FTy → Type} [FloatOps F] (main_arg4 : FVec F S4096 .f32) (main_arg5 : FVec F S4096 .f32) (main_arg6 : FVec F S4096 .f32) (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S4096x4096 .f32) (main_arg14 : FVec F S4096 .f32) (main_arg15 : FVec F S4096 .f32) (main_arg16 : FVec F S4096 .f32) (main_arg17 : FVec F S4096 .f32) (main_arg18 : FVec F S4096 .f32) (main_arg19 : FVec F S1000x4096 .f32) (main_arg20 : FVec F S1000 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg6 main_arg7 main_arg8 main_arg9 main_arg10 main_arg11 main_arg12 main_arg13 main_arg14 main_arg15 main_arg16 main_arg17 main_arg18 main_arg19 main_arg20 main_v33

def fn {F : FTy → Type} [FloatOps F] (main_arg0 : FVec F S8192x2048 .f32) (main_arg1 : FVec F S4096x2048 .f32) (main_arg2 : FVec F S4096 .f32) (main_arg3 : FVec F S4096 .f32) (main_arg4 : FVec F S4096 .f32) (main_arg5 : FVec F S4096 .f32) (main_arg6 : FVec F S4096 .f32) (main_arg7 : FVec F S4096x4096 .f32) (main_arg8 : FVec F S4096 .f32) (main_arg9 : FVec F S4096 .f32) (main_arg10 : FVec F S4096 .f32) (main_arg11 : FVec F S4096 .f32) (main_arg12 : FVec F S4096 .f32) (main_arg13 : FVec F S4096x4096 .f32) (main_arg14 : FVec F S4096 .f32) (main_arg15 : FVec F S4096 .f32) (main_arg16 : FVec F S4096 .f32) (main_arg17 : FVec F S4096 .f32) (main_arg18 : FVec F S4096 .f32) (main_arg19 : FVec F S1000x4096 .f32) (main_arg20 : FVec F S1000 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S8192x2048 : Shape := ⟨2, ![8192, 2048]⟩
abbrev S4096x2048 : Shape := ⟨2, ![4096, 2048]⟩
abbrev S4096 : Shape := ⟨1, ![4096]⟩
abbrev S4096x4096 : Shape := ⟨2, ![4096, 4096]⟩
abbrev S1000x4096 : Shape := ⟨2, ![1000, 4096]⟩
abbrev S1000 : Shape := ⟨1, ![1000]⟩
abbrev S_ : Shape := ⟨0, ![]⟩
abbrev S1x4096 : Shape := ⟨2, ![1, 4096]⟩
abbrev S8192x4096 : Shape := ⟨2, ![8192, 4096]⟩
abbrev S1024x2048 : Shape := ⟨2, ![1024, 2048]⟩
abbrev S512x2048 : Shape := ⟨2, ![512, 2048]⟩
abbrev S1x512 : Shape := ⟨2, ![1, 512]⟩
abbrev S1024x512 : Shape := ⟨2, ![1024, 512]⟩
abbrev S1024x4096 : Shape := ⟨2, ![1024, 4096]⟩
abbrev S512x4096 : Shape := ⟨2, ![512, 4096]⟩
abbrev S1024 : Shape := ⟨1, ![1024]⟩
abbrev S1x1024 : Shape := ⟨2, ![1, 1024]⟩
abbrev S8192x1024 : Shape := ⟨2, ![8192, 1024]⟩
abbrev S512x1024 : Shape := ⟨2, ![512, 1024]⟩
abbrev S8192x1000 : Shape := ⟨2, ![8192, 1000]⟩

abbrev nBuf : Space → Nat
  | .hbm => 99
  | .vmem => 36
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S4096x4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S1000x4096, .f32⟩
  | .hbm, ⟨20, _⟩ => ⟨S1000, .f32⟩
  | .hbm, ⟨21, _⟩ => ⟨S_, .f32⟩
  | .hbm, ⟨22, _⟩ => ⟨S4096x2048, .f32⟩
  | .hbm, ⟨23, _⟩ => ⟨S4096x2048, .i1⟩
  | .hbm, ⟨24, _⟩ => ⟨S_, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .bf16⟩
  | .hbm, ⟨30, _⟩ => ⟨S_, .f32⟩
  | .hbm, ⟨31, _⟩ => ⟨S4096x4096, .f32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .bf16⟩
  | .hbm, ⟨39, _⟩ => ⟨S_, .f32⟩
  | .hbm, ⟨40, _⟩ => ⟨S4096x4096, .f32⟩
  | .hbm, ⟨41, _⟩ => ⟨S4096x4096, .i1⟩
  | .hbm, ⟨42, _⟩ => ⟨S_, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .bf16⟩
  | .hbm, ⟨48, _⟩ => ⟨S_, .f32⟩
  | .hbm, ⟨49, _⟩ => ⟨S1000x4096, .f32⟩
  | .hbm, ⟨50, _⟩ => ⟨S1000x4096, .i1⟩
  | .hbm, ⟨51, _⟩ => ⟨S_, .f32⟩
  | .hbm, ⟨52, _⟩ => ⟨S_, .f32⟩
  | .hbm, ⟨53, _⟩ => ⟨S1000x4096, .f32⟩
  | .hbm, ⟨54, _⟩ => ⟨S1000x4096, .f32⟩
  | .hbm, ⟨55, _⟩ => ⟨S1000x4096, .f32⟩
  | .hbm, ⟨56, _⟩ => ⟨S1000x4096, .bf16⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S1x4096, .f32⟩
  | .hbm, ⟨66, _⟩ => ⟨S1x4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S4096, .f32⟩
  | .hbm, ⟨75, _⟩ => ⟨S1x4096, .f32⟩
  | .hbm, ⟨76, _⟩ => ⟨S1x4096, .f32⟩
  | .hbm, ⟨77, _⟩ => ⟨S_, .f32⟩
  | .hbm, ⟨78, _⟩ => ⟨S4096, .f32⟩
  | .hbm, ⟨79, _⟩ => ⟨S4096, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S4096, .f32⟩
  | .hbm, ⟨84, _⟩ => ⟨S4096, .f32⟩
  | .hbm, ⟨85, _⟩ => ⟨S1x4096, .f32⟩
  | .hbm, ⟨86, _⟩ => ⟨S1x4096, .f32⟩
  | .hbm, ⟨87, _⟩ => ⟨S8192x4096, .bf16⟩
  | .hbm, ⟨88, _⟩ => ⟨S8192x4096, .bf16⟩
  | .hbm, ⟨89, _⟩ => ⟨S8192x4096, .bf16⟩
  | .hbm, ⟨90, _⟩ => ⟨S_, .i32⟩
  | .hbm, ⟨91, _⟩ => ⟨S_, .bf16⟩
  | .hbm, ⟨92, _⟩ => ⟨S1024x4096, .bf16⟩
  | .hbm, ⟨93, _⟩ => ⟨S_, .i32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S8192x1024, .f32⟩
  | .hbm, ⟨98, _⟩ => ⟨S8192x1000, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x4096, .bf16⟩
  | .local _ .vmem, ⟨11, _⟩ => ⟨S1024x4096, .bf16⟩
  | .local _ .vmem, ⟨12, _⟩ => ⟨S512x4096, .bf16⟩
  | .local _ .vmem, ⟨13, _⟩ => ⟨S512x4096, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1024x512, .bf16⟩
  | .local _ .vmem, ⟨19, _⟩ => ⟨S1024x512, .bf16⟩
  | .local _ .vmem, ⟨20, _⟩ => ⟨S1024x4096, .bf16⟩
  | .local _ .vmem, ⟨21, _⟩ => ⟨S1024x4096, .bf16⟩
  | .local _ .vmem, ⟨22, _⟩ => ⟨S512x4096, .bf16⟩
  | .local _ .vmem, ⟨23, _⟩ => ⟨S512x4096, .bf16⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1024x512, .bf16⟩
  | .local _ .vmem, ⟨29, _⟩ => ⟨S1024x512, .bf16⟩
  | .local _ .vmem, ⟨30, _⟩ => ⟨S512x4096, .bf16⟩
  | .local _ .vmem, ⟨31, _⟩ => ⟨S512x4096, .bf16⟩
  | .local _ .vmem, ⟨32, _⟩ => ⟨S1024x4096, .bf16⟩
  | .local _ .vmem, ⟨33, _⟩ => ⟨S1x1024, .f32⟩
  | .local _ .vmem, ⟨34, _⟩ => ⟨S512x1024, .f32⟩
  | .local _ .vmem, ⟨35, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v2 : Ref sig .tc := ⟨.hbm, 28, rfl⟩
abbrev main_v3 : Ref sig .tc := ⟨.hbm, 29, rfl⟩
abbrev main_cst_2 : Ref sig .tc := ⟨.hbm, 30, rfl⟩
abbrev main_v4 : Ref sig .tc := ⟨.hbm, 31, rfl⟩
abbrev main_v5 : Ref sig .tc := ⟨.hbm, 32, rfl⟩
abbrev main_cst_3 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v6 : Ref sig .tc := ⟨.hbm, 37, rfl⟩
abbrev main_v7 : Ref sig .tc := ⟨.hbm, 38, rfl⟩
abbrev main_cst_5 : Ref sig .tc := ⟨.hbm, 39, rfl⟩
abbrev main_v8 : Ref sig .tc := ⟨.hbm, 40, rfl⟩
abbrev main_v9 : Ref sig .tc := ⟨.hbm, 41, rfl⟩
abbrev main_cst_6 : Ref sig .tc := ⟨.hbm, 42, rfl⟩
abbrev main_cst_7 : Ref sig .tc := ⟨.hbm, 43, rfl⟩
abbrev main_call2_v0 : Ref sig .tc := ⟨.hbm, 44, rfl⟩
abbrev main_call2_v1 : Ref sig .tc := ⟨.hbm, 45, rfl⟩
abbrev main_v10 : Ref sig .tc := ⟨.hbm, 46, rfl⟩
abbrev main_v11 : Ref sig .tc := ⟨.hbm, 47, rfl⟩
abbrev main_cst_8 : Ref sig .tc := ⟨.hbm, 48, rfl⟩
abbrev main_v12 : Ref sig .tc := ⟨.hbm, 49, rfl⟩
abbrev main_v13 : Ref sig .tc := ⟨.hbm, 50, rfl⟩
abbrev main_cst_9 : Ref sig .tc := ⟨.hbm, 51, rfl⟩
abbrev main_cst_10 : Ref sig .tc := ⟨.hbm, 52, rfl⟩
abbrev main_call3_v0 : Ref sig .tc := ⟨.hbm, 53, rfl⟩
abbrev main_call3_v1 : Ref sig .tc := ⟨.hbm, 54, rfl⟩
abbrev main_v14 : Ref sig .tc := ⟨.hbm, 55, rfl⟩
abbrev main_v15 : Ref sig .tc := ⟨.hbm, 56, rfl⟩
abbrev main_cst_11 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_cst_12 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_13 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_c : Ref sig .tc := ⟨.hbm, 90, rfl⟩
abbrev main_call4_v0 : Ref sig .tc := ⟨.hbm, 91, rfl⟩
abbrev main_v46 : Ref sig .tc := ⟨.hbm, 92, rfl⟩
abbrev main_c_14 : Ref sig .tc := ⟨.hbm, 93, rfl⟩
abbrev main_call5_v0 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S4096x2048 : S_.BroadcastsInDim S4096x2048 (![] : Fin 0 → Fin S4096x2048.rank)
  bitsLt_bf16_f32 : FTy.bits .bf16 < FTy.bits .f32
  bcast_S_S4096x4096 : S_.BroadcastsInDim S4096x4096 (![] : Fin 0 → Fin S4096x4096.rank)
  bcast_S_S1000x4096 : S_.BroadcastsInDim S1000x4096 (![] : Fin 0 → Fin S1000x4096.rank)
  bcast_S_S4096 : S_.BroadcastsInDim S4096 (![] : Fin 0 → Fin S4096.rank)
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  pads_S1000x4096_S1024x4096_0240_000 : S1000x4096.Pads (![0, 0] : Fin 2 → Nat) ![24, 0] ![0, 0] S1024x4096
  h_S_ : 0 < S_.numel
  pads_S1000_S1024_0240 : S1000.Pads (![0] : Fin 1 → Nat) ![24] ![0] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  slices_S8192x1024_S8192x1000_0_0 : S8192x1024.Slices ![0, 0] S8192x1000
  dot_S1024x2048_S512x2048_S1024x512_1_1_0_0_n_n_wf : DotDims.WF S1024x2048 S512x2048 S1024x512 [1] [1] [0] [0] [] []
  dot_S1024x4096_S512x4096_S1024x512_1_1_0_0_n_n_wf : DotDims.WF S1024x4096 S512x4096 S1024x512 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x4096.size a
  hwx0_4 : ∀ i : grid0.Coords, EltTy.bits .bf16 = 32 ∨ (Rect.block (s := S8192x4096) S1024x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S8192x4096.size a
  hwx1_4 : ∀ i : grid1.Coords, EltTy.bits .bf16 = 32 ∨ (Rect.block (s := S8192x4096) S1024x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S8192x4096.size a
  hwx2_0 : ∀ i : grid2.Coords, EltTy.bits .bf16 = 32 ∨ (Rect.block (s := S8192x4096) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .bf16 = 32 ∨ (Rect.block (s := S4096x4096) S512x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x4096.size a
  hwx2_2 : ∀ i : grid2.Coords, EltTy.bits .f32 = 32 ∨ (Rect.block (s := S1x4096) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x4096.size a
  hwx2_3 : ∀ i : grid2.Coords, EltTy.bits .f32 = 32 ∨ (Rect.block (s := S1x4096) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x512.size a ≤ S8192x4096.size a
  hwx2_4 : ∀ i : grid2.Coords, EltTy.bits .bf16 = 32 ∨ (Rect.block (s := S8192x4096) S1024x512.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S8192x4096.size a
  hwx3_0 : ∀ i : grid3.Coords, EltTy.bits .bf16 = 32 ∨ (Rect.block (s := S8192x4096) S512x4096.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x4096.size a ≤ S1024x4096.size a
  hwx3_1 : ∀ i : grid3.Coords, EltTy.bits .bf16 = 32 ∨ (Rect.block (s := S1024x4096) S1024x4096.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S8192x1024.size a
  hwx3_3 : ∀ i : grid3.Coords, EltTy.bits .f32 = 32 ∨ (Rect.block (s := S8192x1024) S512x1024.size (cc3_transform_3 i) (hinb3_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v43) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1024x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v45) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S1024x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S4096 : Shape := ⟨1, ![4096]⟩
abbrev S4096x4096 : Shape := ⟨2, ![4096, 4096]⟩
abbrev S1000x4096 : Shape := ⟨2, ![1000, 4096]⟩
abbrev S1000 : Shape := ⟨1, ![1000]⟩
abbrev S_ : Shape := ⟨0, ![]⟩
abbrev S2048x4096 : Shape := ⟨2, ![2048, 4096]⟩
abbrev S8192x4096 : Shape := ⟨2, ![8192, 4096]⟩
abbrev S1x4096 : Shape := ⟨2, ![1, 4096]⟩
abbrev S4096x1000 : Shape := ⟨2, ![4096, 1000]⟩
abbrev S8192x1000 : Shape := ⟨2, ![8192, 1000]⟩
abbrev S1x1000 : Shape := ⟨2, ![1, 1000]⟩

abbrev nBuf : Space → Nat
  | .hbm => 185
  | .vmem => 0
  | .smem => 0
  | _ => 0

abbrev hbmTy0_0 (i : Nat) : BufTy := match i % 128 with
  | 0 => ⟨S8192x2048, .f32⟩
  | 1 => ⟨S4096x2048, .f32⟩
  | 2 => ⟨S4096, .f32⟩
  | 3 => ⟨S4096, .f32⟩
  | 4 => ⟨S4096, .f32⟩
  | 5 => ⟨S4096, .f32⟩
  | 6 => ⟨S4096, .f32⟩
  | 7 => ⟨S4096x4096, .f32⟩
  | 8 => ⟨S4096, .f32⟩
  | 9 => ⟨S4096, .f32⟩
  | 10 => ⟨S4096, .f32⟩
  | 11 => ⟨S4096, .f32⟩
  | 12 => ⟨S4096, .f32⟩
  | 13 => ⟨S4096x4096, .f32⟩
  | 14 => ⟨S4096, .f32⟩
  | 15 => ⟨S4096, .f32⟩
  | 16 => ⟨S4096, .f32⟩
  | 17 => ⟨S4096, .f32⟩
  | 18 => ⟨S4096, .f32⟩
  | 19 => ⟨S1000x4096, .f32⟩
  | 20 => ⟨S1000, .f32⟩
  | 21 => ⟨S_, .f32⟩
  | 22 => ⟨S8192x2048, .f32⟩
  | 23 => ⟨S8192x2048, .i1⟩
  | 24 => ⟨S_, .f32⟩
  | 25 => ⟨S_, .f32⟩
  | 26 => ⟨S8192x2048, .f32⟩
  | 27 => ⟨S8192x2048, .f32⟩
  | 28 => ⟨S8192x2048, .f32⟩
  | 29 => ⟨S8192x2048, .f32⟩
  | 30 => ⟨S_, .f32⟩
  | 31 => ⟨S4096x2048, .f32⟩
  | 32 => ⟨S4096x2048, .i1⟩
  | 33 => ⟨S_, .f32⟩
  | 34 => ⟨S_, .f32⟩
  | 35 => ⟨S4096x2048, .f32⟩
  | 36 => ⟨S4096x2048, .f32⟩
  | 37 => ⟨S4096x2048, .f32⟩
  | 38 => ⟨S4096x2048, .f32⟩
  | 39 => ⟨S2048x4096, .f32⟩
  | 40 => ⟨S8192x4096, .f32⟩
  | 41 => ⟨S1x4096, .f32⟩
  | 42 => ⟨S8192x4096, .f32⟩
  | 43 => ⟨S8192x4096, .f32⟩
  | 44 => ⟨S1x4096, .f32⟩
  | 45 => ⟨S8192x4096, .f32⟩
  | 46 => ⟨S8192x4096, .f32⟩
  | 47 => ⟨S_, .f32⟩
  | 48 => ⟨S4096, .f32⟩
  | 49 => ⟨S4096, .f32⟩
  | 50 => ⟨S4096, .f32⟩
  | 51 => ⟨S1x4096, .f32⟩
  | 52 => ⟨S8192x4096, .f32⟩
  | 53 => ⟨S8192x4096, .f32⟩
  | 54 => ⟨S1x4096, .f32⟩
  | 55 => ⟨S8192x4096, .f32⟩
  | 56 => ⟨S8192x4096, .f32⟩
  | 57 => ⟨S1x4096, .f32⟩
  | 58 => ⟨S8192x4096, .f32⟩
  | 59 => ⟨S8192x4096, .f32⟩
  | 60 => ⟨S_, .f32⟩
  | 61 => ⟨S_, .f32⟩
  | 62 => ⟨S_, .f32⟩
  | 63 => ⟨S8192x4096, .f32⟩
  | 64 => ⟨S8192x4096, .f32⟩
  | 65 => ⟨S_, .f32⟩
  | 66 => ⟨S8192x4096, .f32⟩
  | 67 => ⟨S8192x4096, .f32⟩
  | 68 => ⟨S_, .f32⟩
  | 69 => ⟨S8192x4096, .f32⟩
  | 70 => ⟨S8192x4096, .i1⟩
  | 71 => ⟨S_, .f32⟩
  | 72 => ⟨S_, .f32⟩
  | 73 => ⟨S8192x4096, .f32⟩
  | 74 => ⟨S8192x4096, .f32⟩
  | 75 => ⟨S8192x4096, .f32⟩
  | 76 => ⟨S8192x4096, .f32⟩
  | 77 => ⟨S_, .f32⟩
  | 78 => ⟨S4096x4096, .f32⟩
  | 79 => ⟨S4096x4096, .i1⟩
  | 80 => ⟨S_, .f32⟩
  | 81 => ⟨S_, .f32⟩
  | 82 => ⟨S4096x4096, .f32⟩
  | 83 => ⟨S4096x4096, .f32⟩
  | 84 => ⟨S4096x4096, .f32⟩
  | 85 => ⟨S4096x4096, .f32⟩
  | 86 => ⟨S4096x4096, .f32⟩
  | 87 => ⟨S8192x4096, .f32⟩
  | 88 => ⟨S1x4096, .f32⟩
  | 89 => ⟨S8192x4096, .f32⟩
  | 90 => ⟨S8192x4096, .f32⟩
  | 91 => ⟨S1x4096, .f32⟩
  | 92 => ⟨S8192x4096, .f32⟩
  | 93 => ⟨S8192x4096, .f32⟩
  | 94 => ⟨S_, .f32⟩
  | 95 => ⟨S4096, .f32⟩
  | 96 => ⟨S4096, .f32⟩
  | 97 => ⟨S4096, .f32⟩
  | 98 => ⟨S1x4096, .f32⟩
  | 99 => ⟨S8192x4096, .f32⟩
  | 100 => ⟨S8192x4096, .f32⟩
  | 101 => ⟨S1x4096, .f32⟩
  | 102 => ⟨S8192x4096, .f32⟩
  | 103 => ⟨S8192x4096, .f32⟩
  | 104 => ⟨S1x4096, .f32⟩
  | 105 => ⟨S8192x4096, .f32⟩
  | 106 => ⟨S8192x4096, .f32⟩
  | 107 => ⟨S_, .f32⟩
  | 108 => ⟨S_, .f32⟩
  | 109 => ⟨S_, .f32⟩
  | 110 => ⟨S8192x4096, .f32⟩
  | 111 => ⟨S8192x4096, .f32⟩
  | 112 => ⟨S_, .f32⟩
  | 113 => ⟨S8192x4096, .f32⟩
  | 114 => ⟨S8192x4096, .f32⟩
  | 115 => ⟨S_, .f32⟩
  | 116 => ⟨S8192x4096, .f32⟩
  | 117 => ⟨S8192x4096, .i1⟩
  | 118 => ⟨S_, .f32⟩
  | 119 => ⟨S_, .f32⟩
  | 120 => ⟨S8192x4096, .f32⟩
  | 121 => ⟨S8192x4096, .f32⟩
  | 122 => ⟨S8192x4096, .f32⟩
  | 123 => ⟨S8192x4096, .f32⟩
  | 124 => ⟨S_, .f32⟩
  | 125 => ⟨S4096x4096, .f32⟩
  | 126 => ⟨S4096x4096, .i1⟩
  | 127 => ⟨S_, .f32⟩
  | _ => ⟨S8192x2048, .f32⟩

abbrev hbmTy0_1 (i : Nat) : BufTy := match i % 128 with
  | 0 => ⟨S_, .f32⟩
  | 1 => ⟨S4096x4096, .f32⟩
  | 2 => ⟨S4096x4096, .f32⟩
  | 3 => ⟨S4096x4096, .f32⟩
  | 4 => ⟨S4096x4096, .f32⟩
  | 5 => ⟨S4096x4096, .f32⟩
  | 6 => ⟨S8192x4096, .f32⟩
  | 7 => ⟨S1x4096, .f32⟩
  | 8 => ⟨S8192x4096, .f32⟩
  | 9 => ⟨S8192x4096, .f32⟩
  | 10 => ⟨S1x4096, .f32⟩
  | 11 => ⟨S8192x4096, .f32⟩
  | 12 => ⟨S8192x4096, .f32⟩
  | 13 => ⟨S_, .f32⟩
  | 14 => ⟨S4096, .f32⟩
  | 15 => ⟨S4096, .f32⟩
  | 16 => ⟨S4096, .f32⟩
  | 17 => ⟨S1x4096, .f32⟩
  | 18 => ⟨S8192x4096, .f32⟩
  | 19 => ⟨S8192x4096, .f32⟩
  | 20 => ⟨S1x4096, .f32⟩
  | 21 => ⟨S8192x4096, .f32⟩
  | 22 => ⟨S8192x4096, .f32⟩
  | 23 => ⟨S1x4096, .f32⟩
  | 24 => ⟨S8192x4096, .f32⟩
  | 25 => ⟨S8192x4096, .f32⟩
  | 26 => ⟨S_, .f32⟩
  | 27 => ⟨S_, .f32⟩
  | 28 => ⟨S_, .f32⟩
  | 29 => ⟨S8192x4096, .f32⟩
  | 30 => ⟨S8192x4096, .f32⟩
  | 31 => ⟨S_, .f32⟩
  | 32 => ⟨S8192x4096, .f32⟩
  | 33 => ⟨S8192x4096, .f32⟩
  | 34 => ⟨S_, .f32⟩
  | 35 => ⟨S8192x4096, .f32⟩
  | 36 => ⟨S8192x4096, .i1⟩
  | 37 => ⟨S_, .f32⟩
  | 38 => ⟨S_, .f32⟩
  | 39 => ⟨S8192x4096, .f32⟩
  | 40 => ⟨S8192x4096, .f32⟩
  | 41 => ⟨S8192x4096, .f32⟩
  | 42 => ⟨S8192x4096, .f32⟩
  | 43 => ⟨S_, .f32⟩
  | 44 => ⟨S1000x4096, .f32⟩
  | 45 => ⟨S1000x4096, .i1⟩
  | 46 => ⟨S_, .f32⟩
  | 47 => ⟨S_, .f32⟩
  | 48 => ⟨S1000x4096, .f32⟩
  | 49 => ⟨S1000x4096, .f32⟩
  | 50 => ⟨S1000x4096, .f32⟩
  | 51 => ⟨S1000x4096, .f32⟩
  | 52 => ⟨S4096x1000, .f32⟩
  | 53 => ⟨S8192x1000, .f32⟩
  | 54 => ⟨S1x1000, .f32⟩
  | 55 => ⟨S8192x1000, .f32⟩
  | 56 => ⟨S8192x1000, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v2 : Ref sig .tc := ⟨.hbm, 28, rfl⟩
abbrev main_v3 : Ref sig .tc := ⟨.hbm, 29, rfl⟩
abbrev main_cst_2 : Ref sig .tc := ⟨.hbm, 30, rfl⟩
abbrev main_v4 : Ref sig .tc := ⟨.hbm, 31, rfl⟩
abbrev main_v5 : Ref sig .tc := ⟨.hbm, 32, rfl⟩
abbrev main_cst_3 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_5 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_6 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v28 : Ref sig .tc := ⟨.hbm, 67, rfl⟩
abbrev main_cst_8 : Ref sig .tc := ⟨.hbm, 68, rfl⟩
abbrev main_v29 : Ref sig .tc := ⟨.hbm, 69, rfl⟩
abbrev main_v30 : Ref sig .tc := ⟨.hbm, 70, rfl⟩
abbrev main_cst_9 : Ref sig .tc := ⟨.hbm, 71, rfl⟩
abbrev main_cst_10 : Ref sig .tc := ⟨.hbm, 72, rfl⟩
abbrev main_call3_v0 : Ref sig .tc := ⟨.hbm, 73, rfl⟩
abbrev main_call3_v1 : Ref sig .tc := ⟨.hbm, 74, rfl⟩
abbrev main_v31 : Ref sig .tc := ⟨.hbm, 75, rfl⟩
abbrev main_v32 : Ref sig .tc := ⟨.hbm, 76, rfl⟩
abbrev main_cst_11 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_cst_13 : Ref sig .tc := ⟨.hbm, 81, rfl⟩
abbrev main_call4_v0 : Ref sig .tc := ⟨.hbm, 82, rfl⟩
abbrev main_call4_v1 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_14 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_cst_15 : Ref sig .tc := ⟨.hbm, 107, rfl⟩
abbrev main_cst_16 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_v57 : Ref sig .tc := ⟨.hbm, 114, rfl⟩
abbrev main_cst_17 : Ref sig .tc := ⟨.hbm, 115, rfl⟩
abbrev main_v58 : Ref sig .tc := ⟨.hbm, 116, rfl⟩
abbrev main_v59 : Ref sig .tc := ⟨.hbm, 117, rfl⟩
abbrev main_cst_18 : Ref sig .tc := ⟨.hbm, 118, rfl⟩
abbrev main_cst_19 : Ref sig .tc := ⟨.hbm, 119, rfl⟩
abbrev main_call6_v0 : Ref sig .tc := ⟨.hbm, 120, rfl⟩
abbrev main_call6_v1 : Ref sig .tc := ⟨.hbm, 121, rfl⟩
abbrev main_v60 : Ref sig .tc := ⟨.hbm, 122, rfl⟩
abbrev main_v61 : Ref sig .tc := ⟨.hbm, 123, rfl⟩
abbrev main_cst_20 : Ref sig .tc := ⟨.hbm, 124, rfl⟩
abbrev main_v62 : Ref sig .tc := ⟨.hbm, 125, rfl⟩
abbrev main_v63 : Ref sig .tc := ⟨.hbm, 126, rfl⟩
abbrev main_cst_21 : Ref sig .tc := ⟨.hbm, 127, rfl⟩
abbrev main_cst_22 : Ref sig .tc := ⟨.hbm, 128, rfl⟩
abbrev main_call7_v0 : Ref sig .tc := ⟨.hbm, 129, rfl⟩
abbrev main_call7_v1 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_cst_23 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_cst_24 : Ref sig .tc := ⟨.hbm, 154, rfl⟩
abbrev main_cst_25 : Ref sig .tc := ⟨.hbm, 155, rfl⟩
abbrev main_call8_v0 : Ref sig .tc := ⟨.hbm, 156, rfl⟩
abbrev main_call8_v1 : Ref sig .tc := ⟨.hbm, 157, rfl⟩
abbrev main_call8_v2 : Ref sig .tc := ⟨.hbm, 158, rfl⟩
abbrev main_call8_v3 : Ref sig .tc := ⟨.hbm, 159, rfl⟩
abbrev main_call8_v4 : Ref sig .tc := ⟨.hbm, 160, rfl⟩
abbrev main_v86 : Ref sig .tc := ⟨.hbm, 161, rfl⟩
abbrev main_cst_26 : Ref sig .tc := ⟨.hbm, 162, rfl⟩
abbrev main_v87 : Ref sig .tc := ⟨.hbm, 163, rfl⟩
abbrev main_v88 : Ref sig .tc := ⟨.hbm, 164, rfl⟩
abbrev main_cst_27 : Ref sig .tc := ⟨.hbm, 165, rfl⟩
abbrev main_cst_28 : Ref sig .tc := ⟨.hbm, 166, rfl⟩
abbrev main_call9_v0 : Ref sig .tc := ⟨.hbm, 167, rfl⟩
abbrev main_call9_v1 : Ref sig .tc := ⟨.hbm, 168, rfl⟩
abbrev main_v89 : Ref sig .tc := ⟨.hbm, 169, rfl⟩
abbrev main_v90 : Ref sig .tc := ⟨.hbm, 170, rfl⟩
abbrev main_cst_29 : Ref sig .tc := ⟨.hbm, 171, rfl⟩
abbrev main_v91 : Ref sig .tc := ⟨.hbm, 172, rfl⟩
abbrev main_v92 : Ref sig .tc := ⟨.hbm, 173, rfl⟩
abbrev main_cst_30 : Ref sig .tc := ⟨.hbm, 174, rfl⟩
abbrev main_cst_31 : Ref sig .tc := ⟨.hbm, 175, rfl⟩
abbrev main_call10_v0 : Ref sig .tc := ⟨.hbm, 176, rfl⟩
abbrev main_call10_v1 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩

abbrev nD : Nat := 1
abbrev τ : Topo := Topo.v7x

variable {F : FTy → Type} [FloatOps F]

class Facts₀ : Prop where
  bcast_S_S8192x2048 : S_.BroadcastsInDim S8192x2048 (![] : Fin 0 → Fin S8192x2048.rank)
  bcast_S_S4096x2048 : S_.BroadcastsInDim S4096x2048 (![] : Fin 0 → Fin S4096x2048.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S4096 : S_.BroadcastsInDim S4096 (![] : Fin 0 → Fin S4096.rank)
  bcast_S_S8192x4096 : S_.BroadcastsInDim S8192x4096 (![] : Fin 0 → Fin S8192x4096.rank)
  bcast_S_S4096x4096 : S_.BroadcastsInDim S4096x4096 (![] : Fin 0 → Fin S4096x4096.rank)
  transposes_S4096x4096_S4096x4096_1_0 : S4096x4096.Transposes [1, 0] S4096x4096
  bcast_S_S1000x4096 : S_.BroadcastsInDim S1000x4096 (![] : Fin 0 → Fin S1000x4096.rank)
  transposes_S1000x4096_S4096x1000_1_0 : S1000x4096.Transposes [1, 0] S4096x1000
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  dot_S8192x2048_S2048x4096_S8192x4096_1_0_0_1_n_n_wf : DotDims.WF S8192x2048 S2048x4096 S8192x4096 [1] [0] [0] [1] [] []
  dot_S8192x4096_S4096x4096_S8192x4096_1_0_0_1_n_n_wf : DotDims.WF S8192x4096 S4096x4096 S8192x4096 [1] [0] [0] [1] [] []
  dot_S8192x4096_S4096x1000_S8192x1000_1_0_0_1_n_n_wf : DotDims.WF S8192x4096 S4096x1000 S8192x1000 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1000_S8192x1000_1_0_0_1_n_n : DotDims S8192x4096 S4096x1000 S8192x1000 where
  lhsContracting := [1]
  rhsContracting := [0]
  lhsNonContracting := [0]
  rhsNonContracting := [1]
  lhsBatch := []
  rhsBatch := []
  wf := dot_S8192x4096_S4096x1000_S8192x1000_1_0_0_1_n_n_wf

class Facts : Prop extends Facts₀ where

variable [Facts]
-- ==== Proof.Spec.lean ====
/-
  A binarized multilayer perceptron over the extended reals.

  Every activation and every weight enters a layer only through its sign: +1 where the entry is positive, −1 everywhere
  else.  A hidden layer multiplies signs row against row, adds a bias, normalises with running statistics
  (subtract the mean μ, multiply by (v + ε)^(−1/2) and by the gain g, add the offset β), clamps to [−1, 1] and hands the sign
  of the result to the next layer.  Written as the reference writes it the pre-activation is
      ((s + b − μ) · r) · g + β            with r = (v + ε)^(−1/2),
  and written with the normalisation folded into two vectors it is
      s · (g · r) + ((b − μ) · (g · r) + β).
  Where s, b, μ, g, β are real numbers and v is a non-negative real, r is a positive real and the two are one real
  number (`preact_eq`); the two spellings of a layer are then one array (`hid_eq`).  The finiteness matters: at
  v = −ε the factor r is +∞ and the folded form adds +∞ and −∞ where the other form multiplies one real by +∞.
-/
import Idealize.ShloMosaic.Lib.ValueIdx
import Idealize.ShloMosaic.PureOps.Ideal.Laws

noncomputable section

namespace BinNet

open Idealize.ShloMosaic Idealize.ShloMosaic.ValueIdx

/-- The float words of 0, 1, −1 and of the variance guard ε, as extended reals. -/
abbrev w0 : EReal := Ideal.ofBits .f32 0x00000000#32
abbrev w1 : EReal := Ideal.ofBits .f32 0x3F800000#32
abbrev wm1 : EReal := Ideal.ofBits .f32 0xBF800000#32
abbrev weps : EReal := Ideal.ofBits .f32 0x3727C5AC#32

/-- Every entry is a real number. -/
def IsReal {ι : Type} (a : ι → EReal) : Prop := ∀ i, ∃ r : ℝ, a i = (r : EReal)

/-- The sign as both programs take it: +1 where the entry is positive, −1 everywhere else. -/
def sgn (x : EReal) : EReal := Scalar.select (Ideal.cmp .ogt x w0) w1 wm1

/-- The sign of every entry. -/
def sgnArr {s : Shape} (x : s.Idx → EReal) : s.Idx → EReal := fun i => sgn (x i)

/-- Clamp to [−1, 1], then take the sign. -/
def act (y : EReal) : EReal := sgn (min w1 (max wm1 y))

theorem w1_eq : w1 = ((1 : ℝ) : EReal) := by
  simp [w1, Ideal.ofBits, Ideal.ieee, -EReal.coe_mul]; norm_num

theorem wm1_eq : wm1 = ((-1 : ℝ) : EReal) := by
  simp [wm1, Ideal.ofBits, Ideal.ieee, -EReal.coe_mul]; norm_num

theorem sgn_real (x : EReal) : ∃ r : ℝ, sgn x = (r : EReal) := by
  unfold sgn Scalar.select
  split
  · exact ⟨1, w1_eq⟩
  · exact ⟨-1, wm1_eq⟩

theorem sgnArr_real {s : Shape} (x : s.Idx → EReal) : IsReal (sgnArr x) := fun i => sgn_real (x i)

variable {P K N : Nat}

/-- A length-N array read as a function of its one coordinate. -/
def vec (x : (⟨1, ![N]⟩ : Shape).Idx → EReal) : Fin N → EReal := fun n => x (ix1 n)

/-- Row p of `a` against row n of `w`: the sum over k of a (p, k) · w (n, k). -/
def dotRows (a : (⟨2, ![P, K]⟩ : Shape).Idx → EReal) (w : (⟨2, ![N, K]⟩ : Shape).Idx → EReal) (p : Fin P) (n : Fin N) : EReal :=
  ∑ k : Fin K, a (ix2 p k) * w (ix2 n k)

/-- The normalising factor (v + ε)^(−1/2). -/
def rstd (v : Fin N → EReal) : Fin N → EReal := fun n => Ideal.rsqrt (v n + weps)

/-- The pre-activation as the reference writes it. -/
def preRef (s b mu r g be : EReal) : EReal := (((s + b) - mu) * r) * g + be

/-- The pre-activation with the normalisation folded into a scale and a shift. -/
def preKer (s sc sh : EReal) : EReal := s * sc + sh

/-- The folded scale g · r and shift (b − μ) · scale + β. -/
def scale (g v : Fin N → EReal) : Fin N → EReal := fun n => g n * rstd v n
def shift (b mu be sc : Fin N → EReal) : Fin N → EReal := fun n => (b n - mu n) * sc n + be n

/-- A hidden layer as the reference writes it, on sign-valued activations `a` and sign-valued weights `w`. -/
def hidRef (a : (⟨2, ![P, K]⟩ : Shape).Idx → EReal) (w : (⟨2, ![N, K]⟩ : Shape).Idx → EReal) (b g be mu v : Fin N → EReal) :
    (⟨2, ![P, N]⟩ : Shape).Idx → EReal :=
  fun j => act (preRef (dotRows a w (j 0) (j 1)) (b (j 1)) (mu (j 1)) (rstd v (j 1)) (g (j 1)) (be (j 1)))

/-- A hidden layer with the normalisation folded. -/
def hidKer (a : (⟨2, ![P, K]⟩ : Shape).Idx → EReal) (w : (⟨2, ![N, K]⟩ : Shape).Idx → EReal) (sc sh : Fin N → EReal) :
    (⟨2, ![P, N]⟩ : Shape).Idx → EReal :=
  fun j => act (preKer (dotRows a w (j 0) (j 1)) (sc (j 1)) (sh (j 1)))

/-- The last layer: product and bias, nothing else. -/
def outLayer (a : (⟨2, ![P, K]⟩ : Shape).Idx → EReal) (w : (⟨2, ![N, K]⟩ : Shape).Idx → EReal) (b : Fin N → EReal) :
    (⟨2, ![P, N]⟩ : Shape).Idx → EReal :=
  fun j => dotRows a w (j 0) (j 1) + b (j 1)

theorem hidRef_ix2 (a : (⟨2, ![P, K]⟩ : Shape).Idx → EReal) (w : (⟨2, ![N, K]⟩ : Shape).Idx → EReal) (b g be mu v : Fin N → EReal)
    (p : Fin P) (n : Fin N) :
    hidRef a w b g be mu v (ix2 p n) = act (preRef (dotRows a w p n) (b n) (mu n) (rstd v n) (g n) (be n)) := rfl

theorem hidKer_ix2 (a : (⟨2, ![P, K]⟩ : Shape).Idx → EReal) (w : (⟨2, ![N, K]⟩ : Shape).Idx → EReal) (sc sh : Fin N → EReal)
    (p : Fin P) (n : Fin N) :
    hidKer a w sc sh (ix2 p n) = act (preKer (dotRows a w p n) (sc n) (sh n)) := rfl

theorem outLayer_ix2 (a : (⟨2, ![P, K]⟩ : Shape).Idx → EReal) (w : (⟨2, ![N, K]⟩ : Shape).Idx → EReal) (b : Fin N → EReal)
    (p : Fin P) (n : Fin N) : outLayer a w b (ix2 p n) = dotRows a w p n + b n := rfl

/-- A hidden layer's entries are signs, hence real. -/
theorem hidRef_real (a : (⟨2, ![P, K]⟩ : Shape).Idx → EReal) (w : (⟨2, ![N, K]⟩ : Shape).Idx → EReal) (b g be mu v : Fin N → EReal) :
    IsReal (hidRef a w b g be mu v) := fun _ => sgn_real _

theorem hidKer_real (a : (⟨2, ![P, K]⟩ : Shape).Idx → EReal) (w : (⟨2, ![N, K]⟩ : Shape).Idx → EReal) (sc sh : Fin N → EReal) :
    IsReal (hidKer a w sc sh) := fun _ => sgn_real _

/-- A finite sum of real numbers, read in the extended reals, is a real number. -/
theorem sum_real {ι : Type} (s : Finset ι) (f : ι → EReal) (hf : ∀ i, ∃ r : ℝ, f i = (r : EReal)) :
    ∃ r : ℝ, ∑ i ∈ s, f i = (r : EReal) := by
  classical
  induction s using Finset.induction_on with
  | empty => exact ⟨0, by simp⟩
  | insert i s hi ih =>
    obtain ⟨r, hr⟩ := ih
    obtain ⟨q, hq⟩ := hf i
    exact ⟨q + r, by rw [Finset.sum_insert hi, hr, hq, EReal.coe_add]⟩

/-- The product of two real arrays, row against row, is real. -/
theorem dotRows_real (a : (⟨2, ![P, K]⟩ : Shape).Idx → EReal) (w : (⟨2, ![N, K]⟩ : Shape).Idx → EReal)
    (ha : IsReal a) (hw : IsReal w) (p : Fin P) (n : Fin N) : ∃ r : ℝ, dotRows a w p n = (r : EReal) :=
  sum_real _ _ fun k => by
    obtain ⟨x, hx⟩ := ha (ix2 p k)
    obtain ⟨y, hy⟩ := hw (ix2 n k)
    exact ⟨x * y, by rw [hx, hy, EReal.coe_mul]⟩

/-- The guard ε is a positive real number. -/
theorem weps_pos : ∃ e : ℝ, 0 < e ∧ weps = (e : EReal) := by
  refine ⟨_, ?_, by simp [weps, Ideal.ofBits, Ideal.ieee, -EReal.coe_mul]; rfl⟩
  norm_num

end BinNet

end
-- ==== Proof.LibRowsDot.lean ====
/-
  A matrix product that contracts the SECOND axis of both operands — rows against rows, no batch axis — read at an index.

  For dimension numbers `d` of that kind over shapes `[P, K]`, `[N, K]`, `[P, N]`, the exact contraction
  `∑ κ, l (d.lhsIdx j κ) * r (d.rhsIdx j κ)` over the one contracted axis is the sum
  `∑ k : Fin K, l (p, k) * r (n, k)` at the result index `j = (p, n)`: the left operand is read along its row `p`, the
  right operand along its row `n`, and the contracted axis of extent `K` is re-indexed by `Fin K`.  This is the product of
  the left operand with the TRANSPOSE of the right one.
-/
import Idealize.ShloMosaic.Lib.ValueIdx
import Idealize.ShloMosaic.PureOps.Ideal.Laws

noncomputable section

namespace RowsDot

open Idealize.ShloMosaic Idealize.ShloMosaic.ValueIdx

variable {P K N : Nat}

/-- The dimension numbers of a rows-against-rows product: both operands contract their second axis; the first axes are the
    result's, the left operand's first; no batch axis. -/
structure IsRows (d : DotDims ⟨2, ![P, K]⟩ ⟨2, ![N, K]⟩ ⟨2, ![P, N]⟩) : Prop where
  lc : d.lhsContracting = [(1 : Fin 2)]
  rc : d.rhsContracting = [(1 : Fin 2)]
  ln : d.lhsNonContracting = [(0 : Fin 2)]
  rn : d.rhsNonContracting = [(0 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![N, K]⟩ ⟨2, ![P, N]⟩}

/-- The left operand's row is the result's row. -/
theorem lhs_row (h : IsRows d) (j : (⟨2, ![P, N]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's row is the result's column. -/
theorem rhs_row (h : IsRows d) (j : (⟨2, ![P, N]⟩ : Shape).Idx) (κ : d.contr.Idx) :
    (d.rhsIdx j κ (0 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsRows d) : d.contr.rank = 1 := by rw [d.rank_contr, h.lc]; rfl

theorem contr_size (h : IsRows d) : d.contr.size ⟨0, by rw [contr_rank h]; exact Nat.one_pos⟩ = K := by
  have e := d.size_contr 0 (by rw [h.lc]; exact Nat.one_pos)
  rw [e]
  simp [h.lc]

/-- THE PRODUCT AT `(p, n)`: the sum over `k : Fin K` of the left operand at `(p, k)` times the right at `(n, k)`. -/
theorem sum_eq (h : IsRows d) (l : (⟨2, ![P, K]⟩ : Shape).Idx → EReal) (r : (⟨2, ![N, K]⟩ : Shape).Idx → EReal)
    (p : Fin P) (n : Fin N) :
    ∑ κ : d.contr.Idx, l (d.lhsIdx (ix2 p n) κ) * r (d.rhsIdx (ix2 p n) κ) = ∑ k : Fin K, l (ix2 p k) * r (ix2 n k) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p n) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p n) ((contrEquiv1 d K (contr_rank h) (contr_size h)).symm k) = ix2 n k :=
    funext fun a => Fin.ext (by
      match a with
      | ⟨0, _⟩ => exact rhs_row h _ _
      | ⟨1, _⟩ => exact (d.rhsIdx_val_of_single h.rc _ _).trans hk)
  rw [el, er]

/-- A `tpu.matmul` into the zero accumulator, at the ideal instance, read at `(p, n)`. -/
theorem matmul_zero_apply (h : IsRows d) {φ₁ φ₂ : FTy} (l : FVec Ideal ⟨2, ![P, K]⟩ φ₁) (r : FVec Ideal ⟨2, ![N, K]⟩ φ₂)
    (p : Fin P) (n : Fin N) :
    FloatOps.matmul d none l r (constant ⟨2, ![P, N]⟩ .f32 0x00000000#32) (ix2 p n) = ∑ k : Fin K, l (ix2 p k) * r (ix2 n k) := by
  rw [Ideal.matmul_constant_zero_apply]
  exact sum_eq h l r p n

end RowsDot

end
-- ==== Proof.KBody.lean ====
/-
  What each of the four kernel bodies stores, entry by entry, over the extended reals.

  A body holds a block of P rows of activations, a block of Q rows of sign-valued weights and, for a hidden layer, the
  matching Q entries of the folded scale and shift.  Entry (p, q) of what it stores is, for a hidden layer, the sign of
  the clamped s · scale_q + shift_q, where s is row p of the activations against row q of the weights; for the last layer
  it is s + bias_q.  A change of float format is the identity here, and the matrix unit's product into a zero accumulator
  is the exact sum.  The first layer's body takes the signs of its raw input block itself.
-/
import proofs.«162483_j26018911879634_2_alg».proof.Proof.Gen.KernelIdeal.Skeleton
import proofs.«162483_j26018911879634_2_alg».proof.Proof.Spec
import proofs.«162483_j26018911879634_2_alg».proof.Proof.LibRowsDot
import Idealize.ShloMosaic.Lib.Pipeline.Value

noncomputable section

namespace Cert.KernelIdeal.Body

open Cert.KernelIdeal Cert.KernelIdeal.Gen Idealize.ShloMosaic Idealize.ShloMosaic.ValueIdx

variable {P K Q : Nat}

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- A [1, Q] row broadcast over P rows, read at (p, q), is the row's entry q. -/
theorem rowBroadcast_apply (b : FVec Ideal ⟨2, ![1, Q]⟩ .f32) (hsc : (⟨2, ![1, Q]⟩ : Shape).ShapeCasts ⟨2, ![1, Q]⟩)
    (hbc : (⟨2, ![1, Q]⟩ : Shape).Broadcasts ⟨2, ![P, Q]⟩) (p : Fin P) (q : Fin Q) :
    broadcastTo ⟨2, ![P, Q]⟩ (shapeCast ⟨2, ![1, Q]⟩ b hsc) hbc (ix2 p q) = b (ix2 (0 : Fin 1) q) := by
  rw [shapeCast_self]
  exact broadcastTo_apply b hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)

/-- A HIDDEN LAYER'S BLOCK: product into zero, times the scale row, plus the shift row, clamped, its sign taken and
    rounded to bf16 — entry (p, q) is the sign of the clamped folded pre-activation. -/
theorem hidBlock_apply {d : DotDims ⟨2, ![P, K]⟩ ⟨2, ![Q, K]⟩ ⟨2, ![P, Q]⟩} (hd : RowsDot.IsRows d)
    (A : FVec Ideal ⟨2, ![P, K]⟩ .bf16) (W : FVec Ideal ⟨2, ![Q, K]⟩ .bf16) (sc sh : FVec Ideal ⟨2, ![1, Q]⟩ .f32)
    (hsc : (⟨2, ![1, Q]⟩ : Shape).ShapeCasts ⟨2, ![1, Q]⟩) (hbc : (⟨2, ![1, Q]⟩ : Shape).Broadcasts ⟨2, ![P, Q]⟩)
    (hr : FTy.bits .bf16 < FTy.bits .f32) (p : Fin P) (q : Fin Q) :
    truncf .bf16 (select (cmpf .ogt
        (minimumf (broadcast ⟨2, ![P, Q]⟩ (Scalar.ofBits (F := Ideal) .f32 0x3F800000#32))
          (maximumf (broadcast ⟨2, ![P, Q]⟩ (Scalar.ofBits (F := Ideal) .f32 0xBF800000#32))
            (addf (mulf (matmul d none A W (constant ⟨2, ![P, Q]⟩ .f32 0x00000000#32))
                (broadcastTo ⟨2, ![P, Q]⟩ (shapeCast ⟨2, ![1, Q]⟩ sc hsc) hbc))
              (broadcastTo ⟨2, ![P, Q]⟩ (shapeCast ⟨2, ![1, Q]⟩ sh hsc) hbc))))
        (broadcast ⟨2, ![P, Q]⟩ (Scalar.ofBits (F := Ideal) .f32 0x00000000#32)))
      (broadcast ⟨2, ![P, Q]⟩ (Scalar.ofBits (F := Ideal) .f32 0x3F800000#32))
      (broadcast ⟨2, ![P, Q]⟩ (Scalar.ofBits (F := Ideal) .f32 0xBF800000#32))) hr (ix2 p q)
    = BinNet.act (BinNet.preKer (BinNet.dotRows A W p q) (sc (ix2 (0 : Fin 1) q)) (sh (ix2 (0 : Fin 1) q))) := by
  have hM := RowsDot.matmul_zero_apply hd A W p q
  have h1 := rowBroadcast_apply (P := P) sc hsc hbc p q
  have h2 := rowBroadcast_apply (P := P) sh hsc hbc p q
  show BinNet.act (BinNet.preKer (FloatOps.matmul d none A W (constant ⟨2, ![P, Q]⟩ .f32 0x00000000#32) (ix2 p q))
      (broadcastTo ⟨2, ![P, Q]⟩ (shapeCast ⟨2, ![1, Q]⟩ sc hsc) hbc (ix2 p q))
      (broadcastTo ⟨2, ![P, Q]⟩ (shapeCast ⟨2, ![1, Q]⟩ sh hsc) hbc (ix2 p q))) = _
  rw [hM, h1, h2]
  rfl

/-- THE LAST LAYER'S BLOCK: product into zero plus the bias row. -/
theorem outBlock_apply {d : DotDims ⟨2, ![P, K]⟩ ⟨2, ![Q, K]⟩ ⟨2, ![P, Q]⟩} (hd : RowsDot.IsRows d)
    (A : FVec Ideal ⟨2, ![P, K]⟩ .bf16) (W : FVec Ideal ⟨2, ![Q, K]⟩ .bf16) (b : FVec Ideal ⟨2, ![1, Q]⟩ .f32)
    (hsc : (⟨2, ![1, Q]⟩ : Shape).ShapeCasts ⟨2, ![1, Q]⟩) (hbc : (⟨2, ![1, Q]⟩ : Shape).Broadcasts ⟨2, ![P, Q]⟩)
    (p : Fin P) (q : Fin Q) :
    addf (matmul d none A W (constant ⟨2, ![P, Q]⟩ .f32 0x00000000#32))
      (broadcastTo ⟨2, ![P, Q]⟩ (shapeCast ⟨2, ![1, Q]⟩ b hsc) hbc) (ix2 p q)
    = BinNet.dotRows A W p q + b (ix2 (0 : Fin 1) q) := by
  have hM := RowsDot.matmul_zero_apply hd A W p q
  have h1 := rowBroadcast_apply (P := P) b hsc hbc p q
  show FloatOps.matmul d none A W (constant ⟨2, ![P, Q]⟩ .f32 0x00000000#32) (ix2 p q)
      + broadcastTo ⟨2, ![P, Q]⟩ (shapeCast ⟨2, ![1, Q]⟩ b hsc) hbc (ix2 p q) = _
  rw [hM, h1]
  rfl

/-! ## The four bodies -/

/-- Layer 0: the body takes the signs of its raw activation block, then the hidden layer's block. -/
theorem pay0_apply (x0 : FVec Ideal S1024x2048 .f32) (x1 : FVec Ideal S512x2048 .bf16) (x2 x3 : FVec Ideal S1x512 .f32)
    (p : Fin 1024) (q : Fin 512) :
    k0_pay1 (F := Ideal) x0 x1 x2 x3 (ix2 p q)
      = BinNet.act (BinNet.preKer (BinNet.dotRows (BinNet.sgnArr x0) x1 p q) (x2 (ix2 (0 : Fin 1) q)) (x3 (ix2 (0 : Fin 1) q))) := by
  unfold k0_pay1
  refine (hidBlock_apply (d := dot_S1024x2048_S512x2048_S1024x512_1_1_0_0_n_n) ⟨rfl, rfl, rfl, rfl, rfl, rfl⟩ _
    (shapeCast S512x2048 x1 shapeCasts_S512x2048_S512x2048) x2 x3 shapeCasts_S1x512_S1x512 broadcasts_S1x512_S1024x512
    bitsLt_bf16_f32 p q).trans ?_
  rw [shapeCast_self]
  rfl

/-- Layers 1 and 2: the hidden layer's block of the sign-valued activations as stored. -/
theorem pay1_apply (x0 : FVec Ideal S1024x4096 .bf16) (x1 : FVec Ideal S512x4096 .bf16) (x2 x3 : FVec Ideal S1x512 .f32)
    (p : Fin 1024) (q : Fin 512) :
    k1_pay1 (F := Ideal) x0 x1 x2 x3 (ix2 p q)
      = BinNet.act (BinNet.preKer (BinNet.dotRows x0 x1 p q) (x2 (ix2 (0 : Fin 1) q)) (x3 (ix2 (0 : Fin 1) q))) := by
  unfold k1_pay1
  refine (hidBlock_apply (d := dot_S1024x4096_S512x4096_S1024x512_1_1_0_0_n_n) ⟨rfl, rfl, rfl, rfl, rfl, rfl⟩
    (shapeCast S1024x4096 x0 shapeCasts_S1024x4096_S1024x4096)
    (shapeCast S512x4096 x1 shapeCasts_S512x4096_S512x4096) x2 x3 shapeCasts_S1x512_S1x512 broadcasts_S1x512_S1024x512
    bitsLt_bf16_f32 p q).trans ?_
  rw [shapeCast_self, shapeCast_self]

theorem pay2_apply (x0 : FVec Ideal S1024x4096 .bf16) (x1 : FVec Ideal S512x4096 .bf16) (x2 x3 : FVec Ideal S1x512 .f32)
    (p : Fin 1024) (q : Fin 512) :
    k2_pay1 (F := Ideal) x0 x1 x2 x3 (ix2 p q)
      = BinNet.act (BinNet.preKer (BinNet.dotRows x0 x1 p q) (x2 (ix2 (0 : Fin 1) q)) (x3 (ix2 (0 : Fin 1) q))) := by
  unfold k2_pay1
  refine (hidBlock_apply (d := dot_S1024x4096_S512x4096_S1024x512_1_1_0_0_n_n) ⟨rfl, rfl, rfl, rfl, rfl, rfl⟩
    (shapeCast S1024x4096 x0 shapeCasts_S1024x4096_S1024x4096)
    (shapeCast S512x4096 x1 shapeCasts_S512x4096_S512x4096) x2 x3 shapeCasts_S1x512_S1x512 broadcasts_S1x512_S1024x512
    bitsLt_bf16_f32 p q).trans ?_
  rw [shapeCast_self, shapeCast_self]

/-- Layer 3: product plus bias. -/
theorem pay3_apply (x0 : FVec Ideal S512x4096 .bf16) (x1 : FVec Ideal S1024x4096 .bf16) (x2 : FVec Ideal S1x1024 .f32)
    (p : Fin 512) (q : Fin 1024) :
    k3_pay1 (F := Ideal) x0 x1 x2 (ix2 p q) = BinNet.dotRows x0 x1 p q + x2 (ix2 (0 : Fin 1) q) := by
  unfold k3_pay1
  refine (outBlock_apply (d := dot_S512x4096_S1024x4096_S512x1024_1_1_0_0_n_n) ⟨rfl, rfl, rfl, rfl, rfl, rfl⟩
    (shapeCast S512x4096 x0 shapeCasts_S512x4096_S512x4096)
    (shapeCast S1024x4096 x1 shapeCasts_S1024x4096_S1024x4096) x2 shapeCasts_S1x1024_S1x1024 broadcasts_S1x1024_S512x1024 p q).trans ?_
  rw [shapeCast_self, shapeCast_self]

end Cert.KernelIdeal.Body

end
-- ==== Proof.KReg0.lean ====
/-
  Region 0: the array its write-backs leave, as one function of the arrays it finds.

  The grid is 8 row blocks of 1024 by 8 column blocks of 512.  At point t the body is handed rows [1024·i, 1024·i + 1024) of the activations, rows
  [512·j, 512·j + 512) of the weights and the matching entries of the two row vectors, and writes back block t of the output.
  Entry (p, n) of the output lies in exactly the block whose row range holds p and whose column range holds n, and what
  the body stores there is the folded hidden layer (signs of the raw input taken first) at (p, n) of the WHOLE arrays: every output entry depends on one row of
  activations, one row of weights and one entry of each row vector.  The blocks tile the output, so the array ends as that
  one function.
-/
import proofs.«162483_j26018911879634_2_alg».proof.Proof.Gen.KernelIdeal.Frame
import proofs.«162483_j26018911879634_2_alg».proof.Proof.KBody

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of the whole arrays. -/
def G (x : S8192x2048.Idx → EReal) (w : S4096x2048.Idx → EReal) (sc sh : S1x4096.Idx → EReal) : S8192x4096.Idx → EReal :=
  BinNet.hidKer (BinNet.sgnArr x) w (fun n => sc (ix2 (0 : Fin 1) n)) (fun n => sh (ix2 (0 : Fin 1) n))

/-- The printed index maps, decided over the grid: the activation block follows the output's row block, the weight block
    and the two row vectors follow its column block, and both block indices stay below 8. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every block of the output is some point's. -/
theorem idx_onto : ∀ (q0 : Fin 8) (q1 : Fin 8), ∃ t : Fin cfg0.N, win0_4.index t = ![q0.val, q1.val] :=
  (by decide +kernel : ∀ (q0 : Fin 8) (q1 : Fin 8), ∃ t : Fin grid0.N, win0_4.index t = ![q0.val, q1.val])

/-- One stored entry: if the blocks in hand are rows P and N of the whole arrays (and entry N of the row vectors), the body's
    entry (p, q) is the layer's entry (P, N). -/
theorem point_eq (x0 : FVec Ideal S1024x2048 .f32) (x1 : FVec Ideal S512x2048 .bf16) (x2 x3 : FVec Ideal S1x512 .f32)
    (X : S8192x2048.Idx → EReal) (Wt : S4096x2048.Idx → EReal) (SC SH : S1x4096.Idx → EReal)
    (P : Fin 8192) (N : Fin 4096) (p : Fin 1024) (q : Fin 512)
    (h0 : ∀ k : Fin 2048, x0 (ix2 p k) = X (ix2 P k)) (h1 : ∀ k : Fin 2048, x1 (ix2 q k) = Wt (ix2 N k))
    (h2 : x2 (ix2 (0 : Fin 1) q) = SC (ix2 (0 : Fin 1) N)) (h3 : x3 (ix2 (0 : Fin 1) q) = SH (ix2 (0 : Fin 1) N)) :
    k0_pay1 (F := Ideal) x0 x1 x2 x3 (ix2 p q) = G X Wt SC SH (ix2 P N) := by
  have hd : BinNet.dotRows (BinNet.sgnArr x0) x1 p q = BinNet.dotRows (BinNet.sgnArr X) Wt P N :=
    Finset.sum_congr rfl fun k _ => by
      show BinNet.sgn (x0 (ix2 p k)) * x1 (ix2 q k) = BinNet.sgn (X (ix2 P k)) * Wt (ix2 N k)
      rw [h0 k, h1 k]
  rw [Body.pay0_apply, hd, h2, h3]
  rfl

/-- WHAT POINT t WRITES BACK is block t of the layer of the arrays as the region finds them. -/
theorem flushed_eq (c : Dev nD) (t : Fin cfg0.N) :
    (dat0 V c).flushed 4 t = ((cfg0.win 4).blk t).view.read (Elt Ideal) (G (V c main_arg0) (V c main_v3) (V c main_v23) (V c main_v24)) := by
  show (cfg0.win 4).cut (grid0.coords t) ((dat0 V c).after 4 t) = _
  rw [after0_4]
  unfold out0_4
  rw [View.canon_unit_zero hz]
  simp only [View.ld_unit_zero (S := S1024x2048) hz, View.ld_unit_zero (S := S512x2048) hz, View.ld_unit_zero (S := S1x512) hz]
  obtain ⟨e0, e1, e2, e3, e4, e5, e6, e7, e8, e9⟩ := idx_facts t
  funext y
  obtain ⟨p, q, rfl⟩ : ∃ (p : Fin 1024) (q : Fin 512), y = ix2 p q := ⟨y 0, y 1, eq_ix2 y⟩
  have hemb : ((cfg0.win 4).blk t).view.emb (ix2 p q)
      = ix2 (⟨win0_4.index t (0 : Fin 2) * 1024 + p.val, by have := p.isLt; omega⟩ : Fin 8192)
            (⟨win0_4.index t (1 : Fin 2) * 512 + q.val, by have := q.isLt; omega⟩ : Fin 4096) := by
    funext a; apply Fin.ext
    match a with
    | ⟨0, _⟩ => show win0_4.index t (0 : Fin 2) * 1024 + 1 * p.val = win0_4.index t (0 : Fin 2) * 1024 + p.val; omega
    | ⟨1, _⟩ => show win0_4.index t (1 : Fin 2) * 512 + 1 * q.val = win0_4.index t (1 : Fin 2) * 512 + q.val; omega
  show k0_pay1 (F := Ideal) (iblk0 V c 0 t) (iblk0 V c 1 t) (iblk0 V c 2 t) (iblk0 V c 3 t) (ix2 p q)
      = G (V c main_arg0) (V c main_v3) (V c main_v23) (V c main_v24) (((cfg0.win 4).blk t).view.emb (ix2 p q))
  rw [hemb]
  refine point_eq (iblk0 V c 0 t) (iblk0 V c 1 t) (iblk0 V c 2 t) (iblk0 V c 3 t) (V c main_arg0) (V c main_v3) (V c main_v23) (V c main_v24) _ _ p q ?_ ?_ ?_ ?_
  · intro k
    show V c main_arg0 (((cfg0.win 0).blk t).view.emb (ix2 p k)) = V c main_arg0 _
    refine congrArg _ (funext fun a => Fin.ext ?_)
    match a with
    | ⟨0, _⟩ => show win0_0.index t (0 : Fin 2) * 1024 + 1 * p.val = win0_4.index t (0 : Fin 2) * 1024 + p.val; omega
    | ⟨1, _⟩ => show win0_0.index t (1 : Fin 2) * 2048 + 1 * k.val = k.val; omega
  · intro k
    show V c main_v3 (((cfg0.win 1).blk t).view.emb (ix2 q k)) = V c main_v3 _
    refine congrArg _ (funext fun a => Fin.ext ?_)
    match a with
    | ⟨0, _⟩ => show win0_1.index t (0 : Fin 2) * 512 + 1 * q.val = win0_4.index t (1 : Fin 2) * 512 + q.val; omega
    | ⟨1, _⟩ => show win0_1.index t (1 : Fin 2) * 2048 + 1 * k.val = k.val; omega
  · show V c main_v23 (((cfg0.win 2).blk t).view.emb (ix2 (0 : Fin 1) q)) = V c main_v23 _
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * q.val = win0_4.index t (1 : Fin 2) * 512 + q.val; omega
  · show V c main_v24 (((cfg0.win 3).blk t).view.emb (ix2 (0 : Fin 1) q)) = V c main_v24 _
    refine congrArg _ (funext fun a => Fin.ext ?_)
    match a with
    | ⟨0, _⟩ => show win0_3.index t (0 : Fin 2) * 1 + 1 * 0 = 0; omega
    | ⟨1, _⟩ => show win0_3.index t (1 : Fin 2) * 512 + 1 * q.val = win0_4.index t (1 : Fin 2) * 512 + q.val; omega

/-- An index of the output is in point t's block iff each coordinate is in the block's range on its axis. -/
theorem mem_blk (t : Fin cfg0.N) (i : S8192x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v43).slice (win0_4.rect t)).set ↔ _
  rw [View.set_slice_whole, Rect.mem_set_unit]
  exact Iff.rfl

/-- Every index of the output is in some point's block: the one at (row / 1024, column / 512). -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- THE ARRAY after the region: the layer of the arrays the region found. -/
theorem arr_eq (c : Dev nD) :
    (dat0 V c).arrAt 4 cfg0.N = G (V c main_arg0) (V c main_v3) (V c main_v23) (V c main_v24) :=
  (dat0 V c).arrAt_eq_of_cover 4 _ (fun t _ => flushed_eq V c t) cover

end Cert.KernelIdeal.Reg0

end
-- ==== Proof.KReg1.lean ====
/-
  Region 1: the array its write-backs leave, as one function of the arrays it finds.

  The grid is 8 row blocks of 1024 by 8 column blocks of 512.  At point t the body is handed rows [1024·i, 1024·i + 1024) of the activations, rows
  [512·j, 512·j + 512) of the weights and the matching entries of the two row vectors, and writes back block t of the output.
  Entry (p, n) of the output lies in exactly the block whose row range holds p and whose column range holds n, and what
  the body stores there is the folded hidden layer at (p, n) of the WHOLE arrays: every output entry depends on one row of
  activations, one row of weights and one entry of each row vector.  The blocks tile the output, so the array ends as that
  one function.
-/
import proofs.«162483_j26018911879634_2_alg».proof.Proof.Gen.KernelIdeal.Frame
import proofs.«162483_j26018911879634_2_alg».proof.Proof.KBody

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of the whole arrays. -/
def G (x : S8192x4096.Idx → EReal) (w : S4096x4096.Idx → EReal) (sc sh : S1x4096.Idx → EReal) : S8192x4096.Idx → EReal :=
  BinNet.hidKer x w (fun n => sc (ix2 (0 : Fin 1) n)) (fun n => sh (ix2 (0 : Fin 1) n))

/-- The printed index maps, decided over the grid: the activation block follows the output's row block, the weight block
    and the two row vectors follow its column block, and both block indices stay below 8. -/
theorem idx_facts : ∀ t : Fin cfg1.N,
    win1_0.index t (0 : Fin 2) = win1_4.index t (0 : Fin 2) ∧ win1_0.index t (1 : Fin 2) = 0
    ∧ win1_1.index t (0 : Fin 2) = win1_4.index t (1 : Fin 2) ∧ win1_1.index t (1 : Fin 2) = 0
    ∧ win1_2.index t (0 : Fin 2) = 0 ∧ win1_2.index t (1 : Fin 2) = win1_4.index t (1 : Fin 2)
    ∧ win1_3.index t (0 : Fin 2) = 0 ∧ win1_3.index t (1 : Fin 2) = win1_4.index t (1 : Fin 2)
    ∧ win1_4.index t (0 : Fin 2) ≤ 7 ∧ win1_4.index t (1 : Fin 2) ≤ 7 :=
  (by decide +kernel : ∀ t : Fin grid1.N, _)

/-- Every block of the output is some point's. -/
theorem idx_onto : ∀ (q0 : Fin 8) (q1 : Fin 8), ∃ t : Fin cfg1.N, win1_4.index t = ![q0.val, q1.val] :=
  (by decide +kernel : ∀ (q0 : Fin 8) (q1 : Fin 8), ∃ t : Fin grid1.N, win1_4.index t = ![q0.val, q1.val])

/-- One stored entry: if the blocks in hand are rows P and N of the whole arrays (and entry N of the row vectors), the body's
    entry (p, q) is the layer's entry (P, N). -/
theorem point_eq (x0 : FVec Ideal S1024x4096 .bf16) (x1 : FVec Ideal S512x4096 .bf16) (x2 x3 : FVec Ideal S1x512 .f32)
    (X : S8192x4096.Idx → EReal) (Wt : S4096x4096.Idx → EReal) (SC SH : S1x4096.Idx → EReal)
    (P : Fin 8192) (N : Fin 4096) (p : Fin 1024) (q : Fin 512)
    (h0 : ∀ k : Fin 4096, x0 (ix2 p k) = X (ix2 P k)) (h1 : ∀ k : Fin 4096, x1 (ix2 q k) = Wt (ix2 N k))
    (h2 : x2 (ix2 (0 : Fin 1) q) = SC (ix2 (0 : Fin 1) N)) (h3 : x3 (ix2 (0 : Fin 1) q) = SH (ix2 (0 : Fin 1) N)) :
    k1_pay1 (F := Ideal) x0 x1 x2 x3 (ix2 p q) = G X Wt SC SH (ix2 P N) := by
  have hd : BinNet.dotRows (x0) x1 p q = BinNet.dotRows (X) Wt P N :=
    Finset.sum_congr rfl fun k _ => by
      show x0 (ix2 p k) * x1 (ix2 q k) = X (ix2 P k) * Wt (ix2 N k)
      rw [h0 k, h1 k]
  rw [Body.pay1_apply, hd, h2, h3]
  rfl

/-- WHAT POINT t WRITES BACK is block t of the layer of the arrays as the region finds them. -/
theorem flushed_eq (c : Dev nD) (t : Fin cfg1.N) :
    (dat1 V c).flushed 4 t = ((cfg1.win 4).blk t).view.read (Elt Ideal) (G (V c main_v43) (V c main_v7) (V c main_v32) (V c main_v33)) := by
  show (cfg1.win 4).cut (grid1.coords t) ((dat1 V c).after 4 t) = _
  rw [after1_4]
  unfold out1_4
  rw [View.canon_unit_zero hz]
  simp only [View.ld_unit_zero (S := S1024x4096) hz, View.ld_unit_zero (S := S512x4096) hz, View.ld_unit_zero (S := S1x512) hz]
  obtain ⟨e0, e1, e2, e3, e4, e5, e6, e7, e8, e9⟩ := idx_facts t
  funext y
  obtain ⟨p, q, rfl⟩ : ∃ (p : Fin 1024) (q : Fin 512), y = ix2 p q := ⟨y 0, y 1, eq_ix2 y⟩
  have hemb : ((cfg1.win 4).blk t).view.emb (ix2 p q)
      = ix2 (⟨win1_4.index t (0 : Fin 2) * 1024 + p.val, by have := p.isLt; omega⟩ : Fin 8192)
            (⟨win1_4.index t (1 : Fin 2) * 512 + q.val, by have := q.isLt; omega⟩ : Fin 4096) := by
    funext a; apply Fin.ext
    match a with
    | ⟨0, _⟩ => show win1_4.index t (0 : Fin 2) * 1024 + 1 * p.val = win1_4.index t (0 : Fin 2) * 1024 + p.val; omega
    | ⟨1, _⟩ => show win1_4.index t (1 : Fin 2) * 512 + 1 * q.val = win1_4.index t (1 : Fin 2) * 512 + q.val; omega
  show k1_pay1 (F := Ideal) (iblk1 V c 0 t) (iblk1 V c 1 t) (iblk1 V c 2 t) (iblk1 V c 3 t) (ix2 p q)
      = G (V c main_v43) (V c main_v7) (V c main_v32) (V c main_v33) (((cfg1.win 4).blk t).view.emb (ix2 p q))
  rw [hemb]
  refine point_eq (iblk1 V c 0 t) (iblk1 V c 1 t) (iblk1 V c 2 t) (iblk1 V c 3 t) (V c main_v43) (V c main_v7) (V c main_v32) (V c main_v33) _ _ p q ?_ ?_ ?_ ?_
  · intro k
    show V c main_v43 (((cfg1.win 0).blk t).view.emb (ix2 p k)) = V c main_v43 _
    refine congrArg _ (funext fun a => Fin.ext ?_)
    match a with
    | ⟨0, _⟩ => show win1_0.index t (0 : Fin 2) * 1024 + 1 * p.val = win1_4.index t (0 : Fin 2) * 1024 + p.val; omega
    | ⟨1, _⟩ => show win1_0.index t (1 : Fin 2) * 4096 + 1 * k.val = k.val; omega
  · intro k
    show V c main_v7 (((cfg1.win 1).blk t).view.emb (ix2 q k)) = V c main_v7 _
    refine congrArg _ (funext fun a => Fin.ext ?_)
    match a with
    | ⟨0, _⟩ => show win1_1.index t (0 : Fin 2) * 512 + 1 * q.val = win1_4.index t (1 : Fin 2) * 512 + q.val; omega
    | ⟨1, _⟩ => show win1_1.index t (1 : Fin 2) * 4096 + 1 * k.val = k.val; omega
  · show V c main_v32 (((cfg1.win 2).blk t).view.emb (ix2 (0 : Fin 1) q)) = V c main_v32 _
    refine congrArg _ (funext fun a => Fin.ext ?_)
    match a with
    | ⟨0, _⟩ => show win1_2.index t (0 : Fin 2) * 1 + 1 * 0 = 0; omega
    | ⟨1, _⟩ => show win1_2.index t (1 : Fin 2) * 512 + 1 * q.val = win1_4.index t (1 : Fin 2) * 512 + q.val; omega
  · show V c main_v33 (((cfg1.win 3).blk t).view.emb (ix2 (0 : Fin 1) q)) = V c main_v33 _
    refine congrArg _ (funext fun a => Fin.ext ?_)
    match a with
    | ⟨0, _⟩ => show win1_3.index t (0 : Fin 2) * 1 + 1 * 0 = 0; omega
    | ⟨1, _⟩ => show win1_3.index t (1 : Fin 2) * 512 + 1 * q.val = win1_4.index t (1 : Fin 2) * 512 + q.val; omega

/-- An index of the output is in point t's block iff each coordinate is in the block's range on its axis. -/
theorem mem_blk (t : Fin cfg1.N) (i : S8192x4096.Idx) :
    i ∈ ((cfg1.win 4).blk t).view.set ↔ ∀ a : Fin 2, win1_4.index t a * S1024x512.size a ≤ (i a).val ∧ (i a).val < win1_4.index t a * S1024x512.size a + S1024x512.size a := by
  show i ∈ ((View.whole main_v44).slice (win1_4.rect t)).set ↔ _
  rw [View.set_slice_whole, Rect.mem_set_unit]
  exact Iff.rfl

/-- Every index of the output is in some point's block: the one at (row / 1024, column / 512). -/
theorem cover (i : S8192x4096.Idx) : ∃ t : Fin cfg1.N, (cfg1.win 4).flush t = true ∧ i ∈ ((cfg1.win 4).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win1_4.index t (0 : Fin 2) = (i 0).val / 1024 := congrFun ht 0
  have q1 : win1_4.index t (1 : Fin 2) = (i 1).val / 512 := congrFun ht 1
  refine ⟨t, flush1_4 t, ?_⟩
  rw [mem_blk]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 512 ≤ (i 1).val ∧ (i 1).val < win1_4.index t (1 : Fin 2) * 512 + 512; omega

/-- THE ARRAY after the region: the layer of the arrays the region found. -/
theorem arr_eq (c : Dev nD) :
    (dat1 V c).arrAt 4 cfg1.N = G (V c main_v43) (V c main_v7) (V c main_v32) (V c main_v33) :=
  (dat1 V c).arrAt_eq_of_cover 4 _ (fun t _ => flushed_eq V c t) cover

end Cert.KernelIdeal.Reg1

end
-- ==== Proof.KReg2.lean ====
/-
  Region 2: the array its write-backs leave, as one function of the arrays it finds.

  The grid is 8 row blocks of 1024 by 8 column blocks of 512.  At point t the body is handed rows [1024·i, 1024·i + 1024) of the activations, rows
  [512·j, 512·j + 512) of the weights and the matching entries of the two row vectors, and writes back block t of the output.
  Entry (p, n) of the output lies in exactly the block whose row range holds p and whose column range holds n, and what
  the body stores there is the folded hidden layer at (p, n) of the WHOLE arrays: every output entry depends on one row of
  activations, one row of weights and one entry of each row vector.  The blocks tile the output, so the array ends as that
  one function.
-/
import proofs.«162483_j26018911879634_2_alg».proof.Proof.Gen.KernelIdeal.Frame
import proofs.«162483_j26018911879634_2_alg».proof.Proof.KBody

set_option maxRecDepth 16384

noncomputable section

namespace Cert.KernelIdeal.Reg2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of the whole arrays. -/
def G (x : S8192x4096.Idx → EReal) (w : S4096x4096.Idx → EReal) (sc sh : S1x4096.Idx → EReal) : S8192x4096.Idx → EReal :=
  BinNet.hidKer x w (fun n => sc (ix2 (0 : Fin 1) n)) (fun n => sh (ix2 (0 : Fin 1) n))

/-- The printed index maps, decided over the grid: the activation block follows the output's row block, the weight block
    and the two row vectors follow its column block, and both block indices stay below 8. -/
theorem idx_facts : ∀ t : Fin cfg2.N,
    win2_0.index t (0 : Fin 2) = win2_4.index t (0 : Fin 2) ∧ win2_0.index t (1 : Fin 2) = 0
    ∧ win2_1.index t (0 : Fin 2) = win2_4.index t (1 : Fin 2) ∧ win2_1.index t (1 : Fin 2) = 0
    ∧ win2_2.index t (0 : Fin 2) = 0 ∧ win2_2.index t (1 : Fin 2) = win2_4.index t (1 : Fin 2)
    ∧ win2_3.index t (0 : Fin 2) = 0 ∧ win2_3.index t (1 : Fin 2) = win2_4.index t (1 : Fin 2)
    ∧ win2_4.index t (0 : Fin 2) ≤ 7 ∧ win2_4.index t (1 : Fin 2) ≤ 7 :=
  (by decide +kernel : ∀ t : Fin grid2.N, _)

/-- Every block of the output is some point's. -/
theorem idx_onto : ∀ (q0 : Fin 8) (q1 : Fin 8), ∃ t : Fin cfg2.N, win2_4.index t = ![q0.val, q1.val] :=
  (by decide +kernel : ∀ (q0 : Fin 8) (q1 : Fin 8), ∃ t : Fin grid2.N, win2_4.index t = ![q0.val, q1.val])

/-- One stored entry: if the blocks in hand are rows P and N of the whole arrays (and entry N of the row vectors), the body's
    entry (p, q) is the layer's entry (P, N). -/
theorem point_eq (x0 : FVec Ideal S1024x4096 .bf16) (x1 : FVec Ideal S512x4096 .bf16) (x2 x3 : FVec Ideal S1x512 .f32)
    (X : S8192x4096.Idx → EReal) (Wt : S4096x4096.Idx → EReal) (SC SH : S1x4096.Idx → EReal)
    (P : Fin 8192) (N : Fin 4096) (p : Fin 1024) (q : Fin 512)
    (h0 : ∀ k : Fin 4096, x0 (ix2 p k) = X (ix2 P k)) (h1 : ∀ k : Fin 4096, x1 (ix2 q k) = Wt (ix2 N k))
    (h2 : x2 (ix2 (0 : Fin 1) q) = SC (ix2 (0 : Fin 1) N)) (h3 : x3 (ix2 (0 : Fin 1) q) = SH (ix2 (0 : Fin 1) N)) :
    k2_pay1 (F := Ideal) x0 x1 x2 x3 (ix2 p q) = G X Wt SC SH (ix2 P N) := by
  have hd : BinNet.dotRows (x0) x1 p q = BinNet.dotRows (X) Wt P N :=
    Finset.sum_congr rfl fun k _ => by
      show x0 (ix2 p k) * x1 (ix2 q k) = X (ix2 P k) * Wt (ix2 N k)
      rw [h0 k, h1 k]
  rw [Body.pay2_apply, hd, h2, h3]
  rfl

/-- WHAT POINT t WRITES BACK is block t of the layer of the arrays as the region finds them. -/
theorem flushed_eq (c : Dev nD) (t : Fin cfg2.N) :
    (dat2 V c).flushed 4 t = ((cfg2.win 4).blk t).view.read (Elt Ideal) (G (V c main_v44) (V c main_v11) (V c main_v41) (V c main_v42)) := by
  show (cfg2.win 4).cut (grid2.coords t) ((dat2 V c).after 4 t) = _
  rw [after2_4]
  unfold out2_4
  rw [View.canon_unit_zero hz]
  simp only [View.ld_unit_zero (S := S1024x4096) hz, View.ld_unit_zero (S := S512x4096) hz, View.ld_unit_zero (S := S1x512) hz]
  obtain ⟨e0, e1, e2, e3, e4, e5, e6, e7, e8, e9⟩ := idx_facts t
  funext y
  obtain ⟨p, q, rfl⟩ : ∃ (p : Fin 1024) (q : Fin 512), y = ix2 p q := ⟨y 0, y 1, eq_ix2 y⟩
  have hemb : ((cfg2.win 4).blk t).view.emb (ix2 p q)
      = ix2 (⟨win2_4.index t (0 : Fin 2) * 1024 + p.val, by have := p.isLt; omega⟩ : Fin 8192)
            (⟨win2_4.index t (1 : Fin 2) * 512 + q.val, by have := q.isLt; omega⟩ : Fin 4096) := by
    funext a; apply Fin.ext
    match a with
    | ⟨0, _⟩ => show win2_4.index t (0 : Fin 2) * 1024 + 1 * p.val = win2_4.index t (0 : Fin 2) * 1024 + p.val; omega
    | ⟨1, _⟩ => show win2_4.index t (1 : Fin 2) * 512 + 1 * q.val = win2_4.index t (1 : Fin 2) * 512 + q.val; omega
  show k2_pay1 (F := Ideal) (iblk2 V c 0 t) (iblk2 V c 1 t) (iblk2 V c 2 t) (iblk2 V c 3 t) (ix2 p q)
      = G (V c main_v44) (V c main_v11) (V c main_v41) (V c main_v42) (((cfg2.win 4).blk t).view.emb (ix2 p q))
  rw [hemb]
  refine point_eq (iblk2 V c 0 t) (iblk2 V c 1 t) (iblk2 V c 2 t) (iblk2 V c 3 t) (V c main_v44) (V c main_v11) (V c main_v41) (V c main_v42) _ _ p q ?_ ?_ ?_ ?_
  · intro k
    show V c main_v44 (((cfg2.win 0).blk t).view.emb (ix2 p k)) = V c main_v44 _
    refine congrArg _ (funext fun a => Fin.ext ?_)
    match a with
    | ⟨0, _⟩ => show win2_0.index t (0 : Fin 2) * 1024 + 1 * p.val = win2_4.index t (0 : Fin 2) * 1024 + p.val; omega
    | ⟨1, _⟩ => show win2_0.index t (1 : Fin 2) * 4096 + 1 * k.val = k.val; omega
  · intro k
    show V c main_v11 (((cfg2.win 1).blk t).view.emb (ix2 q k)) = V c main_v11 _
    refine congrArg _ (funext fun a => Fin.ext ?_)
    match a with
    | ⟨0, _⟩ => show win2_1.index t (0 : Fin 2) * 512 + 1 * q.val = win2_4.index t (1 : Fin 2) * 512 + q.val; omega
    | ⟨1, _⟩ => show win2_1.index t (1 : Fin 2) * 4096 + 1 * k.val = k.val; omega
  · show V c main_v41 (((cfg2.win 2).blk t).view.emb (ix2 (0 : Fin 1) q)) = V c main_v41 _
    refine congrArg _ (funext fun a => Fin.ext ?_)
    match a with
    | ⟨0, _⟩ => show win2_2.index t (0 : Fin 2) * 1 + 1 * 0 = 0; omega
    | ⟨1, _⟩ => show win2_2.index t (1 : Fin 2) * 512 + 1 * q.val = win2_4.index t (1 : Fin 2) * 512 + q.val; omega
  · show V c main_v42 (((cfg2.win 3).blk t).view.emb (ix2 (0 : Fin 1) q)) = V c main_v42 _
    refine congrArg _ (funext fun a => Fin.ext ?_)
    match a with
    | ⟨0, _⟩ => show win2_3.index t (0 : Fin 2) * 1 + 1 * 0 = 0; omega
    | ⟨1, _⟩ => show win2_3.index t (1 : Fin 2) * 512 + 1 * q.val = win2_4.index t (1 : Fin 2) * 512 + q.val; omega

/-- An index of the output is in point t's block iff each coordinate is in the block's range on its axis. -/
theorem mem_blk (t : Fin cfg2.N) (i : S8192x4096.Idx) :
    i ∈ ((cfg2.win 4).blk t).view.set ↔ ∀ a : Fin 2, win2_4.index t a * S1024x512.size a ≤ (i a).val ∧ (i a).val < win2_4.index t a * S1024x512.size a + S1024x512.size a := by
  show i ∈ ((View.whole main_v45).slice (win2_4.rect t)).set ↔ _
  rw [View.set_slice_whole, Rect.mem_set_unit]
  exact Iff.rfl

/-- Every index of the output is in some point's block: the one at (row / 1024, column / 512). -/
theorem cover (i : S8192x4096.Idx) : ∃ t : Fin cfg2.N, (cfg2.win 4).flush t = true ∧ i ∈ ((cfg2.win 4).blk t).view.set := by
  have hi0 : (i 0).val < 8192 := (i 0).isLt
  have hi1 : (i 1).val < 4096 := (i 1).isLt
  obtain ⟨t, ht⟩ := idx_onto ⟨(i 0).val / 1024, by omega⟩ ⟨(i 1).val / 512, by omega⟩
  have q0 : win2_4.index t (0 : Fin 2) = (i 0).val / 1024 := congrFun ht 0
  have q1 : win2_4.index t (1 : Fin 2) = (i 1).val / 512 := congrFun ht 1
  refine ⟨t, flush2_4 t, ?_⟩
  rw [mem_blk]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 512 ≤ (i 1).val ∧ (i 1).val < win2_4.index t (1 : Fin 2) * 512 + 512; omega

/-- THE ARRAY after the region: the layer of the arrays the region found. -/
theorem arr_eq (c : Dev nD) :
    (dat2 V c).arrAt 4 cfg2.N = G (V c main_v44) (V c main_v11) (V c main_v41) (V c main_v42) :=
  (dat2 V c).arrAt_eq_of_cover 4 _ (fun t _ => flushed_eq V c t) cover

end Cert.KernelIdeal.Reg2

end
-- ==== Proof.KReg3.lean ====
/-
  Region 3: the array its write-backs leave, as one function of the arrays it finds.

  The grid is 16 row blocks of 512 (one axis; every block spans all 1024 columns).  At point t the body is handed rows [512·i, 512·i + 512) of the activations, rows
  [0, 1024) (all of them) of the weights and the matching entries of the two row vectors, and writes back block t of the output.
  Entry (p, n) of the output lies in exactly the block whose row range holds p and whose column range holds n, and what
  the body stores there is the last layer (product plus bias) at (p, n) of the WHOLE arrays: every output entry depends on one row of
  activations, one row of weights and one entry of each row vector.  The blocks tile the output, so the array ends as that
  one function.
-/
import proofs.«162483_j26018911879634_2_alg».proof.Proof.Gen.KernelIdeal.Frame
import proofs.«162483_j26018911879634_2_alg».proof.Proof.KBody

set_option maxRecDepth 16384

noncomputable section

namespace Cert.KernelIdeal.Reg3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer as one function of the whole arrays. -/
def G (a : S8192x4096.Idx → EReal) (w : S1024x4096.Idx → EReal) (b : S1x1024.Idx → EReal) : S8192x1024.Idx → EReal :=
  BinNet.outLayer a w (fun n => b (ix2 (0 : Fin 1) n))

/-- The printed index maps, decided over the grid: the activation block follows the output's row block; the weights and the
    bias row are whole-array windows; the row block index stays below 16 and the column block index is 0. -/
theorem idx_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) ≤ 15 ∧ win3_3.index t (1 : Fin 2) = 0 :=
  (by decide +kernel : ∀ t : Fin grid3.N, _)

/-- Every row block of the output is some point's. -/
theorem idx_onto : ∀ (q0 : Fin 16), ∃ t : Fin cfg3.N, win3_3.index t = ![q0.val, 0] :=
  (by decide +kernel : ∀ (q0 : Fin 16), ∃ t : Fin grid3.N, win3_3.index t = ![q0.val, 0])

/-- One stored entry: if the activation block in hand is row P of the whole array, the body's entry (p, q) is the layer's
    entry (P, q). -/
theorem point_eq (x0 : FVec Ideal S512x4096 .bf16) (x1 : FVec Ideal S1024x4096 .bf16) (x2 : FVec Ideal S1x1024 .f32)
    (A : S8192x4096.Idx → EReal) (Wt : S1024x4096.Idx → EReal) (B : S1x1024.Idx → EReal)
    (P : Fin 8192) (p : Fin 512) (q : Fin 1024)
    (h0 : ∀ k : Fin 4096, x0 (ix2 p k) = A (ix2 P k)) (h1 : ∀ k : Fin 4096, x1 (ix2 q k) = Wt (ix2 q k))
    (h2 : x2 (ix2 (0 : Fin 1) q) = B (ix2 (0 : Fin 1) q)) :
    k3_pay1 (F := Ideal) x0 x1 x2 (ix2 p q) = G A Wt B (ix2 P q) := by
  have hd : BinNet.dotRows x0 x1 p q = BinNet.dotRows A Wt P q :=
    Finset.sum_congr rfl fun k _ => by
      show x0 (ix2 p k) * x1 (ix2 q k) = A (ix2 P k) * Wt (ix2 q k)
      rw [h0 k, h1 k]
  rw [Body.pay3_apply, hd, h2]
  rfl

/-- WHAT POINT t WRITES BACK is block t of the layer of the arrays as the region finds them. -/
theorem flushed_eq (c : Dev nD) (t : Fin cfg3.N) :
    (dat3 V c).flushed 3 t = ((cfg3.win 3).blk t).view.read (Elt Ideal) (G (V c main_v45) (V c main_v46) (V c main_v48)) := by
  show (cfg3.win 3).cut (grid3.coords t) ((dat3 V c).after 3 t) = _
  rw [after3_3]
  unfold out3_3
  rw [View.canon_unit_zero hz]
  simp only [View.ld_unit_zero (S := S512x4096) hz, View.ld_unit_zero (S := S1024x4096) hz, View.ld_unit_zero (S := S1x1024) hz]
  obtain ⟨e0, e1, e2, e3, e4, e5, e6, e7⟩ := idx_facts t
  funext y
  obtain ⟨p, q, rfl⟩ : ∃ (p : Fin 512) (q : Fin 1024), y = ix2 p q := ⟨y 0, y 1, eq_ix2 y⟩
  have hemb : ((cfg3.win 3).blk t).view.emb (ix2 p q)
      = ix2 (⟨win3_3.index t (0 : Fin 2) * 512 + p.val, by have := p.isLt; omega⟩ : Fin 8192) q := by
    funext a; apply Fin.ext
    match a with
    | ⟨0, _⟩ => show win3_3.index t (0 : Fin 2) * 512 + 1 * p.val = win3_3.index t (0 : Fin 2) * 512 + p.val; omega
    | ⟨1, _⟩ => show win3_3.index t (1 : Fin 2) * 1024 + 1 * q.val = q.val; omega
  show k3_pay1 (F := Ideal) (iblk3 V c 0 t) (iblk3 V c 1 t) (iblk3 V c 2 t) (ix2 p q)
      = G (V c main_v45) (V c main_v46) (V c main_v48) (((cfg3.win 3).blk t).view.emb (ix2 p q))
  rw [hemb]
  refine point_eq (iblk3 V c 0 t) (iblk3 V c 1 t) (iblk3 V c 2 t) (V c main_v45) (V c main_v46) (V c main_v48) _ p q ?_ ?_ ?_
  · intro k
    show V c main_v45 (((cfg3.win 0).blk t).view.emb (ix2 p k)) = V c main_v45 _
    refine congrArg _ (funext fun a => Fin.ext ?_)
    match a with
    | ⟨0, _⟩ => show win3_0.index t (0 : Fin 2) * 512 + 1 * p.val = win3_3.index t (0 : Fin 2) * 512 + p.val; omega
    | ⟨1, _⟩ => show win3_0.index t (1 : Fin 2) * 4096 + 1 * k.val = k.val; omega
  · intro k
    show V c main_v46 (((cfg3.win 1).blk t).view.emb (ix2 q k)) = V c main_v46 _
    refine congrArg _ (funext fun a => Fin.ext ?_)
    match a with
    | ⟨0, _⟩ => show win3_1.index t (0 : Fin 2) * 1024 + 1 * q.val = q.val; omega
    | ⟨1, _⟩ => show win3_1.index t (1 : Fin 2) * 4096 + 1 * k.val = k.val; omega
  · show V c main_v48 (((cfg3.win 2).blk t).view.emb (ix2 (0 : Fin 1) q)) = V c main_v48 _
    refine congrArg _ (funext fun a => Fin.ext ?_)
    match a with
    | ⟨0, _⟩ => show win3_2.index t (0 : Fin 2) * 1 + 1 * 0 = 0; omega
    | ⟨1, _⟩ => show win3_2.index t (1 : Fin 2) * 1024 + 1 * q.val = q.val; omega

/-- An index of the output is in point t's block iff each coordinate is in the block's range on its axis. -/
theorem mem_blk (t : Fin cfg3.N) (i : S8192x1024.Idx) :
    i ∈ ((cfg3.win 3).blk t).view.set ↔ ∀ a : Fin 2, win3_3.index t a * S512x1024.size a ≤ (i a).val ∧ (i a).val < win3_3.index t a * S512x1024.size a + S512x1024.size a := by
  show i ∈ ((View.whole main_v49).slice (win3_3.rect t)).set ↔ _
  rw [View.set_slice_whole, Rect.mem_set_unit]
  exact Iff.rfl

/-- Every index of the output is in some point's block: the one at row / 512. -/
theorem cover (i : S8192x1024.Idx) : ∃ t : Fin cfg3.N, (cfg3.win 3).flush t = true ∧ i ∈ ((cfg3.win 3).blk t).view.set := by
  have hi0 : (i 0).val < 8192 := (i 0).isLt
  have hi1 : (i 1).val < 1024 := (i 1).isLt
  obtain ⟨t, ht⟩ := idx_onto ⟨(i 0).val / 512, by omega⟩
  have q0 : win3_3.index t (0 : Fin 2) = (i 0).val / 512 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 1024 ≤ (i 1).val ∧ (i 1).val < win3_3.index t (1 : Fin 2) * 1024 + 1024; omega

/-- THE ARRAY after the region: the last layer of the arrays the region found. -/
theorem arr_eq (c : Dev nD) :
    (dat3 V c).arrAt 3 cfg3.N = G (V c main_v45) (V c main_v46) (V c main_v48) :=
  (dat3 V c).arrAt_eq_of_cover 3 _ (fun t _ => flushed_eq V c t) cover

end Cert.KernelIdeal.Reg3

end
-- ==== Proof.KHost.lean ====
/-
  What the program's host operations before its first region leave in the buffers the regions read.

  Four weight and activation arrays are replaced by their signs (+1 where an entry is positive, −1 everywhere else), and each
  hidden layer's normalisation is folded into a scale g · (v + ε)^(−1/2) and a shift (b − μ) · scale + β, both stored with a
  leading axis of length one. Each buffer is read at the first region's entry by walking back over the stretches of
  operations that do not write it, reading the stretch that does, and walking its operands back in the same way.
-/
import proofs.«162483_j26018911879634_2_alg».proof.Proof.Gen.KernelIdeal.Frame
import proofs.«162483_j26018911879634_2_alg».proof.Proof.Spec
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.HostVal

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- No operation of the stretch writes the buffer. -/
abbrev Unwritten (ops : List (HloOp τ sig (Elt Ideal))) (r : Ref sig .tc) : Prop :=
  ∀ op ∈ ops, Proc.devRef (τ := τ) .tc r ∉ op.writes

/-- Decides `Unwritten ops r` for a literal stretch and a literal buffer: each operation writes one buffer, and it is another one. -/
macro "unwritten " ops:ident : tactic => `(tactic|
  exact List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The buffer is written by no operation of the stretch, so it holds after the stretch what it held before. -/
macro "skip_stretch " ops:ident : tactic => `(tactic|
  exact StableHlo.after_of_forall_not_mem _ _ (by unwritten $ops))

/-! ## A buffer no stretch has written yet holds its launch contents -/

section Launch
variable (r : Ref sig .tc)

theorem W0_launch : W0 m ρ c (Proc.devRef .tc r) = m ((c : Thread nD τ).loc r) := rfl
theorem W1_launch (h0 : Unwritten hostOps0 r) :
    W1 m ρ c (Proc.devRef .tc r) = m ((c : Thread nD τ).loc r) :=
  (StableHlo.after_of_forall_not_mem _ _ h0).trans (W0_launch m ρ c r)
theorem W2_launch (h0 : Unwritten hostOps0 r) (h1 : Unwritten hostOps0_1 r) :
    W2 m ρ c (Proc.devRef .tc r) = m ((c : Thread nD τ).loc r) :=
  (StableHlo.after_of_forall_not_mem _ _ h1).trans (W1_launch m ρ c r h0)
theorem W3_launch (h0 : Unwritten hostOps0 r) (h1 : Unwritten hostOps0_1 r) (h2 : Unwritten hostOps0_2 r) :
    W3 m ρ c (Proc.devRef .tc r) = m ((c : Thread nD τ).loc r) :=
  (StableHlo.after_of_forall_not_mem _ _ h2).trans (W2_launch m ρ c r h0 h1)
theorem W4_launch (h0 : Unwritten hostOps0 r) (h1 : Unwritten hostOps0_1 r) (h2 : Unwritten hostOps0_2 r) (h3 : Unwritten hostOps0_3 r) :
    W4 m ρ c (Proc.devRef .tc r) = m ((c : Thread nD τ).loc r) :=
  (StableHlo.after_of_forall_not_mem _ _ h3).trans (W3_launch m ρ c r h0 h1 h2)
theorem W5_launch (h0 : Unwritten hostOps0 r) (h1 : Unwritten hostOps0_1 r) (h2 : Unwritten hostOps0_2 r) (h3 : Unwritten hostOps0_3 r) (h4 : Unwritten hostOps0_4 r) :
    W5 m ρ c (Proc.devRef .tc r) = m ((c : Thread nD τ).loc r) :=
  (StableHlo.after_of_forall_not_mem _ _ h4).trans (W4_launch m ρ c r h0 h1 h2 h3)
theorem W6_launch (h0 : Unwritten hostOps0 r) (h1 : Unwritten hostOps0_1 r) (h2 : Unwritten hostOps0_2 r) (h3 : Unwritten hostOps0_3 r) (h4 : Unwritten hostOps0_4 r) (h5 : Unwritten hostOps0_5 r) :
    W6 m ρ c (Proc.devRef .tc r) = m ((c : Thread nD τ).loc r) :=
  (StableHlo.after_of_forall_not_mem _ _ h5).trans (W5_launch m ρ c r h0 h1 h2 h3 h4)
theorem W7_launch (h0 : Unwritten hostOps0 r) (h1 : Unwritten hostOps0_1 r) (h2 : Unwritten hostOps0_2 r) (h3 : Unwritten hostOps0_3 r) (h4 : Unwritten hostOps0_4 r) (h5 : Unwritten hostOps0_5 r) (h6 : Unwritten hostOps0_6 r) :
    W7 m ρ c (Proc.devRef .tc r) = m ((c : Thread nD τ).loc r) :=
  (StableHlo.after_of_forall_not_mem _ _ h6).trans (W6_launch m ρ c r h0 h1 h2 h3 h4 h5)
theorem W8_launch (h0 : Unwritten hostOps0 r) (h1 : Unwritten hostOps0_1 r) (h2 : Unwritten hostOps0_2 r) (h3 : Unwritten hostOps0_3 r) (h4 : Unwritten hostOps0_4 r) (h5 : Unwritten hostOps0_5 r) (h6 : Unwritten hostOps0_6 r) (h7 : Unwritten hostOps0_7 r) :
    W8 m ρ c (Proc.devRef .tc r) = m ((c : Thread nD τ).loc r) :=
  (StableHlo.after_of_forall_not_mem _ _ h7).trans (W7_launch m ρ c r h0 h1 h2 h3 h4 h5 h6)
theorem W9_launch (h0 : Unwritten hostOps0 r) (h1 : Unwritten hostOps0_1 r) (h2 : Unwritten hostOps0_2 r) (h3 : Unwritten hostOps0_3 r) (h4 : Unwritten hostOps0_4 r) (h5 : Unwritten hostOps0_5 r) (h6 : Unwritten hostOps0_6 r) (h7 : Unwritten hostOps0_7 r) (h8 : Unwritten hostOps0_8 r) :
    W9 m ρ c (Proc.devRef .tc r) = m ((c : Thread nD τ).loc r) :=
  (StableHlo.after_of_forall_not_mem _ _ h8).trans (W8_launch m ρ c r h0 h1 h2 h3 h4 h5 h6 h7)

end Launch

/-- The buffer is written by none of the first 2 stretches. -/
macro "launch2" : tactic => `(tactic|
  exact W2_launch _ _ _ _ (by unwritten hostOps0) (by unwritten hostOps0_1))

/-- The buffer is written by none of the first 4 stretches. -/
macro "launch4" : tactic => `(tactic|
  exact W4_launch _ _ _ _ (by unwritten hostOps0) (by unwritten hostOps0_1) (by unwritten hostOps0_2) (by unwritten hostOps0_3))

/-- The buffer is written by none of the first 6 stretches. -/
macro "launch6" : tactic => `(tactic|
  exact W6_launch _ _ _ _ (by unwritten hostOps0) (by unwritten hostOps0_1) (by unwritten hostOps0_2) (by unwritten hostOps0_3) (by unwritten hostOps0_4) (by unwritten hostOps0_5))

/-- The buffer is written by none of the first 8 stretches. -/
macro "launch8" : tactic => `(tactic|
  exact W8_launch _ _ _ _ (by unwritten hostOps0) (by unwritten hostOps0_1) (by unwritten hostOps0_2) (by unwritten hostOps0_3) (by unwritten hostOps0_4) (by unwritten hostOps0_5) (by unwritten hostOps0_6) (by unwritten hostOps0_7))

/-- The buffer is written by none of the first 9 stretches. -/
macro "launch9" : tactic => `(tactic|
  exact W9_launch _ _ _ _ (by unwritten hostOps0) (by unwritten hostOps0_1) (by unwritten hostOps0_2) (by unwritten hostOps0_3) (by unwritten hostOps0_4) (by unwritten hostOps0_5) (by unwritten hostOps0_6) (by unwritten hostOps0_7) (by unwritten hostOps0_8))

/-! ## The sign arrays -/

/-- The sign of every entry, as the program spells it: compare with the word of 0, select between the words of 1 and −1,
    and narrow the float format, which changes no extended real. -/
theorem sgn_term {s : Shape} (hb : S_.BroadcastsInDim s (![] : Fin 0 → Fin s.rank)) (x : FVec Ideal s .f32) :
    (truncf .bf16 (select (cmpf .ogt x (broadcastInDim s ![] hb (constant (F := Ideal) S_ .f32 0x00000000#32)))
        (broadcastInDim s ![] hb (constant (F := Ideal) S_ .f32 0x3F800000#32))
        (broadcastInDim s ![] hb (constant (F := Ideal) S_ .f32 0xBF800000#32))) bitsLt_bf16_f32 : s.Idx → EReal)
      = BinNet.sgnArr x := by
  funext j; rfl

/-! ### Argument 1: its comparison with zero, the words of 1 and −1, the selection, the narrowing -/

theorem v3_cmp : (W1 m ρ c (Proc.devRef .tc main_v1) : S4096x2048.Idx → BitVec 1)
    = cmpf .ogt (m ((c : Thread nD τ).loc main_arg1) : S4096x2048.Idx → EReal) (broadcastInDim S4096x2048 ![] bcast_S_S4096x2048 (constant (F := Ideal) S_ .f32 0x00000000#32)) := by
  show StableHlo.after hostOps0 (W0 m ρ c) (Proc.devRef .tc main_v1) = _
  after_results <;> rfl
theorem v3_one : W1 m ρ c (Proc.devRef .tc main_cst_0) = constant (F := Ideal) S_ .f32 0x3F800000#32 := by
  show StableHlo.after hostOps0 (W0 m ρ c) (Proc.devRef .tc main_cst_0) = _
  after_results <;> rfl
theorem v3_mone : W1 m ρ c (Proc.devRef .tc main_cst_1) = constant (F := Ideal) S_ .f32 0xBF800000#32 := by
  show StableHlo.after hostOps0 (W0 m ρ c) (Proc.devRef .tc main_cst_1) = _
  after_results <;> rfl
theorem v3_sel : (W2 m ρ c (Proc.devRef .tc main_v2) : S4096x2048.Idx → EReal)
    = select (W1 m ρ c (Proc.devRef .tc main_v1) : S4096x2048.Idx → BitVec 1)
        (broadcastInDim S4096x2048 ![] bcast_S_S4096x2048 (W1 m ρ c (Proc.devRef .tc main_cst_0)))
        (broadcastInDim S4096x2048 ![] bcast_S_S4096x2048 (W1 m ρ c (Proc.devRef .tc main_cst_1))) := by
  show StableHlo.after hostOps0_1 (W1 m ρ c) (Proc.devRef .tc main_v2) = _
  generalize W1 m ρ c = V
  after_results <;> rfl
theorem v3_narrow : (W3 m ρ c (Proc.devRef .tc main_v3) : S4096x2048.Idx → EReal)
    = truncf (F := Ideal) (s := S4096x2048) (φ := .f32) .bf16 (W2 m ρ c (Proc.devRef .tc main_v2)) bitsLt_bf16_f32 := by
  show StableHlo.after hostOps0_2 (W2 m ρ c) (Proc.devRef .tc main_v3) = _
  generalize W2 m ρ c = V
  after_results <;> rfl
/-- No later stretch writes the narrowed array. -/
theorem v3_kept : W9 m ρ c (Proc.devRef .tc main_v3) = W3 m ρ c (Proc.devRef .tc main_v3) :=
  calc W9 m ρ c (Proc.devRef .tc main_v3)
    _ = W8 m ρ c (Proc.devRef .tc main_v3) := by skip_stretch hostOps0_8
    _ = W7 m ρ c (Proc.devRef .tc main_v3) := by skip_stretch hostOps0_7
    _ = W6 m ρ c (Proc.devRef .tc main_v3) := by skip_stretch hostOps0_6
    _ = W5 m ρ c (Proc.devRef .tc main_v3) := by skip_stretch hostOps0_5
    _ = W4 m ρ c (Proc.devRef .tc main_v3) := by skip_stretch hostOps0_4
    _ = W3 m ρ c (Proc.devRef .tc main_v3) := by skip_stretch hostOps0_3
/-- At the first region's entry the buffer holds the sign of every entry of argument 1. -/
theorem v3_eq : (W9 m ρ c (Proc.devRef .tc main_v3) : S4096x2048.Idx → EReal) = BinNet.sgnArr (m ((c : Thread nD τ).loc main_arg1)) := by
  rw [v3_kept, v3_narrow, v3_sel, v3_cmp, v3_one, v3_mone]
  exact sgn_term bcast_S_S4096x2048 _

/-! ### Argument 7: its comparison with zero, the words of 1 and −1, the selection, the narrowing -/

theorem v7_cmp : (W3 m ρ c (Proc.devRef .tc main_v5) : S4096x4096.Idx → BitVec 1)
    = cmpf .ogt (W2 m ρ c (Proc.devRef .tc main_arg7) : S4096x4096.Idx → EReal) (broadcastInDim S4096x4096 ![] bcast_S_S4096x4096 (constant (F := Ideal) S_ .f32 0x00000000#32)) := by
  show StableHlo.after hostOps0_2 (W2 m ρ c) (Proc.devRef .tc main_v5) = _
  generalize W2 m ρ c = V
  after_results <;> rfl
theorem v7_one : W3 m ρ c (Proc.devRef .tc main_cst_3) = constant (F := Ideal) S_ .f32 0x3F800000#32 := by
  show StableHlo.after hostOps0_2 (W2 m ρ c) (Proc.devRef .tc main_cst_3) = _
  generalize W2 m ρ c = V
  after_results <;> rfl
theorem v7_mone : W3 m ρ c (Proc.devRef .tc main_cst_4) = constant (F := Ideal) S_ .f32 0xBF800000#32 := by
  show StableHlo.after hostOps0_2 (W2 m ρ c) (Proc.devRef .tc main_cst_4) = _
  generalize W2 m ρ c = V
  after_results <;> rfl
theorem v7_sel : (W4 m ρ c (Proc.devRef .tc main_v6) : S4096x4096.Idx → EReal)
    = select (W3 m ρ c (Proc.devRef .tc main_v5) : S4096x4096.Idx → BitVec 1)
        (broadcastInDim S4096x4096 ![] bcast_S_S4096x4096 (W3 m ρ c (Proc.devRef .tc main_cst_3)))
        (broadcastInDim S4096x4096 ![] bcast_S_S4096x4096 (W3 m ρ c (Proc.devRef .tc main_cst_4))) := by
  show StableHlo.after hostOps0_3 (W3 m ρ c) (Proc.devRef .tc main_v6) = _
  generalize W3 m ρ c = V
  after_results <;> rfl
theorem v7_narrow : (W5 m ρ c (Proc.devRef .tc main_v7) : S4096x4096.Idx → EReal)
    = truncf (F := Ideal) (s := S4096x4096) (φ := .f32) .bf16 (W4 m ρ c (Proc.devRef .tc main_v6)) bitsLt_bf16_f32 := by
  show StableHlo.after hostOps0_4 (W4 m ρ c) (Proc.devRef .tc main_v7) = _
  generalize W4 m ρ c = V
  after_results <;> rfl
/-- No later stretch writes the narrowed array. -/
theorem v7_kept : W9 m ρ c (Proc.devRef .tc main_v7) = W5 m ρ c (Proc.devRef .tc main_v7) :=
  calc W9 m ρ c (Proc.devRef .tc main_v7)
    _ = W8 m ρ c (Proc.devRef .tc main_v7) := by skip_stretch hostOps0_8
    _ = W7 m ρ c (Proc.devRef .tc main_v7) := by skip_stretch hostOps0_7
    _ = W6 m ρ c (Proc.devRef .tc main_v7) := by skip_stretch hostOps0_6
    _ = W5 m ρ c (Proc.devRef .tc main_v7) := by skip_stretch hostOps0_5
/-- No earlier stretch writes the argument. -/
theorem v7_arg : W2 m ρ c (Proc.devRef .tc main_arg7) = m ((c : Thread nD τ).loc main_arg7) := by launch2
/-- At the first region's entry the buffer holds the sign of every entry of argument 7. -/
theorem v7_eq : (W9 m ρ c (Proc.devRef .tc main_v7) : S4096x4096.Idx → EReal) = BinNet.sgnArr (m ((c : Thread nD τ).loc main_arg7)) := by
  rw [v7_kept, v7_narrow, v7_sel, v7_cmp, v7_one, v7_mone, v7_arg]
  exact sgn_term bcast_S_S4096x4096 _

/-! ### Argument 13: its comparison with zero, the words of 1 and −1, the selection, the narrowing -/

theorem v11_cmp : (W5 m ρ c (Proc.devRef .tc main_v9) : S4096x4096.Idx → BitVec 1)
    = cmpf .ogt (W4 m ρ c (Proc.devRef .tc main_arg13) : S4096x4096.Idx → EReal) (broadcastInDim S4096x4096 ![] bcast_S_S4096x4096 (constant (F := Ideal) S_ .f32 0x00000000#32)) := by
  show StableHlo.after hostOps0_4 (W4 m ρ c) (Proc.devRef .tc main_v9) = _
  generalize W4 m ρ c = V
  after_results <;> rfl
theorem v11_one : W5 m ρ c (Proc.devRef .tc main_cst_6) = constant (F := Ideal) S_ .f32 0x3F800000#32 := by
  show StableHlo.after hostOps0_4 (W4 m ρ c) (Proc.devRef .tc main_cst_6) = _
  generalize W4 m ρ c = V
  after_results <;> rfl
theorem v11_mone : W5 m ρ c (Proc.devRef .tc main_cst_7) = constant (F := Ideal) S_ .f32 0xBF800000#32 := by
  show StableHlo.after hostOps0_4 (W4 m ρ c) (Proc.devRef .tc main_cst_7) = _
  generalize W4 m ρ c = V
  after_results <;> rfl
theorem v11_sel : (W6 m ρ c (Proc.devRef .tc main_v10) : S4096x4096.Idx → EReal)
    = select (W5 m ρ c (Proc.devRef .tc main_v9) : S4096x4096.Idx → BitVec 1)
        (broadcastInDim S4096x4096 ![] bcast_S_S4096x4096 (W5 m ρ c (Proc.devRef .tc main_cst_6)))
        (broadcastInDim S4096x4096 ![] bcast_S_S4096x4096 (W5 m ρ c (Proc.devRef .tc main_cst_7))) := by
  show StableHlo.after hostOps0_5 (W5 m ρ c) (Proc.devRef .tc main_v10) = _
  generalize W5 m ρ c = V
  after_results <;> rfl
theorem v11_narrow : (W7 m ρ c (Proc.devRef .tc main_v11) : S4096x4096.Idx → EReal)
    = truncf (F := Ideal) (s := S4096x4096) (φ := .f32) .bf16 (W6 m ρ c (Proc.devRef .tc main_v10)) bitsLt_bf16_f32 := by
  show StableHlo.after hostOps0_6 (W6 m ρ c) (Proc.devRef .tc main_v11) = _
  generalize W6 m ρ c = V
  after_results <;> rfl
/-- No later stretch writes the narrowed array. -/
theorem v11_kept : W9 m ρ c (Proc.devRef .tc main_v11) = W7 m ρ c (Proc.devRef .tc main_v11) :=
  calc W9 m ρ c (Proc.devRef .tc main_v11)
    _ = W8 m ρ c (Proc.devRef .tc main_v11) := by skip_stretch hostOps0_8
    _ = W7 m ρ c (Proc.devRef .tc main_v11) := by skip_stretch hostOps0_7
/-- No earlier stretch writes the argument. -/
theorem v11_arg : W4 m ρ c (Proc.devRef .tc main_arg13) = m ((c : Thread nD τ).loc main_arg13) := by launch4
/-- At the first region's entry the buffer holds the sign of every entry of argument 13. -/
theorem v11_eq : (W9 m ρ c (Proc.devRef .tc main_v11) : S4096x4096.Idx → EReal) = BinNet.sgnArr (m ((c : Thread nD τ).loc main_arg13)) := by
  rw [v11_kept, v11_narrow, v11_sel, v11_cmp, v11_one, v11_mone, v11_arg]
  exact sgn_term bcast_S_S4096x4096 _

/-! ### Argument 19: its comparison with zero, the words of 1 and −1, the selection, the narrowing -/

theorem v15_cmp : (W7 m ρ c (Proc.devRef .tc main_v13) : S1000x4096.Idx → BitVec 1)
    = cmpf .ogt (W6 m ρ c (Proc.devRef .tc main_arg19) : S1000x4096.Idx → EReal) (broadcastInDim S1000x4096 ![] bcast_S_S1000x4096 (constant (F := Ideal) S_ .f32 0x00000000#32)) := by
  show StableHlo.after hostOps0_6 (W6 m ρ c) (Proc.devRef .tc main_v13) = _
  generalize W6 m ρ c = V
  after_results <;> rfl
theorem v15_one : W7 m ρ c (Proc.devRef .tc main_cst_9) = constant (F := Ideal) S_ .f32 0x3F800000#32 := by
  show StableHlo.after hostOps0_6 (W6 m ρ c) (Proc.devRef .tc main_cst_9) = _
  generalize W6 m ρ c = V
  after_results <;> rfl
theorem v15_mone : W7 m ρ c (Proc.devRef .tc main_cst_10) = constant (F := Ideal) S_ .f32 0xBF800000#32 := by
  show StableHlo.after hostOps0_6 (W6 m ρ c) (Proc.devRef .tc main_cst_10) = _
  generalize W6 m ρ c = V
  after_results <;> rfl
theorem v15_sel : (W8 m ρ c (Proc.devRef .tc main_v14) : S1000x4096.Idx → EReal)
    = select (W7 m ρ c (Proc.devRef .tc main_v13) : S1000x4096.Idx → BitVec 1)
        (broadcastInDim S1000x4096 ![] bcast_S_S1000x4096 (W7 m ρ c (Proc.devRef .tc main_cst_9)))
        (broadcastInDim S1000x4096 ![] bcast_S_S1000x4096 (W7 m ρ c (Proc.devRef .tc main_cst_10))) := by
  show StableHlo.after hostOps0_7 (W7 m ρ c) (Proc.devRef .tc main_v14) = _
  generalize W7 m ρ c = V
  after_results <;> rfl
theorem v15_narrow : (W9 m ρ c (Proc.devRef .tc main_v15) : S1000x4096.Idx → EReal)
    = truncf (F := Ideal) (s := S1000x4096) (φ := .f32) .bf16 (W8 m ρ c (Proc.devRef .tc main_v14)) bitsLt_bf16_f32 := by
  show StableHlo.after hostOps0_8 (W8 m ρ c) (Proc.devRef .tc main_v15) = _
  generalize W8 m ρ c = V
  after_results <;> rfl
/-- No earlier stretch writes the argument. -/
theorem v15_arg : W6 m ρ c (Proc.devRef .tc main_arg19) = m ((c : Thread nD τ).loc main_arg19) := by launch6
/-- At the first region's entry the buffer holds the sign of every entry of argument 19. -/
theorem v15_eq : (W9 m ρ c (Proc.devRef .tc main_v15) : S1000x4096.Idx → EReal) = BinNet.sgnArr (m ((c : Thread nD τ).loc main_arg19)) := by
  rw [v15_narrow, v15_sel, v15_cmp, v15_one, v15_mone, v15_arg]
  exact sgn_term bcast_S_S1000x4096 _

/-! ## The folded scale and shift of each hidden layer -/

/-- The scale as the program computes it: g · (v + ε)^(−1/2), entry by entry. -/
def scaleTerm (g v : FVec Ideal S4096 .f32) : FVec Ideal S4096 .f32 :=
  mulf g (Host.rsqrt (addf v (broadcastInDim S4096 ![] bcast_S_S4096 (constant S_ .f32 0x3727C5AC#32))))

/-- The shift as the program computes it: ((b − μ) · scale) + β, entry by entry. -/
def shiftTerm (b mu be sc : FVec Ideal S4096 .f32) : FVec Ideal S4096 .f32 :=
  addf (mulf (subf b mu) sc) be

theorem scaleTerm_apply (g v : FVec Ideal S4096 .f32) (n : Fin 4096) :
    scaleTerm g v (ValueIdx.ix1 n) = BinNet.scale (BinNet.vec g) (BinNet.vec v) n := rfl

theorem shiftTerm_apply (b mu be g v : FVec Ideal S4096 .f32) (n : Fin 4096) :
    shiftTerm b mu be (scaleTerm g v) (ValueIdx.ix1 n)
      = BinNet.shift (BinNet.vec b) (BinNet.vec mu) (BinNet.vec be) (BinNet.scale (BinNet.vec g) (BinNet.vec v)) n := rfl

/-! The arguments the last stretch reads are as launched: no earlier stretch writes one. -/
theorem W8_arg3 : W8 m ρ c (Proc.devRef .tc main_arg3) = m ((c : Thread nD τ).loc main_arg3) := by launch8
theorem W8_arg6 : W8 m ρ c (Proc.devRef .tc main_arg6) = m ((c : Thread nD τ).loc main_arg6) := by launch8
theorem W8_arg2 : W8 m ρ c (Proc.devRef .tc main_arg2) = m ((c : Thread nD τ).loc main_arg2) := by launch8
theorem W8_arg5 : W8 m ρ c (Proc.devRef .tc main_arg5) = m ((c : Thread nD τ).loc main_arg5) := by launch8
theorem W8_arg4 : W8 m ρ c (Proc.devRef .tc main_arg4) = m ((c : Thread nD τ).loc main_arg4) := by launch8
theorem W8_arg9 : W8 m ρ c (Proc.devRef .tc main_arg9) = m ((c : Thread nD τ).loc main_arg9) := by launch8
theorem W8_arg12 : W8 m ρ c (Proc.devRef .tc main_arg12) = m ((c : Thread nD τ).loc main_arg12) := by launch8
theorem W8_arg8 : W8 m ρ c (Proc.devRef .tc main_arg8) = m ((c : Thread nD τ).loc main_arg8) := by launch8
theorem W8_arg11 : W8 m ρ c (Proc.devRef .tc main_arg11) = m ((c : Thread nD τ).loc main_arg11) := by launch8
theorem W8_arg10 : W8 m ρ c (Proc.devRef .tc main_arg10) = m ((c : Thread nD τ).loc main_arg10) := by launch8
theorem W8_arg15 : W8 m ρ c (Proc.devRef .tc main_arg15) = m ((c : Thread nD τ).loc main_arg15) := by launch8
theorem W8_arg18 : W8 m ρ c (Proc.devRef .tc main_arg18) = m ((c : Thread nD τ).loc main_arg18) := by launch8
theorem W8_arg14 : W8 m ρ c (Proc.devRef .tc main_arg14) = m ((c : Thread nD τ).loc main_arg14) := by launch8
theorem W8_arg17 : W8 m ρ c (Proc.devRef .tc main_arg17) = m ((c : Thread nD τ).loc main_arg17) := by launch8
theorem W8_arg16 : W8 m ρ c (Proc.devRef .tc main_arg16) = m ((c : Thread nD τ).loc main_arg16) := by launch8

/-! ### The first hidden layer -/

/-- What the last stretch leaves in the scale's buffer, over any contents before it. -/
theorem v23_read (V : Valuation τ sig (Elt Ideal)) :
    (StableHlo.after hostOps0_8 V (Proc.devRef .tc main_v23) : S1x4096.Idx → EReal)
      = shapeCast S1x4096 (scaleTerm (V (Proc.devRef .tc main_arg3)) (V (Proc.devRef .tc main_arg6))) shapeCasts_S4096_S1x4096 := by
  after_results_simp <;> rfl
/-- What the last stretch leaves in the shift's buffer, over any contents before it. -/
theorem v24_read (V : Valuation τ sig (Elt Ideal)) :
    (StableHlo.after hostOps0_8 V (Proc.devRef .tc main_v24) : S1x4096.Idx → EReal)
      = shapeCast S1x4096 (shiftTerm (V (Proc.devRef .tc main_arg2)) (V (Proc.devRef .tc main_arg5)) (V (Proc.devRef .tc main_arg4)) (scaleTerm (V (Proc.devRef .tc main_arg3)) (V (Proc.devRef .tc main_arg6))))
          shapeCasts_S4096_S1x4096 := by
  after_results_simp <;> rfl
theorem v23_val : (W9 m ρ c (Proc.devRef .tc main_v23) : S1x4096.Idx → EReal)
    = shapeCast S1x4096 (scaleTerm (m ((c : Thread nD τ).loc main_arg3)) (m ((c : Thread nD τ).loc main_arg6))) shapeCasts_S4096_S1x4096 :=
  (v23_read (W8 m ρ c)).trans (by rw [W8_arg3, W8_arg6])
theorem v24_val : (W9 m ρ c (Proc.devRef .tc main_v24) : S1x4096.Idx → EReal)
    = shapeCast S1x4096 (shiftTerm (m ((c : Thread nD τ).loc main_arg2)) (m ((c : Thread nD τ).loc main_arg5)) (m ((c : Thread nD τ).loc main_arg4)) (scaleTerm (m ((c : Thread nD τ).loc main_arg3)) (m ((c : Thread nD τ).loc main_arg6))))
        shapeCasts_S4096_S1x4096 :=
  (v24_read (W8 m ρ c)).trans (by rw [W8_arg2, W8_arg5, W8_arg4, W8_arg3, W8_arg6])
/-- At the first region's entry the scale's buffer holds g · (v + ε)^(−1/2) along its second axis. -/
theorem v23_apply (n : Fin 4096) : W9 m ρ c (Proc.devRef .tc main_v23) (ValueIdx.ix2 (0 : Fin 1) n)
    = BinNet.scale (BinNet.vec (m ((c : Thread nD τ).loc main_arg3))) (BinNet.vec (m ((c : Thread nD τ).loc main_arg6))) n := by
  rw [v23_val, ValueIdx.shapeCast_a_1a_apply]; exact scaleTerm_apply _ _ n
/-- At the first region's entry the shift's buffer holds (b − μ) · scale + β along its second axis. -/
theorem v24_apply (n : Fin 4096) : W9 m ρ c (Proc.devRef .tc main_v24) (ValueIdx.ix2 (0 : Fin 1) n)
    = BinNet.shift (BinNet.vec (m ((c : Thread nD τ).loc main_arg2))) (BinNet.vec (m ((c : Thread nD τ).loc main_arg5))) (BinNet.vec (m ((c : Thread nD τ).loc main_arg4)))
        (BinNet.scale (BinNet.vec (m ((c : Thread nD τ).loc main_arg3))) (BinNet.vec (m ((c : Thread nD τ).loc main_arg6)))) n := by
  rw [v24_val, ValueIdx.shapeCast_a_1a_apply]; exact shiftTerm_apply _ _ _ _ _ n

/-! ### The second hidden layer -/

/-- What the last stretch leaves in the scale's buffer, over any contents before it. -/
theorem v32_read (V : Valuation τ sig (Elt Ideal)) :
    (StableHlo.after hostOps0_8 V (Proc.devRef .tc main_v32) : S1x4096.Idx → EReal)
      = shapeCast S1x4096 (scaleTerm (V (Proc.devRef .tc main_arg9)) (V (Proc.devRef .tc main_arg12))) shapeCasts_S4096_S1x4096 := by
  after_results_simp <;> rfl
/-- What the last stretch leaves in the shift's buffer, over any contents before it. -/
theorem v33_read (V : Valuation τ sig (Elt Ideal)) :
    (StableHlo.after hostOps0_8 V (Proc.devRef .tc main_v33) : S1x4096.Idx → EReal)
      = shapeCast S1x4096 (shiftTerm (V (Proc.devRef .tc main_arg8)) (V (Proc.devRef .tc main_arg11)) (V (Proc.devRef .tc main_arg10)) (scaleTerm (V (Proc.devRef .tc main_arg9)) (V (Proc.devRef .tc main_arg12))))
          shapeCasts_S4096_S1x4096 := by
  after_results_simp <;> rfl
theorem v32_val : (W9 m ρ c (Proc.devRef .tc main_v32) : S1x4096.Idx → EReal)
    = shapeCast S1x4096 (scaleTerm (m ((c : Thread nD τ).loc main_arg9)) (m ((c : Thread nD τ).loc main_arg12))) shapeCasts_S4096_S1x4096 :=
  (v32_read (W8 m ρ c)).trans (by rw [W8_arg9, W8_arg12])
theorem v33_val : (W9 m ρ c (Proc.devRef .tc main_v33) : S1x4096.Idx → EReal)
    = shapeCast S1x4096 (shiftTerm (m ((c : Thread nD τ).loc main_arg8)) (m ((c : Thread nD τ).loc main_arg11)) (m ((c : Thread nD τ).loc main_arg10)) (scaleTerm (m ((c : Thread nD τ).loc main_arg9)) (m ((c : Thread nD τ).loc main_arg12))))
        shapeCasts_S4096_S1x4096 :=
  (v33_read (W8 m ρ c)).trans (by rw [W8_arg8, W8_arg11, W8_arg10, W8_arg9, W8_arg12])
/-- At the first region's entry the scale's buffer holds g · (v + ε)^(−1/2) along its second axis. -/
theorem v32_apply (n : Fin 4096) : W9 m ρ c (Proc.devRef .tc main_v32) (ValueIdx.ix2 (0 : Fin 1) n)
    = BinNet.scale (BinNet.vec (m ((c : Thread nD τ).loc main_arg9))) (BinNet.vec (m ((c : Thread nD τ).loc main_arg12))) n := by
  rw [v32_val, ValueIdx.shapeCast_a_1a_apply]; exact scaleTerm_apply _ _ n
/-- At the first region's entry the shift's buffer holds (b − μ) · scale + β along its second axis. -/
theorem v33_apply (n : Fin 4096) : W9 m ρ c (Proc.devRef .tc main_v33) (ValueIdx.ix2 (0 : Fin 1) n)
    = BinNet.shift (BinNet.vec (m ((c : Thread nD τ).loc main_arg8))) (BinNet.vec (m ((c : Thread nD τ).loc main_arg11))) (BinNet.vec (m ((c : Thread nD τ).loc main_arg10)))
        (BinNet.scale (BinNet.vec (m ((c : Thread nD τ).loc main_arg9))) (BinNet.vec (m ((c : Thread nD τ).loc main_arg12)))) n := by
  rw [v33_val, ValueIdx.shapeCast_a_1a_apply]; exact shiftTerm_apply _ _ _ _ _ n

/-! ### The third hidden layer -/

/-- What the last stretch leaves in the scale's buffer, over any contents before it. -/
theorem v41_read (V : Valuation τ sig (Elt Ideal)) :
    (StableHlo.after hostOps0_8 V (Proc.devRef .tc main_v41) : S1x4096.Idx → EReal)
      = shapeCast S1x4096 (scaleTerm (V (Proc.devRef .tc main_arg15)) (V (Proc.devRef .tc main_arg18))) shapeCasts_S4096_S1x4096 := by
  after_results_simp <;> rfl
/-- What the last stretch leaves in the shift's buffer, over any contents before it. -/
theorem v42_read (V : Valuation τ sig (Elt Ideal)) :
    (StableHlo.after hostOps0_8 V (Proc.devRef .tc main_v42) : S1x4096.Idx → EReal)
      = shapeCast S1x4096 (shiftTerm (V (Proc.devRef .tc main_arg14)) (V (Proc.devRef .tc main_arg17)) (V (Proc.devRef .tc main_arg16)) (scaleTerm (V (Proc.devRef .tc main_arg15)) (V (Proc.devRef .tc main_arg18))))
          shapeCasts_S4096_S1x4096 := by
  after_results_simp <;> rfl
theorem v41_val : (W9 m ρ c (Proc.devRef .tc main_v41) : S1x4096.Idx → EReal)
    = shapeCast S1x4096 (scaleTerm (m ((c : Thread nD τ).loc main_arg15)) (m ((c : Thread nD τ).loc main_arg18))) shapeCasts_S4096_S1x4096 :=
  (v41_read (W8 m ρ c)).trans (by rw [W8_arg15, W8_arg18])
theorem v42_val : (W9 m ρ c (Proc.devRef .tc main_v42) : S1x4096.Idx → EReal)
    = shapeCast S1x4096 (shiftTerm (m ((c : Thread nD τ).loc main_arg14)) (m ((c : Thread nD τ).loc main_arg17)) (m ((c : Thread nD τ).loc main_arg16)) (scaleTerm (m ((c : Thread nD τ).loc main_arg15)) (m ((c : Thread nD τ).loc main_arg18))))
        shapeCasts_S4096_S1x4096 :=
  (v42_read (W8 m ρ c)).trans (by rw [W8_arg14, W8_arg17, W8_arg16, W8_arg15, W8_arg18])
/-- At the first region's entry the scale's buffer holds g · (v + ε)^(−1/2) along its second axis. -/
theorem v41_apply (n : Fin 4096) : W9 m ρ c (Proc.devRef .tc main_v41) (ValueIdx.ix2 (0 : Fin 1) n)
    = BinNet.scale (BinNet.vec (m ((c : Thread nD τ).loc main_arg15))) (BinNet.vec (m ((c : Thread nD τ).loc main_arg18))) n := by
  rw [v41_val, ValueIdx.shapeCast_a_1a_apply]; exact scaleTerm_apply _ _ n
/-- At the first region's entry the shift's buffer holds (b − μ) · scale + β along its second axis. -/
theorem v42_apply (n : Fin 4096) : W9 m ρ c (Proc.devRef .tc main_v42) (ValueIdx.ix2 (0 : Fin 1) n)
    = BinNet.shift (BinNet.vec (m ((c : Thread nD τ).loc main_arg14))) (BinNet.vec (m ((c : Thread nD τ).loc main_arg17))) (BinNet.vec (m ((c : Thread nD τ).loc main_arg16)))
        (BinNet.scale (BinNet.vec (m ((c : Thread nD τ).loc main_arg15))) (BinNet.vec (m ((c : Thread nD τ).loc main_arg18)))) n := by
  rw [v42_val, ValueIdx.shapeCast_a_1a_apply]; exact shiftTerm_apply _ _ _ _ _ n

/-! ## Two arguments the regions read directly are as launched -/

theorem arg0_eq : W9 m ρ c (Proc.devRef .tc main_arg0) = m ((c : Thread nD τ).loc main_arg0) := by launch9
theorem arg20_eq : W9 m ρ c (Proc.devRef .tc main_arg20) = m ((c : Thread nD τ).loc main_arg20) := by launch9

end Cert.KernelIdeal.HostVal
-- ==== Proof.KTail.lean ====
/-
  What the host does around the last region of the idealized kernel program.

  Before the last region the host pads two arrays with zeros and reshapes one of them: the last layer's weights' signs, a
  1000-by-4096 array, get 24 more rows (a 1024-by-4096 array whose first 1000 rows are the operand's); the last bias, a
  length-1000 vector, gets 24 more entries and is then read as a 1-by-1024 array.  After the region the host cuts the
  8192-by-1024 result back to its first 1000 columns.  Read at an entry inside the original extents each of these is the
  operand at the same coordinates: the padding only adds entries past the operand's, the reshape only adds a unit axis, and
  the slice starts at the origin.  The third region's own output is not touched by any of these operations.
-/
import proofs.«162483_j26018911879634_2_alg».proof.Proof.Gen.KernelIdeal.Frame
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost

set_option maxRecDepth 16384

noncomputable section

namespace Cert.KernelIdeal.TailVal

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-! ## Before the last region: which buffers each stretch of host operations leaves alone

A stretch writes only its operations' result buffers; every other buffer holds afterwards what it held before. -/

/-- The first constant's stretch writes only the constant. -/
theorem keep_a (V : Valuation τ sig (Elt Ideal)) (r : Ref sig .tc) (h0 : r ≠ main_c) :
    StableHlo.after hostOps3 V (Proc.devRef .tc r) = V (Proc.devRef .tc r) :=
  StableHlo.after_of_forall_not_mem (b := Proc.devRef .tc r) _ _ (List.forall_iff_forall_mem.mp (by
    simp only [hostOps3, List.Forall, StableHlo.nullary_writes, StableHlo.unary_writes, StableHlo.binary_writes, StableHlo.reshape_writes,
      Finset.mem_singleton]
    exact StableHlo.devRef_ne_of_ne h0))

/-- The weights' padding writes only the converted padding value and the padded weights. -/
theorem keep_b (V : Valuation τ sig (Elt Ideal)) (r : Ref sig .tc) (h0 : r ≠ main_call4_v0) (h1 : r ≠ main_v46) :
    StableHlo.after hostOps3_1 V (Proc.devRef .tc r) = V (Proc.devRef .tc r) :=
  StableHlo.after_of_forall_not_mem (b := Proc.devRef .tc r) _ _ (List.forall_iff_forall_mem.mp (by
    simp only [hostOps3_1, List.Forall, StableHlo.nullary_writes, StableHlo.unary_writes, StableHlo.binary_writes, StableHlo.reshape_writes,
      Finset.mem_singleton]
    exact ⟨StableHlo.devRef_ne_of_ne h0, StableHlo.devRef_ne_of_ne h1⟩))

/-- The second constant's stretch writes only the constant. -/
theorem keep_c (V : Valuation τ sig (Elt Ideal)) (r : Ref sig .tc) (h0 : r ≠ main_c_14) :
    StableHlo.after hostOps3_2 V (Proc.devRef .tc r) = V (Proc.devRef .tc r) :=
  StableHlo.after_of_forall_not_mem (b := Proc.devRef .tc r) _ _ (List.forall_iff_forall_mem.mp (by
    simp only [hostOps3_2, List.Forall, StableHlo.nullary_writes, StableHlo.unary_writes, StableHlo.binary_writes, StableHlo.reshape_writes,
      Finset.mem_singleton]
    exact StableHlo.devRef_ne_of_ne h0))

/-- The bias's padding writes only the converted padding value and the padded bias. -/
theorem keep_d (V : Valuation τ sig (Elt Ideal)) (r : Ref sig .tc) (h0 : r ≠ main_call5_v0) (h1 : r ≠ main_v47) :
    StableHlo.after hostOps3_3 V (Proc.devRef .tc r) = V (Proc.devRef .tc r) :=
  StableHlo.after_of_forall_not_mem (b := Proc.devRef .tc r) _ _ (List.forall_iff_forall_mem.mp (by
    simp only [hostOps3_3, List.Forall, StableHlo.nullary_writes, StableHlo.unary_writes, StableHlo.binary_writes, StableHlo.reshape_writes,
      Finset.mem_singleton]
    exact ⟨StableHlo.devRef_ne_of_ne h0, StableHlo.devRef_ne_of_ne h1⟩))

/-- The reshape writes only its result. -/
theorem keep_e (V : Valuation τ sig (Elt Ideal)) (r : Ref sig .tc) (h0 : r ≠ main_v48) :
    StableHlo.after hostOps3_4 V (Proc.devRef .tc r) = V (Proc.devRef .tc r) :=
  StableHlo.after_of_forall_not_mem (b := Proc.devRef .tc r) _ _ (List.forall_iff_forall_mem.mp (by
    simp only [hostOps3_4, List.Forall, StableHlo.nullary_writes, StableHlo.unary_writes, StableHlo.binary_writes, StableHlo.reshape_writes,
      Finset.mem_singleton]
    exact StableHlo.devRef_ne_of_ne h0))

/-! ## Before the last region: the third region's output, the padded weights, the padded and reshaped bias -/

/-- None of the host operations before the last region writes the third region's output. -/
theorem v45_keep : W17 m ρ c (Proc.devRef .tc main_v45) = W12 m ρ c (Proc.devRef .tc main_v45) :=
  calc W17 m ρ c (Proc.devRef .tc main_v45)
    _ = W16 m ρ c (Proc.devRef .tc main_v45) := keep_e _ main_v45 (by decide)
    _ = W15 m ρ c (Proc.devRef .tc main_v45) := keep_d _ main_v45 (by decide) (by decide)
    _ = W14 m ρ c (Proc.devRef .tc main_v45) := keep_c _ main_v45 (by decide)
    _ = W13 m ρ c (Proc.devRef .tc main_v45) := keep_b _ main_v45 (by decide) (by decide)
    _ = W12 m ρ c (Proc.devRef .tc main_v45) := keep_a _ main_v45 (by decide)

/-- The padded weights at a row n < 1000 are the weights at row n: the padding adds rows 1000 … 1023 only. -/
theorem v46_apply (n : Fin 1000) (k : Fin 4096) :
    W17 m ρ c (Proc.devRef .tc main_v46) (ValueIdx.ix2 (⟨n.val, by omega⟩ : Fin 1024) k)
      = W12 m ρ c (Proc.devRef .tc main_v15) (ValueIdx.ix2 n k) := by
  have e17 : W17 m ρ c (Proc.devRef .tc main_v46) = W14 m ρ c (Proc.devRef .tc main_v46) :=
    calc W17 m ρ c (Proc.devRef .tc main_v46)
      _ = W16 m ρ c (Proc.devRef .tc main_v46) := keep_e _ main_v46 (by decide)
      _ = W15 m ρ c (Proc.devRef .tc main_v46) := keep_d _ main_v46 (by decide) (by decide)
      _ = W14 m ρ c (Proc.devRef .tc main_v46) := keep_c _ main_v46 (by decide)
  have e13 : W13 m ρ c (Proc.devRef .tc main_v15) = W12 m ρ c (Proc.devRef .tc main_v15) := keep_a _ main_v15 (by decide)
  rw [e17, ← e13]
  show StableHlo.after hostOps3_1 (W13 m ρ c) (Proc.devRef .tc main_v46) _ = _
  after_results
  show pad (s := S1000x4096) S1024x4096 ![0, 0] ![24, 0] ![0, 0] (W12 m ρ c (Proc.devRef .tc main_v15)) _
    pads_S1000x4096_S1024x4096_0240_000 h_S_ (ValueIdx.ix2 _ k) = _
  exact pad_apply_of_inside _ _ _ _ _ _ _ _ (ValueIdx.ix2 n k) (fun a => by
    match a with
    | ⟨0, _⟩ => show n.val = 0 + n.val * (0 + 1); omega
    | ⟨1, _⟩ => show k.val = 0 + k.val * (0 + 1); omega)

/-- The padded bias, read as a 1-by-1024 array, at (0, n) with n < 1000 is the bias at n. -/
theorem v48_apply (n : Fin 1000) :
    W17 m ρ c (Proc.devRef .tc main_v48) (ValueIdx.ix2 (0 : Fin 1) (⟨n.val, by omega⟩ : Fin 1024))
      = W12 m ρ c (Proc.devRef .tc main_arg20) (ValueIdx.ix1 n) := by
  have e15 : W15 m ρ c (Proc.devRef .tc main_arg20) = W12 m ρ c (Proc.devRef .tc main_arg20) :=
    calc W15 m ρ c (Proc.devRef .tc main_arg20)
      _ = W14 m ρ c (Proc.devRef .tc main_arg20) := keep_c _ main_arg20 (by decide)
      _ = W13 m ρ c (Proc.devRef .tc main_arg20) := keep_b _ main_arg20 (by decide) (by decide)
      _ = W12 m ρ c (Proc.devRef .tc main_arg20) := keep_a _ main_arg20 (by decide)
  have e16 : W16 m ρ c (Proc.devRef .tc main_v47) (ValueIdx.ix1 (⟨n.val, by omega⟩ : Fin 1024))
      = W15 m ρ c (Proc.devRef .tc main_arg20) (ValueIdx.ix1 n) := by
    show StableHlo.after hostOps3_3 (W15 m ρ c) (Proc.devRef .tc main_v47) _ = _
    after_results
    show pad (s := S1000) S1024 ![0] ![24] ![0] (W12 m ρ c (Proc.devRef .tc main_arg20)) _
      pads_S1000_S1024_0240 h_S_ (ValueIdx.ix1 _) = _
    exact pad_apply_of_inside _ _ _ _ _ _ _ _ (ValueIdx.ix1 n) (fun a => by
      match a with
      | ⟨0, _⟩ => show n.val = 0 + n.val * (0 + 1); omega)
  rw [← e15, ← e16]
  show StableHlo.after hostOps3_4 (W16 m ρ c) (Proc.devRef .tc main_v48) _ = _
  after_results
  exact shapeCast_a_1a_apply _ _ _ _

/-! ## After the last region: the slice -/

/-- The final array is the slice, from the origin, of the last region's result. -/
theorem v50_eq : W19 m ρ c (Proc.devRef .tc main_v50)
    = extractStridedSlice S8192x1000 ![0, 0] (W18 m ρ c (Proc.devRef .tc main_v49)) slices_S8192x1024_S8192x1000_0_0 := by
  show StableHlo.after hostOps4 (W18 m ρ c) (Proc.devRef .tc main_v50) = _
  after_results

/-- The final array at (p, n) is the last region's result at (p, n). -/
theorem v50_apply (p : Fin 8192) (n : Fin 1000) :
    W19 m ρ c (Proc.devRef .tc main_v50) (ValueIdx.ix2 p n)
      = W18 m ρ c (Proc.devRef .tc main_v49) (ValueIdx.ix2 p (⟨n.val, by omega⟩ : Fin 1024)) := by
  rw [v50_eq]
  exact extractStridedSlice_apply _ _ _ _ _ (fun a => by
    match a with
    | ⟨0, _⟩ => exact (Nat.zero_add _).symm
    | ⟨1, _⟩ => exact (Nat.zero_add _).symm)

end Cert.KernelIdeal.TailVal

end
-- ==== Proof.KChain.lean ====
/-
  The idealized kernel program's result, entry by entry, as a function of its arguments.

  The buffers after each region are the folded hidden layers, one on top of the other: the first region turns the signs of
  the input and of the first weight matrix into the first layer's signs; the second and third regions do the same to the
  layer below them; a buffer no region writes is carried unchanged across that region.  The last region's weight matrix is
  the fourth sign matrix with 24 rows of zeros appended, and its bias the fourth bias with 24 zeros appended; the program
  returns the first 1000 columns of what that region leaves, and column n < 1000 reads row n of the unpadded matrix and
  entry n of the unpadded bias.
-/
import proofs.«162483_j26018911879634_2_alg».proof.Proof.KReg0
import proofs.«162483_j26018911879634_2_alg».proof.Proof.KReg1
import proofs.«162483_j26018911879634_2_alg».proof.Proof.KReg2
import proofs.«162483_j26018911879634_2_alg».proof.Proof.KReg3
import proofs.«162483_j26018911879634_2_alg».proof.Proof.KHost
import proofs.«162483_j26018911879634_2_alg».proof.Proof.KTail

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The folded scale and shift of the three hidden layers, from the arguments. -/
def sc0 : Fin 4096 → EReal := BinNet.scale (BinNet.vec (m ((c : Thread nD τ).loc main_arg3))) (BinNet.vec (m ((c : Thread nD τ).loc main_arg6)))
def sh0 : Fin 4096 → EReal := BinNet.shift (BinNet.vec (m ((c : Thread nD τ).loc main_arg2))) (BinNet.vec (m ((c : Thread nD τ).loc main_arg5))) (BinNet.vec (m ((c : Thread nD τ).loc main_arg4))) (sc0 m c)
def sc1 : Fin 4096 → EReal := BinNet.scale (BinNet.vec (m ((c : Thread nD τ).loc main_arg9))) (BinNet.vec (m ((c : Thread nD τ).loc main_arg12)))
def sh1 : Fin 4096 → EReal := BinNet.shift (BinNet.vec (m ((c : Thread nD τ).loc main_arg8))) (BinNet.vec (m ((c : Thread nD τ).loc main_arg11))) (BinNet.vec (m ((c : Thread nD τ).loc main_arg10))) (sc1 m c)
def sc2 : Fin 4096 → EReal := BinNet.scale (BinNet.vec (m ((c : Thread nD τ).loc main_arg15))) (BinNet.vec (m ((c : Thread nD τ).loc main_arg18)))
def sh2 : Fin 4096 → EReal := BinNet.shift (BinNet.vec (m ((c : Thread nD τ).loc main_arg14))) (BinNet.vec (m ((c : Thread nD τ).loc main_arg17))) (BinNet.vec (m ((c : Thread nD τ).loc main_arg16))) (sc2 m c)

/-- The three hidden layers' signs. -/
def H0 : S8192x4096.Idx → EReal := BinNet.hidKer (BinNet.sgnArr (m ((c : Thread nD τ).loc main_arg0))) (BinNet.sgnArr (m ((c : Thread nD τ).loc main_arg1))) (sc0 m c) (sh0 m c)
def H1 : S8192x4096.Idx → EReal := BinNet.hidKer (H0 m c) (BinNet.sgnArr (m ((c : Thread nD τ).loc main_arg7))) (sc1 m c) (sh1 m c)
def H2 : S8192x4096.Idx → EReal := BinNet.hidKer (H1 m c) (BinNet.sgnArr (m ((c : Thread nD τ).loc main_arg13))) (sc2 m c) (sh2 m c)

/-- A buffer none of the first three regions writes is carried from the first region's entry to the third's exit. -/
theorem carry (b : Ref sig .tc) (h0 : ∀ w, Pipeline.arrRef spec0 w ≠ b) (h1 : ∀ w, Pipeline.arrRef spec1 w ≠ b)
    (h2 : ∀ w, Pipeline.arrRef spec2 w ≠ b) : W12 m ρ c (Proc.devRef .tc b) = W9 m ρ c (Proc.devRef .tc b) :=
  (W12_of_ne m ρ c b h2).trans ((W11_of_ne m ρ c b h1).trans (W10_of_ne m ρ c b h0))

/-- After the first region its output buffer holds the first layer's signs. -/
theorem layer0 : W10 m ρ c (Proc.devRef .tc main_v43) = H0 m c := by
  refine (W10_arr m ρ c 4).trans ((Reg0.arr_eq (V9 m ρ) c).trans ?_)
  show BinNet.hidKer (BinNet.sgnArr (W9 m ρ c (Proc.devRef .tc main_arg0))) (W9 m ρ c (Proc.devRef .tc main_v3))
      (fun n => W9 m ρ c (Proc.devRef .tc main_v23) (ix2 (0 : Fin 1) n)) (fun n => W9 m ρ c (Proc.devRef .tc main_v24) (ix2 (0 : Fin 1) n)) = _
  rw [HostVal.arg0_eq, HostVal.v3_eq, funext (HostVal.v23_apply m ρ c), funext (HostVal.v24_apply m ρ c)]
  rfl

/-- After the second region its output buffer holds the second layer's signs. -/
theorem layer1 : W11 m ρ c (Proc.devRef .tc main_v44) = H1 m c := by
  refine (W11_arr m ρ c 4).trans ((Reg1.arr_eq (V10 m ρ) c).trans ?_)
  show BinNet.hidKer (W10 m ρ c (Proc.devRef .tc main_v43)) (W10 m ρ c (Proc.devRef .tc main_v7))
      (fun n => W10 m ρ c (Proc.devRef .tc main_v32) (ix2 (0 : Fin 1) n)) (fun n => W10 m ρ c (Proc.devRef .tc main_v33) (ix2 (0 : Fin 1) n)) = _
  rw [layer0, W10_of_ne m ρ c main_v7 (by decide), W10_of_ne m ρ c main_v32 (by decide), W10_of_ne m ρ c main_v33 (by decide),
    HostVal.v7_eq, funext (HostVal.v32_apply m ρ c), funext (HostVal.v33_apply m ρ c)]
  rfl

/-- After the third region its output buffer holds the third layer's signs. -/
theorem layer2 : W12 m ρ c (Proc.devRef .tc main_v45) = H2 m c := by
  refine (W12_arr m ρ c 4).trans ((Reg2.arr_eq (V11 m ρ) c).trans ?_)
  show BinNet.hidKer (W11 m ρ c (Proc.devRef .tc main_v44)) (W11 m ρ c (Proc.devRef .tc main_v11))
      (fun n => W11 m ρ c (Proc.devRef .tc main_v41) (ix2 (0 : Fin 1) n)) (fun n => W11 m ρ c (Proc.devRef .tc main_v42) (ix2 (0 : Fin 1) n)) = _
  rw [layer1, W11_of_ne m ρ c main_v11 (by decide), W11_of_ne m ρ c main_v41 (by decide), W11_of_ne m ρ c main_v42 (by decide),
    W10_of_ne m ρ c main_v11 (by decide), W10_of_ne m ρ c main_v41 (by decide), W10_of_ne m ρ c main_v42 (by decide),
    HostVal.v11_eq, funext (HostVal.v41_apply m ρ c), funext (HostVal.v42_apply m ρ c)]
  rfl

/-- THE RESULT: entry (p, n) of what the program returns is the last layer on the third layer's signs, the fourth sign matrix
    and the fourth bias. -/
theorem result_apply (p : Fin 8192) (n : Fin 1000) :
    W19 m ρ c (Proc.devRef .tc main_v50) (ix2 p n)
      = BinNet.outLayer (H2 m c) (BinNet.sgnArr (m ((c : Thread nD τ).loc main_arg19))) (BinNet.vec (m ((c : Thread nD τ).loc main_arg20))) (ix2 p n) := by
  rw [TailVal.v50_apply, W18_arr m ρ c 3, Reg3.arr_eq (V17 m ρ) c]
  show BinNet.dotRows (W17 m ρ c (Proc.devRef .tc main_v45)) (W17 m ρ c (Proc.devRef .tc main_v46)) p (⟨n.val, by omega⟩ : Fin 1024)
      + W17 m ρ c (Proc.devRef .tc main_v48) (ix2 (0 : Fin 1) (⟨n.val, by omega⟩ : Fin 1024)) = _
  rw [TailVal.v48_apply, TailVal.v45_keep, layer2, carry m ρ c main_arg20 (by decide) (by decide) (by decide), HostVal.arg20_eq,
    BinNet.outLayer_ix2]
  refine congrArg (· + _) (Finset.sum_congr rfl fun k _ => ?_)
  rw [TailVal.v46_apply, carry m ρ c main_v15 (by decide) (by decide) (by decide), HostVal.v15_eq]

end Cert.KernelIdeal.Chain

end
-- ==== Proof.RefNet.lean ====
/-
  The reference program of the binarized perceptron, read as the network of the specification.

  The reference computes each hidden layer as a chain of whole-array operations: the signs of the weights, their
  transpose, a product of the activations with the transposed signs, five row vectors spread over the batch (bias,
  running mean, the factor (v + ε)^(−1/2), gain, offset), the clamp to [−1, 1], and the sign of the result.  Read at one
  entry (p, n) of the batch-by-features array every one of these is an operation on numbers: the product is the sum over
  k of a (p, k) · sign w (n, k) (the transpose exchanges the two coordinates of the weight), a spread row vector is its
  n-th entry, the clamp is min 1 (max (−1) y), and the sign is +1 where the entry is positive and −1 elsewhere.  So each
  hidden layer of the reference is `BinNet.hidRef` of the layer before it, the last layer is `BinNet.outLayer`, and the
  whole program is the composition of the four.
-/
import proofs.«162483_j26018911879634_2_alg».proof.Proof.Gen.ReferenceIdeal.Read
import proofs.«162483_j26018911879634_2_alg».proof.Proof.Spec

noncomputable section

namespace Cert.RefNet

open Cert.ReferenceIdeal Idealize.ShloMosaic Idealize.ShloMosaic.ValueIdx

/-! ## The three whole-array idioms, read at an entry -/

/-- A scalar spread over an array of any shape is that scalar at every entry. -/
theorem spread_scalar {s : Shape} (h : S_.BroadcastsInDim s (![] : Fin 0 → Fin s.rank)) (y : S_.Idx → EReal) (i : s.Idx) :
    broadcastInDim s ![] h y i = y ix0 :=
  broadcastInDim_apply _ h y i ix0 (fun a => a.elim0)

/-- Comparing an array with a spread zero and selecting between a spread one and a spread minus one is the sign of
    every entry. -/
theorem sign_stage {s : Shape} (h : S_.BroadcastsInDim s (![] : Fin 0 → Fin s.rank)) (x : s.Idx → EReal) :
    select (cmpf (F := Ideal) (φ := .f32) .ogt x (broadcastInDim s ![] h (constant (F := Ideal) S_ .f32 0x00000000#32)))
      (broadcastInDim s ![] h (constant (F := Ideal) S_ .f32 0x3F800000#32))
      (broadcastInDim s ![] h (constant (F := Ideal) S_ .f32 0xBF800000#32)) = BinNet.sgnArr x := by
  funext i
  show Scalar.select (FloatOps.cmpf (F := Ideal) (φ := .f32) .ogt (x i) (broadcastInDim s _ h _ i))
    (broadcastInDim s _ h _ i) (broadcastInDim s _ h _ i) = _
  rw [spread_scalar, spread_scalar, spread_scalar]
  rfl

/-- A length-4096 vector spread along the batch: the entry (p, n) is the vector's n-th entry. -/
theorem spread_row (x : (⟨S4096, .f32⟩ : BufTy).Contents (Elt Ideal)) (p : Fin 8192) (n : Fin 4096) :
    Read.val_main_v11 (F := Ideal) x (ix2 p n) = BinNet.vec x n := by
  rw [Read.val_main_v11_apply, Read.val_main_v10_apply]
  exact congrArg x (funext fun a => Fin.ext (by match a with | ⟨0, _⟩ => rfl))

/-- The same for a length-1000 vector. -/
theorem spread_row_last (x : (⟨S1000, .f32⟩ : BufTy).Contents (Elt Ideal)) (p : Fin 8192) (n : Fin 1000) :
    Read.val_main_v98 (F := Ideal) x (ix2 p n) = BinNet.vec x n := by
  rw [Read.val_main_v98_apply, Read.val_main_v97_apply]
  exact congrArg x (funext fun a => Fin.ext (by match a with | ⟨0, _⟩ => rfl))

/-- The normalising factor spread along the batch: the entry (p, n) is (v n + ε)^(−1/2). -/
theorem spread_rstd (x : (⟨S4096, .f32⟩ : BufTy).Contents (Elt Ideal)) (p : Fin 8192) (n : Fin 4096) :
    Read.val_main_v20 (F := Ideal) x (ix2 p n) = BinNet.rstd (BinNet.vec x) n := by
  refine (spread_row (Read.val_main_v18 (F := Ideal) x) p n).trans ?_
  show Ideal.rsqrt (x (ix1 n) + broadcastInDim (s := S_) S4096 _ _ _ (ix1 n)) = _
  rw [spread_scalar]
  rfl

/-! ## Hidden layer 0 -/

/-- The transposed signs of the weights: the entry (k, n) is the sign of w (n, k). -/
theorem weights0 (x1 : (⟨S4096x2048, .f32⟩ : BufTy).Contents (Elt Ideal)) (k : Fin 2048) (n : Fin 4096) :
    Read.val_main_v8 (F := Ideal) x1 (ix2 k n) = BinNet.sgnArr x1 (ix2 n k) := by
  rw [Read.val_main_v8_apply]
  have e : Read.idx_main_v8 (ix2 k n) = ix2 n k := funext fun a => Fin.ext (by match a with | ⟨0, _⟩ => rfl | ⟨1, _⟩ => rfl)
  rw [e]
  exact congrFun (sign_stage _ x1) (ix2 n k)

/-- The product at (p, n): row p of the activations against row n of the weights' signs. -/
theorem dot0 (x0 : (⟨S8192x2048, .f32⟩ : BufTy).Contents (Elt Ideal))
    (x1 : (⟨S4096x2048, .f32⟩ : BufTy).Contents (Elt Ideal)) (p : Fin 8192) (n : Fin 4096) :
    Read.val_main_v9 (F := Ideal) x0 x1 (ix2 p n) = BinNet.dotRows (BinNet.sgnArr x0) (BinNet.sgnArr x1) p n := by
  rw [Read.val_main_v9_apply]
  unfold BinNet.dotRows
  refine Finset.sum_congr rfl fun k _ => ?_
  have el : Read.lidx_main_v9 (ix2 p n) k = ix2 p k := funext fun a => Fin.ext (by match a with | ⟨0, _⟩ => rfl | ⟨1, _⟩ => rfl)
  have er : Read.ridx_main_v9 (ix2 p n) k = ix2 k n := funext fun a => Fin.ext (by match a with | ⟨0, _⟩ => rfl | ⟨1, _⟩ => rfl)
  rw [el, er, weights0, show Read.val_main_v3 (F := Ideal) x0 = BinNet.sgnArr x0 from sign_stage _ x0]

/-- The pre-activation at (p, n): ((s + b − μ) · (v + ε)^(−1/2)) · g + β. -/
theorem pre0 (x0 : (⟨S8192x2048, .f32⟩ : BufTy).Contents (Elt Ideal))
    (x1 : (⟨S4096x2048, .f32⟩ : BufTy).Contents (Elt Ideal))
    (x2 x3 x4 x5 x6 : (⟨S4096, .f32⟩ : BufTy).Contents (Elt Ideal)) (p : Fin 8192) (n : Fin 4096) :
    Read.val_main_v27 (F := Ideal) x0 x1 x2 x3 x4 x5 x6 (ix2 p n) =
      BinNet.preRef (BinNet.dotRows (BinNet.sgnArr x0) (BinNet.sgnArr x1) p n) (BinNet.vec x2 n) (BinNet.vec x5 n)
        (BinNet.rstd (BinNet.vec x6) n) (BinNet.vec x3 n) (BinNet.vec x4 n) := by
  have hb : Read.val_main_v11 (F := Ideal) x2 (ix2 p n) = BinNet.vec x2 n := spread_row x2 p n
  have hm : Read.val_main_v14 (F := Ideal) x5 (ix2 p n) = BinNet.vec x5 n := spread_row x5 p n
  have hr : Read.val_main_v20 (F := Ideal) x6 (ix2 p n) = BinNet.rstd (BinNet.vec x6) n := spread_rstd x6 p n
  have hg : Read.val_main_v23 (F := Ideal) x3 (ix2 p n) = BinNet.vec x3 n := spread_row x3 p n
  have ho : Read.val_main_v26 (F := Ideal) x4 (ix2 p n) = BinNet.vec x4 n := spread_row x4 p n
  show (((Read.val_main_v9 (F := Ideal) x0 x1 (ix2 p n) + Read.val_main_v11 (F := Ideal) x2 (ix2 p n)) - Read.val_main_v14 (F := Ideal) x5 (ix2 p n))
      * Read.val_main_v20 (F := Ideal) x6 (ix2 p n)) * Read.val_main_v23 (F := Ideal) x3 (ix2 p n) + Read.val_main_v26 (F := Ideal) x4 (ix2 p n) = _
  rw [dot0, hb, hm, hr, hg, ho]
  rfl

/-- Hidden layer 0 of the reference is the specification's hidden layer. -/
theorem layer0 (x0 : (⟨S8192x2048, .f32⟩ : BufTy).Contents (Elt Ideal))
    (x1 : (⟨S4096x2048, .f32⟩ : BufTy).Contents (Elt Ideal))
    (x2 x3 x4 x5 x6 : (⟨S4096, .f32⟩ : BufTy).Contents (Elt Ideal)) :
    Read.val_main_v32 (F := Ideal) x0 x1 x2 x3 x4 x5 x6 =
      BinNet.hidRef (BinNet.sgnArr x0) (BinNet.sgnArr x1) (BinNet.vec x2) (BinNet.vec x3) (BinNet.vec x4)
        (BinNet.vec x5) (BinNet.vec x6) := by
  funext j
  obtain ⟨p, n, rfl⟩ : ∃ (p : Fin 8192) (n : Fin 4096), j = ix2 p n := ⟨j 0, j 1, eq_ix2 j⟩
  rw [BinNet.hidRef_ix2, ← pre0]
  refine (congrFun (sign_stage _ (Read.val_main_v28 (F := Ideal) x0 x1 x2 x3 x4 x5 x6)) (ix2 p n)).trans ?_
  show BinNet.sgn (min (broadcastInDim (s := S_) S8192x4096 _ _ _ (ix2 p n))
    (max (broadcastInDim (s := S_) S8192x4096 _ _ _ (ix2 p n)) (Read.val_main_v27 (F := Ideal) x0 x1 x2 x3 x4 x5 x6 (ix2 p n)))) = _
  rw [spread_scalar, spread_scalar]
  rfl

/-! ## Hidden layer 1 -/

/-- The transposed signs of the weights: the entry (k, n) is the sign of w (n, k). -/
theorem weights1 (x7 : (⟨S4096x4096, .f32⟩ : BufTy).Contents (Elt Ideal)) (k : Fin 4096) (n : Fin 4096) :
    Read.val_main_v37 (F := Ideal) x7 (ix2 k n) = BinNet.sgnArr x7 (ix2 n k) := by
  rw [Read.val_main_v37_apply]
  have e : Read.idx_main_v37 (ix2 k n) = ix2 n k := funext fun a => Fin.ext (by match a with | ⟨0, _⟩ => rfl | ⟨1, _⟩ => rfl)
  rw [e]
  exact congrFun (sign_stage _ x7) (ix2 n k)

/-- The product at (p, n): row p of the activations against row n of the weights' signs. -/
theorem dot1 (x0 : (⟨S8192x2048, .f32⟩ : BufTy).Contents (Elt Ideal))
    (x1 : (⟨S4096x2048, .f32⟩ : BufTy).Contents (Elt Ideal))
    (x2 x3 x4 x5 x6 : (⟨S4096, .f32⟩ : BufTy).Contents (Elt Ideal))
    (x7 : (⟨S4096x4096, .f32⟩ : BufTy).Contents (Elt Ideal)) (p : Fin 8192) (n : Fin 4096) :
    Read.val_main_v38 (F := Ideal) x0 x1 x2 x3 x4 x5 x6 x7 (ix2 p n) = BinNet.dotRows (Read.val_main_v32 (F := Ideal) x0 x1 x2 x3 x4 x5 x6) (BinNet.sgnArr x7) p n := by
  rw [Read.val_main_v38_apply]
  unfold BinNet.dotRows
  refine Finset.sum_congr rfl fun k _ => ?_
  have el : Read.lidx_main_v38 (ix2 p n) k = ix2 p k := funext fun a => Fin.ext (by match a with | ⟨0, _⟩ => rfl | ⟨1, _⟩ => rfl)
  have er : Read.ridx_main_v38 (ix2 p n) k = ix2 k n := funext fun a => Fin.ext (by match a with | ⟨0, _⟩ => rfl | ⟨1, _⟩ => rfl)
  rw [el, er, weights1]

/-- The pre-activation at (p, n): ((s + b − μ) · (v + ε)^(−1/2)) · g + β. -/
theorem pre1 (x0 : (⟨S8192x2048, .f32⟩ : BufTy).Contents (Elt Ideal))
    (x1 : (⟨S4096x2048, .f32⟩ : BufTy).Contents (Elt Ideal))
    (x2 x3 x4 x5 x6 : (⟨S4096, .f32⟩ : BufTy).Contents (Elt Ideal))
    (x7 : (⟨S4096x4096, .f32⟩ : BufTy).Contents (Elt Ideal))
    (x8 x9 x10 x11 x12 : (⟨S4096, .f32⟩ : BufTy).Contents (Elt Ideal)) (p : Fin 8192) (n : Fin 4096) :
    Read.val_main_v56 (F := Ideal) x0 x1 x2 x3 x4 x5 x6 x7 x8 x9 x10 x11 x12 (ix2 p n) =
      BinNet.preRef (BinNet.dotRows (Read.val_main_v32 (F := Ideal) x0 x1 x2 x3 x4 x5 x6) (BinNet.sgnArr x7) p n) (BinNet.vec x8 n) (BinNet.vec x11 n)
        (BinNet.rstd (BinNet.vec x12) n) (BinNet.vec x9 n) (BinNet.vec x10 n) := by
  have hb : Read.val_main_v40 (F := Ideal) x8 (ix2 p n) = BinNet.vec x8 n := spread_row x8 p n
  have hm : Read.val_main_v43 (F := Ideal) x11 (ix2 p n) = BinNet.vec x11 n := spread_row x11 p n
  have hr : Read.val_main_v49 (F := Ideal) x12 (ix2 p n) = BinNet.rstd (BinNet.vec x12) n := spread_rstd x12 p n
  have hg : Read.val_main_v52 (F := Ideal) x9 (ix2 p n) = BinNet.vec x9 n := spread_row x9 p n
  have ho : Read.val_main_v55 (F := Ideal) x10 (ix2 p n) = BinNet.vec x10 n := spread_row x10 p n
  show (((Read.val_main_v38 (F := Ideal) x0 x1 x2 x3 x4 x5 x6 x7 (ix2 p n) + Read.val_main_v40 (F := Ideal) x8 (ix2 p n)) - Read.val_main_v43 (F := Ideal) x11 (ix2 p n))
      * Read.val_main_v49 (F := Ideal) x12 (ix2 p n)) * Read.val_main_v52 (F := Ideal) x9 (ix2 p n) + Read.val_main_v55 (F := Ideal) x10 (ix2 p n) = _
  rw [dot1, hb, hm, hr, hg, ho]
  rfl

/-- Hidden layer 1 of the reference is the specification's hidden layer. -/
theorem layer1 (x0 : (⟨S8192x2048, .f32⟩ : BufTy).Contents (Elt Ideal))
    (x1 : (⟨S4096x2048, .f32⟩ : BufTy).Contents (Elt Ideal))
    (x2 x3 x4 x5 x6 : (⟨S4096, .f32⟩ : BufTy).Contents (Elt Ideal))
    (x7 : (⟨S4096x4096, .f32⟩ : BufTy).Contents (Elt Ideal))
    (x8 x9 x10 x11 x12 : (⟨S4096, .f32⟩ : BufTy).Contents (Elt Ideal)) :
    Read.val_main_v61 (F := Ideal) x0 x1 x2 x3 x4 x5 x6 x7 x8 x9 x10 x11 x12 =
      BinNet.hidRef (Read.val_main_v32 (F := Ideal) x0 x1 x2 x3 x4 x5 x6) (BinNet.sgnArr x7) (BinNet.vec x8) (BinNet.vec x9) (BinNet.vec x10)
        (BinNet.vec x11) (BinNet.vec x12) := by
  funext j
  obtain ⟨p, n, rfl⟩ : ∃ (p : Fin 8192) (n : Fin 4096), j = ix2 p n := ⟨j 0, j 1, eq_ix2 j⟩
  rw [BinNet.hidRef_ix2, ← pre1]
  refine (congrFun (sign_stage _ (Read.val_main_v57 (F := Ideal) x0 x1 x2 x3 x4 x5 x6 x7 x8 x9 x10 x11 x12)) (ix2 p n)).trans ?_
  show BinNet.sgn (min (broadcastInDim (s := S_) S8192x4096 _ _ _ (ix2 p n))
    (max (broadcastInDim (s := S_) S8192x4096 _ _ _ (ix2 p n)) (Read.val_main_v56 (F := Ideal) x0 x1 x2 x3 x4 x5 x6 x7 x8 x9 x10 x11 x12 (ix2 p n)))) = _
  rw [spread_scalar, spread_scalar]
  rfl

/-! ## Hidden layer 2 -/

/-- The transposed signs of the weights: the entry (k, n) is the sign of w (n, k). -/
theorem weights2 (x13 : (⟨S4096x4096, .f32⟩ : BufTy).Contents (Elt Ideal)) (k : Fin 4096) (n : Fin 4096) :
    Read.val_main_v66 (F := Ideal) x13 (ix2 k n) = BinNet.sgnArr x13 (ix2 n k) := by
  rw [Read.val_main_v66_apply]
  have e : Read.idx_main_v66 (ix2 k n) = ix2 n k := funext fun a => Fin.ext (by match a with | ⟨0, _⟩ => rfl | ⟨1, _⟩ => rfl)
  rw [e]
  exact congrFun (sign_stage _ x13) (ix2 n k)

/-- The product at (p, n): row p of the activations against row n of the weights' signs. -/
theorem dot2 (x0 : (⟨S8192x2048, .f32⟩ : BufTy).Contents (Elt Ideal))
    (x1 : (⟨S4096x2048, .f32⟩ : BufTy).Contents (Elt Ideal))
    (x2 x3 x4 x5 x6 : (⟨S4096, .f32⟩ : BufTy).Contents (Elt Ideal))
    (x7 : (⟨S4096x4096, .f32⟩ : BufTy).Contents (Elt Ideal))
    (x8 x9 x10 x11 x12 : (⟨S4096, .f32⟩ : BufTy).Contents (Elt Ideal))
    (x13 : (⟨S4096x4096, .f32⟩ : BufTy).Contents (Elt Ideal)) (p : Fin 8192) (n : Fin 4096) :
    Read.val_main_v67 (F := Ideal) x0 x1 x2 x3 x4 x5 x6 x7 x8 x9 x10 x11 x12 x13 (ix2 p n) = BinNet.dotRows (Read.val_main_v61 (F := Ideal) x0 x1 x2 x3 x4 x5 x6 x7 x8 x9 x10 x11 x12) (BinNet.sgnArr x13) p n := by
  rw [Read.val_main_v67_apply]
  unfold BinNet.dotRows
  refine Finset.sum_congr rfl fun k _ => ?_
  have el : Read.lidx_main_v67 (ix2 p n) k = ix2 p k := funext fun a => Fin.ext (by match a with | ⟨0, _⟩ => rfl | ⟨1, _⟩ => rfl)
  have er : Read.ridx_main_v67 (ix2 p n) k = ix2 k n := funext fun a => Fin.ext (by match a with | ⟨0, _⟩ => rfl | ⟨1, _⟩ => rfl)
  rw [el, er, weights2]

/-- The pre-activation at (p, n): ((s + b − μ) · (v + ε)^(−1/2)) · g + β. -/
theorem pre2 (x0 : (⟨S8192x2048, .f32⟩ : BufTy).Contents (Elt Ideal))
    (x1 : (⟨S4096x2048, .f32⟩ : BufTy).Contents (Elt Ideal))
    (x2 x3 x4 x5 x6 : (⟨S4096, .f32⟩ : BufTy).Contents (Elt Ideal))
    (x7 : (⟨S4096x4096, .f32⟩ : BufTy).Contents (Elt Ideal))
    (x8 x9 x10 x11 x12 : (⟨S4096, .f32⟩ : BufTy).Contents (Elt Ideal))
    (x13 : (⟨S4096x4096, .f32⟩ : BufTy).Contents (Elt Ideal))
    (x14 x15 x16 x17 x18 : (⟨S4096, .f32⟩ : BufTy).Contents (Elt Ideal)) (p : Fin 8192) (n : Fin 4096) :
    Read.val_main_v85 (F := Ideal) x0 x1 x2 x3 x4 x5 x6 x7 x8 x9 x10 x11 x12 x13 x14 x15 x16 x17 x18 (ix2 p n) =
      BinNet.preRef (BinNet.dotRows (Read.val_main_v61 (F := Ideal) x0 x1 x2 x3 x4 x5 x6 x7 x8 x9 x10 x11 x12) (BinNet.sgnArr x13) p n) (BinNet.vec x14 n) (BinNet.vec x17 n)
        (BinNet.rstd (BinNet.vec x18) n) (BinNet.vec x15 n) (BinNet.vec x16 n) := by
  have hb : Read.val_main_v69 (F := Ideal) x14 (ix2 p n) = BinNet.vec x14 n := spread_row x14 p n
  have hm : Read.val_main_v72 (F := Ideal) x17 (ix2 p n) = BinNet.vec x17 n := spread_row x17 p n
  have hr : Read.val_main_v78 (F := Ideal) x18 (ix2 p n) = BinNet.rstd (BinNet.vec x18) n := spread_rstd x18 p n
  have hg : Read.val_main_v81 (F := Ideal) x15 (ix2 p n) = BinNet.vec x15 n := spread_row x15 p n
  have ho : Read.val_main_v84 (F := Ideal) x16 (ix2 p n) = BinNet.vec x16 n := spread_row x16 p n
  show (((Read.val_main_v67 (F := Ideal) x0 x1 x2 x3 x4 x5 x6 x7 x8 x9 x10 x11 x12 x13 (ix2 p n) + Read.val_main_v69 (F := Ideal) x14 (ix2 p n)) - Read.val_main_v72 (F := Ideal) x17 (ix2 p n))
      * Read.val_main_v78 (F := Ideal) x18 (ix2 p n)) * Read.val_main_v81 (F := Ideal) x15 (ix2 p n) + Read.val_main_v84 (F := Ideal) x16 (ix2 p n) = _
  rw [dot2, hb, hm, hr, hg, ho]
  rfl

/-- Hidden layer 2 of the reference is the specification's hidden layer. -/
theorem layer2 (x0 : (⟨S8192x2048, .f32⟩ : BufTy).Contents (Elt Ideal))
    (x1 : (⟨S4096x2048, .f32⟩ : BufTy).Contents (Elt Ideal))
    (x2 x3 x4 x5 x6 : (⟨S4096, .f32⟩ : BufTy).Contents (Elt Ideal))
    (x7 : (⟨S4096x4096, .f32⟩ : BufTy).Contents (Elt Ideal))
    (x8 x9 x10 x11 x12 : (⟨S4096, .f32⟩ : BufTy).Contents (Elt Ideal))
    (x13 : (⟨S4096x4096, .f32⟩ : BufTy).Contents (Elt Ideal))
    (x14 x15 x16 x17 x18 : (⟨S4096, .f32⟩ : BufTy).Contents (Elt Ideal)) :
    Read.val_main_v90 (F := Ideal) x0 x1 x2 x3 x4 x5 x6 x7 x8 x9 x10 x11 x12 x13 x14 x15 x16 x17 x18 =
      BinNet.hidRef (Read.val_main_v61 (F := Ideal) x0 x1 x2 x3 x4 x5 x6 x7 x8 x9 x10 x11 x12) (BinNet.sgnArr x13) (BinNet.vec x14) (BinNet.vec x15) (BinNet.vec x16)
        (BinNet.vec x17) (BinNet.vec x18) := by
  funext j
  obtain ⟨p, n, rfl⟩ : ∃ (p : Fin 8192) (n : Fin 4096), j = ix2 p n := ⟨j 0, j 1, eq_ix2 j⟩
  rw [BinNet.hidRef_ix2, ← pre2]
  refine (congrFun (sign_stage _ (Read.val_main_v86 (F := Ideal) x0 x1 x2 x3 x4 x5 x6 x7 x8 x9 x10 x11 x12 x13 x14 x15 x16 x17 x18)) (ix2 p n)).trans ?_
  show BinNet.sgn (min (broadcastInDim (s := S_) S8192x4096 _ _ _ (ix2 p n))
    (max (broadcastInDim (s := S_) S8192x4096 _ _ _ (ix2 p n)) (Read.val_main_v85 (F := Ideal) x0 x1 x2 x3 x4 x5 x6 x7 x8 x9 x10 x11 x12 x13 x14 x15 x16 x17 x18 (ix2 p n)))) = _
  rw [spread_scalar, spread_scalar]
  rfl

/-! ## The last layer -/

/-- The transposed signs of the last weights: the entry (k, n) is the sign of w (n, k). -/
theorem weights3 (x19 : (⟨S1000x4096, .f32⟩ : BufTy).Contents (Elt Ideal)) (k : Fin 4096) (n : Fin 1000) :
    Read.val_main_v95 (F := Ideal) x19 (ix2 k n) = BinNet.sgnArr x19 (ix2 n k) := by
  rw [Read.val_main_v95_apply]
  have e : Read.idx_main_v95 (ix2 k n) = ix2 n k := funext fun a => Fin.ext (by match a with | ⟨0, _⟩ => rfl | ⟨1, _⟩ => rfl)
  rw [e]
  exact congrFun (sign_stage _ x19) (ix2 n k)

/-- The last product at (p, n). -/
theorem dot3 (x0 : (⟨S8192x2048, .f32⟩ : BufTy).Contents (Elt Ideal))
    (x1 : (⟨S4096x2048, .f32⟩ : BufTy).Contents (Elt Ideal))
    (x2 x3 x4 x5 x6 : (⟨S4096, .f32⟩ : BufTy).Contents (Elt Ideal))
    (x7 : (⟨S4096x4096, .f32⟩ : BufTy).Contents (Elt Ideal))
    (x8 x9 x10 x11 x12 : (⟨S4096, .f32⟩ : BufTy).Contents (Elt Ideal))
    (x13 : (⟨S4096x4096, .f32⟩ : BufTy).Contents (Elt Ideal))
    (x14 x15 x16 x17 x18 : (⟨S4096, .f32⟩ : BufTy).Contents (Elt Ideal))
    (x19 : (⟨S1000x4096, .f32⟩ : BufTy).Contents (Elt Ideal)) (p : Fin 8192) (n : Fin 1000) :
    Read.val_main_v96 (F := Ideal) x0 x1 x2 x3 x4 x5 x6 x7 x8 x9 x10 x11 x12 x13 x14 x15 x16 x17 x18 x19 (ix2 p n) = BinNet.dotRows (Read.val_main_v90 (F := Ideal) x0 x1 x2 x3 x4 x5 x6 x7 x8 x9 x10 x11 x12 x13 x14 x15 x16 x17 x18) (BinNet.sgnArr x19) p n := by
  rw [Read.val_main_v96_apply]
  unfold BinNet.dotRows
  refine Finset.sum_congr rfl fun k _ => ?_
  have el : Read.lidx_main_v96 (ix2 p n) k = ix2 p k := funext fun a => Fin.ext (by match a with | ⟨0, _⟩ => rfl | ⟨1, _⟩ => rfl)
  have er : Read.ridx_main_v96 (ix2 p n) k = ix2 k n := funext fun a => Fin.ext (by match a with | ⟨0, _⟩ => rfl | ⟨1, _⟩ => rfl)
  rw [el, er, weights3]

/-- The last layer of the reference is the specification's: product and bias. -/
theorem last (x0 : (⟨S8192x2048, .f32⟩ : BufTy).Contents (Elt Ideal))
    (x1 : (⟨S4096x2048, .f32⟩ : BufTy).Contents (Elt Ideal))
    (x2 x3 x4 x5 x6 : (⟨S4096, .f32⟩ : BufTy).Contents (Elt Ideal))
    (x7 : (⟨S4096x4096, .f32⟩ : BufTy).Contents (Elt Ideal))
    (x8 x9 x10 x11 x12 : (⟨S4096, .f32⟩ : BufTy).Contents (Elt Ideal))
    (x13 : (⟨S4096x4096, .f32⟩ : BufTy).Contents (Elt Ideal))
    (x14 x15 x16 x17 x18 : (⟨S4096, .f32⟩ : BufTy).Contents (Elt Ideal))
    (x19 : (⟨S1000x4096, .f32⟩ : BufTy).Contents (Elt Ideal))
    (x20 : (⟨S1000, .f32⟩ : BufTy).Contents (Elt Ideal)) :
    Read.val_main_v99 (F := Ideal) x0 x1 x2 x3 x4 x5 x6 x7 x8 x9 x10 x11 x12 x13 x14 x15 x16 x17 x18 x19 x20 = BinNet.outLayer (Read.val_main_v90 (F := Ideal) x0 x1 x2 x3 x4 x5 x6 x7 x8 x9 x10 x11 x12 x13 x14 x15 x16 x17 x18) (BinNet.sgnArr x19) (BinNet.vec x20) := by
  funext j
  obtain ⟨p, n, rfl⟩ : ∃ (p : Fin 8192) (n : Fin 1000), j = ix2 p n := ⟨j 0, j 1, eq_ix2 j⟩
  rw [BinNet.outLayer_ix2, ← dot3, ← spread_row_last x20 p n]
  rfl

/-! ## The whole program -/

/-- The reference's result is the four layers of the specification, one inside the other. -/
theorem ref_value (x0 : (⟨S8192x2048, .f32⟩ : BufTy).Contents (Elt Ideal))
    (x1 : (⟨S4096x2048, .f32⟩ : BufTy).Contents (Elt Ideal))
    (x2 x3 x4 x5 x6 : (⟨S4096, .f32⟩ : BufTy).Contents (Elt Ideal))
    (x7 : (⟨S4096x4096, .f32⟩ : BufTy).Contents (Elt Ideal))
    (x8 x9 x10 x11 x12 : (⟨S4096, .f32⟩ : BufTy).Contents (Elt Ideal))
    (x13 : (⟨S4096x4096, .f32⟩ : BufTy).Contents (Elt Ideal))
    (x14 x15 x16 x17 x18 : (⟨S4096, .f32⟩ : BufTy).Contents (Elt Ideal))
    (x19 : (⟨S1000x4096, .f32⟩ : BufTy).Contents (Elt Ideal))
    (x20 : (⟨S1000, .f32⟩ : BufTy).Contents (Elt Ideal)) :
    Read.val_main_v99 (F := Ideal) x0 x1 x2 x3 x4 x5 x6 x7 x8 x9 x10 x11 x12 x13 x14 x15 x16 x17 x18 x19 x20 =
      BinNet.outLayer
        (BinNet.hidRef
          (BinNet.hidRef
            (BinNet.hidRef (BinNet.sgnArr x0) (BinNet.sgnArr x1) (BinNet.vec x2) (BinNet.vec x3) (BinNet.vec x4) (BinNet.vec x5)
              (BinNet.vec x6))
            (BinNet.sgnArr x7) (BinNet.vec x8) (BinNet.vec x9) (BinNet.vec x10) (BinNet.vec x11) (BinNet.vec x12))
          (BinNet.sgnArr x13) (BinNet.vec x14) (BinNet.vec x15) (BinNet.vec x16) (BinNet.vec x17) (BinNet.vec x18))
        (BinNet.sgnArr x19) (BinNet.vec x20) := by
  rw [last, layer2, layer1, layer0]

end Cert.RefNet

end
-- ==== Proof.PreFacts.lean ====
/-
  The precondition, read entry by entry. The precondition program is a conjunction of twenty-four
  "all entries satisfy p" tests: for each of the twenty-one arguments, |x| < +∞ at every entry, and for
  three of the length-4096 vectors, x ≥ 0 at every entry. Over the extended reals |x| = max x (-x) is +∞
  at both infinities, so |x| < +∞ says exactly that x is a real number.
-/
import proofs.«162483_j26018911879634_2_alg».proof.Pre_finite_inputs
import Idealize.ShloMosaic.Lib.ReduceAll
import Idealize.ShloMosaic.PureOps.Ideal.Laws

namespace Cert.PreFacts

open Idealize.ShloMosaic Cert.Pre_finite_inputs

/-- every entry is a real number -/
def IsReal {s : Shape} (a : s.Idx → EReal) : Prop := ∀ i, ∃ r : ℝ, a i = (r : EReal)

/-- The rank-zero shape has exactly one index. -/
instance : Subsingleton S_.Idx := ⟨fun a b => funext fun d => d.elim0⟩

/-- The one-bit word of a truth value is 1 exactly when the value is true. -/
theorem ofBool_eq_one {b : Bool} : BitVec.ofBool b = 1#1 ↔ b = true := by cases b <;> decide

/-- The f32 pattern with all exponent bits set and no fraction bits is +∞. -/
theorem ofBits_inf_f32 : Ideal.ofBits .f32 0x7F800000#32 = ⊤ := by simp [Ideal.ofBits, Ideal.ieee]

/-- |x| < +∞ leaves only the reals: max x (-x) is +∞ at x = -∞ and at x = +∞. -/
theorem real_of_abs_lt_inf (x : EReal)
    (h : Ideal.cmp .olt (max x (-x)) (Ideal.ofBits .f32 0x7F800000#32) = 1#1) : ∃ r : ℝ, x = (r : EReal) := by
  rw [ofBits_inf_f32] at h
  have h' : max x (-x) < ⊤ := by simpa only [Ideal.cmp, ofBool_eq_one, decide_eq_true_eq] using h
  induction x using EReal.rec with
  | bot => simp at h'
  | coe r => exact ⟨r, rfl⟩
  | top => simp at h'

/-- x ≥ 0 tested against the f32 pattern of zero says 0 ≤ x. -/
theorem nonneg_of_oge_zero (x : EReal)
    (h : Ideal.cmp .oge x (Ideal.ofBits .f32 0x00000000#32) = 1#1) : (0 : EReal) ≤ x := by
  rw [Ideal.ofBits_zero_f32] at h
  simpa only [Ideal.cmp, ofBool_eq_one, decide_eq_true_eq] using h

/-- An "and" of two one-bit arrays is 1 at an index exactly when both arrays are 1 there. -/
theorem andi_apply_eq_one {s : Shape} (x y : IVec s 1) (i : s.Idx) :
    andi x y i = 1#1 ↔ x i = 1#1 ∧ y i = 1#1 := IntOp.andi_eq_one

/-- "all entries have |a i| < +∞" being 1 says every entry of a is a real number. -/
theorem isReal_of_all {s : Shape} {axes : List (Fin s.rank)}
    (hb : S_.BroadcastsInDim s (![] : Fin 0 → Fin s.rank)) (hr : s.ReducesTo axes S_) (hu : 0 < S_.numel)
    (a : FVec Ideal s .f32) (init : IVec S_ 1) (j : S_.Idx)
    (e : Host.reduce IntOp.andi
          (cmpf .olt (Host.absf a) (broadcastInDim s ![] hb (constant S_ .f32 0x7F800000#32))) init hr hu j = 1#1) :
    IsReal a := fun i =>
  real_of_abs_lt_inf (a i) (Host.reduce_andi_all _ init hr hu j e i)

/-- "all entries have a i ≥ 0" being 1 says every entry of a is nonnegative. -/
theorem nonneg_of_all {s : Shape} {axes : List (Fin s.rank)}
    (hb : S_.BroadcastsInDim s (![] : Fin 0 → Fin s.rank)) (hr : s.ReducesTo axes S_) (hu : 0 < S_.numel)
    (a : FVec Ideal s .f32) (init : IVec S_ 1) (j : S_.Idx)
    (e : Host.reduce IntOp.andi
          (cmpf .oge a (broadcastInDim s ![] hb (constant S_ .f32 0x00000000#32))) init hr hu j = 1#1) :
    ∀ i, (0 : EReal) ≤ a i := fun i =>
  nonneg_of_oge_zero (a i) (Host.reduce_andi_all _ init hr hu j e i)

/-- The precondition holding says: each of the fifteen length-4096 vectors below has only real entries,
    and the last vector of each group of five has only nonnegative ones. -/
theorem of_pre [Cert.Pre_finite_inputs.Facts] (a0 : FVec Ideal S8192x2048 .f32) (a1 : FVec Ideal S4096x2048 .f32)
    (a2 a3 a4 a5 a6 : FVec Ideal S4096 .f32) (a7 : FVec Ideal S4096x4096 .f32)
    (a8 a9 a10 a11 a12 : FVec Ideal S4096 .f32) (a13 : FVec Ideal S4096x4096 .f32)
    (a14 a15 a16 a17 a18 : FVec Ideal S4096 .f32) (a19 : FVec Ideal S1000x4096 .f32) (a20 : FVec Ideal S1000 .f32)
    (h : Cert.Pre_finite_inputs.fn (F := Ideal) a0 a1 a2 a3 a4 a5 a6 a7 a8 a9 a10 a11 a12 a13 a14 a15 a16 a17 a18 a19 a20
          = fun _ => 1#1) :
    (IsReal a2 ∧ IsReal a3 ∧ IsReal a4 ∧ IsReal a5 ∧ IsReal a6 ∧ ∀ i, (0 : EReal) ≤ a6 i)
    ∧ (IsReal a8 ∧ IsReal a9 ∧ IsReal a10 ∧ IsReal a11 ∧ IsReal a12 ∧ ∀ i, (0 : EReal) ≤ a12 i)
    ∧ (IsReal a14 ∧ IsReal a15 ∧ IsReal a16 ∧ IsReal a17 ∧ IsReal a18 ∧ ∀ i, (0 : EReal) ≤ a18 i) := by
  -- the program's one result word, with the chain of its parts unfolded into one conjunction
  have h0 := congrFun h (fun d => d.elim0)
  dsimp only [fn, fn_part1, fn_part2, fn_part3, fn_part4, fn_part5, fn_part6] at h0
  simp only [andi_apply_eq_one] at h0
  -- the conjunction associates to the left: arguments 0 and 1 innermost, the three sign tests outermost
  obtain ⟨⟨⟨⟨⟨⟨⟨⟨⟨⟨⟨⟨⟨⟨⟨⟨⟨⟨⟨⟨⟨⟨⟨-, -⟩, f2⟩, f3⟩, f4⟩, f5⟩, f6⟩, -⟩, f8⟩, f9⟩, f10⟩, f11⟩, f12⟩, -⟩,
    f14⟩, f15⟩, f16⟩, f17⟩, f18⟩, -⟩, -⟩, g6⟩, g12⟩, g18⟩ := h0
  exact
    ⟨⟨isReal_of_all _ _ _ a2 _ _ f2, isReal_of_all _ _ _ a3 _ _ f3, isReal_of_all _ _ _ a4 _ _ f4,
      isReal_of_all _ _ _ a5 _ _ f5, isReal_of_all _ _ _ a6 _ _ f6, nonneg_of_all _ _ _ a6 _ _ g6⟩,
     ⟨isReal_of_all _ _ _ a8 _ _ f8, isReal_of_all _ _ _ a9 _ _ f9, isReal_of_all _ _ _ a10 _ _ f10,
      isReal_of_all _ _ _ a11 _ _ f11, isReal_of_all _ _ _ a12 _ _ f12, nonneg_of_all _ _ _ a12 _ _ g12⟩,
     ⟨isReal_of_all _ _ _ a14 _ _ f14, isReal_of_all _ _ _ a15 _ _ f15, isReal_of_all _ _ _ a16 _ _ f16,
      isReal_of_all _ _ _ a17 _ _ f17, isReal_of_all _ _ _ a18 _ _ f18, nonneg_of_all _ _ _ a18 _ _ g18⟩⟩

end Cert.PreFacts
-- ==== Proof.Law.lean ====
/-
  The two spellings of a hidden layer are one array, where the parameters are real and the variance is non-negative.

  For a real variance v ≥ 0 and the positive guard ε the sum v + ε is a positive real, so (v + ε)^(−1/2) is the real number
  1 / √(v + ε).  With every quantity real, ((s + b − μ) · r) · g + β = s · (g · r) + ((b − μ) · (g · r) + β) is an identity of
  the field ℝ.  The row-against-row product s of two real arrays is real, and a layer's output is sign-valued, hence real,
  so the identity passes from layer to layer.
-/
import proofs.«162483_j26018911879634_2_alg».proof.Proof.Spec

noncomputable section

namespace BinNet

open Idealize.ShloMosaic Idealize.ShloMosaic.ValueIdx

variable {P K N M : Nat}

/-- For a non-negative real variance the normalising factor (v + ε)^(−1/2) is a real number. -/
theorem rstd_real (v : Fin N → EReal) (hv : IsReal v) (hv0 : ∀ n, (0 : EReal) ≤ v n) : IsReal (rstd v) := by
  intro n
  obtain ⟨x, hx⟩ := hv n
  obtain ⟨e, he, hweps⟩ := weps_pos
  have hx0 : 0 ≤ x := by have h := hv0 n; rw [hx] at h; exact_mod_cast h
  have hpos : 0 < x + e := by linarith
  refine ⟨(Real.sqrt (x + e))⁻¹, ?_⟩
  unfold rstd
  rw [hx, hweps, ← EReal.coe_add, Ideal.rsqrt_coe, if_neg (not_lt.mpr hpos.le), if_neg hpos.ne']

/-- The two spellings of the pre-activation, on real numbers, are one real number. -/
theorem preact_eq (s b mu r g be : ℝ) :
    preRef (s : EReal) b mu r g be = preKer (s : EReal) ((g : EReal) * r) (((b : EReal) - mu) * ((g : EReal) * r) + be) := by
  unfold preRef preKer
  norm_cast
  ring

/-- A HIDDEN LAYER in the reference's spelling and with the normalisation folded is one array, where activations,
    weights and parameters are real and the variance is non-negative. -/
theorem hid_eq (a : (⟨2, ![P, K]⟩ : Shape).Idx → EReal) (w : (⟨2, ![N, K]⟩ : Shape).Idx → EReal) (b g be mu v : Fin N → EReal)
    (ha : IsReal a) (hw : IsReal w) (hb : IsReal b) (hg : IsReal g) (hbe : IsReal be) (hmu : IsReal mu) (hv : IsReal v)
    (hv0 : ∀ n, (0 : EReal) ≤ v n) :
    hidRef a w b g be mu v = hidKer a w (scale g v) (shift b mu be (scale g v)) := by
  funext j
  obtain ⟨p, n, rfl⟩ : ∃ (p : Fin P) (n : Fin N), j = ix2 p n := ⟨j 0, j 1, eq_ix2 j⟩
  rw [hidRef_ix2, hidKer_ix2]
  obtain ⟨s, hs⟩ := dotRows_real a w ha hw p n
  obtain ⟨b', hb'⟩ := hb n
  obtain ⟨g', hg'⟩ := hg n
  obtain ⟨be', hbe'⟩ := hbe n
  obtain ⟨mu', hmu'⟩ := hmu n
  obtain ⟨r, hr⟩ := rstd_real v hv hv0 n
  unfold scale shift
  dsimp only
  rw [hs, hb', hg', hbe', hmu', hr, preact_eq]

/-- The parameters of one hidden layer: real, with a non-negative variance. -/
structure Dom (b g be mu v : Fin N → EReal) : Prop where
  hb : IsReal b
  hg : IsReal g
  hbe : IsReal be
  hmu : IsReal mu
  hv : IsReal v
  hv0 : ∀ n, (0 : EReal) ≤ v n

/-- THREE HIDDEN LAYERS and the last layer: the reference's spelling and the folded one are one array. -/
theorem net_eq {K0 N0 N1 N2 N3 : Nat}
    (a : (⟨2, ![P, K0]⟩ : Shape).Idx → EReal) (w0 : (⟨2, ![N0, K0]⟩ : Shape).Idx → EReal)
    (w1 : (⟨2, ![N1, N0]⟩ : Shape).Idx → EReal) (w2 : (⟨2, ![N2, N1]⟩ : Shape).Idx → EReal)
    (w3 : (⟨2, ![N3, N2]⟩ : Shape).Idx → EReal)
    (b0 g0 be0 mu0 v0 : Fin N0 → EReal) (b1 g1 be1 mu1 v1 : Fin N1 → EReal) (b2 g2 be2 mu2 v2 : Fin N2 → EReal)
    (b3 : Fin N3 → EReal)
    (ha : IsReal a) (hw0 : IsReal w0) (hw1 : IsReal w1) (hw2 : IsReal w2)
    (d0 : Dom b0 g0 be0 mu0 v0) (d1 : Dom b1 g1 be1 mu1 v1) (d2 : Dom b2 g2 be2 mu2 v2) :
    outLayer (hidRef (hidRef (hidRef a w0 b0 g0 be0 mu0 v0) w1 b1 g1 be1 mu1 v1) w2 b2 g2 be2 mu2 v2) w3 b3
    = outLayer (hidKer (hidKer (hidKer a w0 (scale g0 v0) (shift b0 mu0 be0 (scale g0 v0))) w1 (scale g1 v1)
        (shift b1 mu1 be1 (scale g1 v1))) w2 (scale g2 v2) (shift b2 mu2 be2 (scale g2 v2))) w3 b3 := by
  rw [hid_eq a w0 b0 g0 be0 mu0 v0 ha hw0 d0.hb d0.hg d0.hbe d0.hmu d0.hv d0.hv0,
    hid_eq _ w1 b1 g1 be1 mu1 v1 (hidKer_real _ _ _ _) hw1 d1.hb d1.hg d1.hbe d1.hmu d1.hv d1.hv0,
    hid_eq _ w2 b2 g2 be2 mu2 v2 (hidKer_real _ _ _ _) hw2 d2.hb d2.hg d2.hbe d2.hmu d2.hv d2.hv0]

end BinNet

end
-- ==== Proof.Bridge.lean ====
/-
  The reference's result and the idealized kernel program's result are one array, under the precondition.

  The reference's run ends at three hidden layers in its own spelling and the last layer, of the arguments; the kernel
  program's run ends at the same with the normalisation folded.  The precondition makes the fifteen parameter vectors real
  and the three variances non-negative; signs are real; so the two are equal layer by layer.
-/
import proofs.«162483_j26018911879634_2_alg».proof.Proof.KChain
import proofs.«162483_j26018911879634_2_alg».proof.Proof.RefNet
import proofs.«162483_j26018911879634_2_alg».proof.Proof.PreFacts
import proofs.«162483_j26018911879634_2_alg».proof.Proof.Law
import proofs.«162483_j26018911879634_2_alg».proof.Proof.Gen.Pre_finite_inputs

set_option maxRecDepth 16384

noncomputable section

namespace Cert.Bridge

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- Under the precondition the reference's result term, of the kernel program's own arguments, is what the kernel program's
    result buffer ends holding. -/
theorem result_eq
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) = fun _ => 1#1) :
    Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
      = W19 m ρ c (Proc.devRef .tc main_v50) := by
  funext j
  obtain ⟨p, n, rfl⟩ : ∃ (p : Fin 8192) (n : Fin 1000), j = ix2 p n := ⟨j 0, j 1, eq_ix2 j⟩
  rw [Cert.RefNet.ref_value, Chain.result_apply m ρ c p n]
  obtain ⟨⟨r2, r3, r4, r5, r6, n6⟩, ⟨r8, r9, r10, r11, r12, n12⟩, ⟨r14, r15, r16, r17, r18, n18⟩⟩ :=
    Cert.PreFacts.of_pre _ _ _ _ _ _ _ _ _ _ _ _ _ _ _ _ _ _ _ _ _ hpre
  unfold Chain.H2 Chain.H1 Chain.H0 Chain.sh2 Chain.sh1 Chain.sh0 Chain.sc2 Chain.sc1 Chain.sc0
  exact congrFun (BinNet.net_eq (BinNet.sgnArr (m ((c : Thread nD τ).loc main_arg0))) (BinNet.sgnArr (m ((c : Thread nD τ).loc main_arg1))) (BinNet.sgnArr (m ((c : Thread nD τ).loc main_arg7))) (BinNet.sgnArr (m ((c : Thread nD τ).loc main_arg13))) (BinNet.sgnArr (m ((c : Thread nD τ).loc main_arg19)))
    (BinNet.vec (m ((c : Thread nD τ).loc main_arg2))) (BinNet.vec (m ((c : Thread nD τ).loc main_arg3))) (BinNet.vec (m ((c : Thread nD τ).loc main_arg4))) (BinNet.vec (m ((c : Thread nD τ).loc main_arg5))) (BinNet.vec (m ((c : Thread nD τ).loc main_arg6)))
    (BinNet.vec (m ((c : Thread nD τ).loc main_arg8))) (BinNet.vec (m ((c : Thread nD τ).loc main_arg9))) (BinNet.vec (m ((c : Thread nD τ).loc main_arg10))) (BinNet.vec (m ((c : Thread nD τ).loc main_arg11))) (BinNet.vec (m ((c : Thread nD τ).loc main_arg12)))
    (BinNet.vec (m ((c : Thread nD τ).loc main_arg14))) (BinNet.vec (m ((c : Thread nD τ).loc main_arg15))) (BinNet.vec (m ((c : Thread nD τ).loc main_arg16))) (BinNet.vec (m ((c : Thread nD τ).loc main_arg17))) (BinNet.vec (m ((c : Thread nD τ).loc main_arg18)))
    (BinNet.vec (m ((c : Thread nD τ).loc main_arg20)))
    (BinNet.sgnArr_real _) (BinNet.sgnArr_real _) (BinNet.sgnArr_real _) (BinNet.sgnArr_real _)
    ⟨fun n => r2 (ix1 n), fun n => r3 (ix1 n), fun n => r4 (ix1 n), fun n => r5 (ix1 n), fun n => r6 (ix1 n), fun n => n6 (ix1 n)⟩
    ⟨fun n => r8 (ix1 n), fun n => r9 (ix1 n), fun n => r10 (ix1 n), fun n => r11 (ix1 n), fun n => r12 (ix1 n), fun n => n12 (ix1 n)⟩
    ⟨fun n => r14 (ix1 n), fun n => r15 (ix1 n), fun n => r16 (ix1 n), fun n => r17 (ix1 n), fun n => r18 (ix1 n), fun n => n18 (ix1 n)⟩)
    (ix2 p n)

end Cert.Bridge

end
-- ==== Proof.lean ====
/-
  The certificate of a four-layer binarized perceptron against its reference.

  Every layer multiplies the signs of its input by the signs of its weights, row against row.  The three hidden layers then
  normalise with running statistics, clamp to [−1, 1] and pass on the sign; the last layer adds a bias.  The reference
  normalises as ((s + b − μ) · (v + ε)^(−1/2)) · g + β; the kernel program folds this into s · scale + shift with
  scale = g · (v + ε)^(−1/2) and shift = (b − μ) · scale + β, computed once on the host, runs each layer as a pipelined region
  over row and column blocks, pads the last weight matrix and bias from 1000 to 1024 rows with zeros and returns the first
  1000 columns.  Over the extended reals the two normalisations agree where the parameters are real and v + ε is a
  positive real: the precondition asks for finite inputs and non-negative variances (at v = −ε the factor is +∞ and the
  folded form meets +∞ − ∞ where the other form does not).  A rounding to bf16 is the identity there, the matrix unit's
  product is the exact sum, and the padded rows are never read by the returned columns.

  The three frames are the generated ones (the reference's is its generated run with the result dropped).  Nothing was
  rewritten between the kernel and its idealization, so `preserves` is trivial.  For `algebraic` the common result is what
  the kernel program's result buffer ends holding; the reference's result term equals it by `Cert.Bridge.result_eq`.
-/
import proofs.«162483_j26018911879634_2_alg».proof.Defs
import proofs.«162483_j26018911879634_2_alg».proof.Proof.Gen.Kernel
import proofs.«162483_j26018911879634_2_alg».proof.Proof.Gen.Kernel.Skeleton
import proofs.«162483_j26018911879634_2_alg».proof.Proof.Gen.Kernel.Launch
import proofs.«162483_j26018911879634_2_alg».proof.Proof.Gen.Kernel.Points
import proofs.«162483_j26018911879634_2_alg».proof.Proof.Gen.Kernel.Frame
import proofs.«162483_j26018911879634_2_alg».proof.Proof.Gen.KernelIdeal
import proofs.«162483_j26018911879634_2_alg».proof.Proof.Gen.KernelIdeal.Skeleton
import proofs.«162483_j26018911879634_2_alg».proof.Proof.Gen.KernelIdeal.Launch
import proofs.«162483_j26018911879634_2_alg».proof.Proof.Gen.KernelIdeal.Points
import proofs.«162483_j26018911879634_2_alg».proof.Proof.Gen.KernelIdeal.Frame
import proofs.«162483_j26018911879634_2_alg».proof.Proof.Gen.ReferenceIdeal
import proofs.«162483_j26018911879634_2_alg».proof.Proof.Gen.ReferenceIdeal.Run
import proofs.«162483_j26018911879634_2_alg».proof.Proof.Gen.ReferenceIdeal.Read
import proofs.«162483_j26018911879634_2_alg».proof.Proof.Gen.Pre_finite_inputs
import proofs.«162483_j26018911879634_2_alg».proof.Proof.KRun
import proofs.«162483_j26018911879634_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end, from memories that agree on the arguments, with one result: what the kernel program's result buffer
    holds at its last boundary. -/
theorem algebraic : Cert.algebraic_KernelIdeal_ReferenceIdeal := by
  intro m ρ m' ρ' hpre hagree
  refine ⟨fun c => Cert.KernelIdeal.Gen.W19 m ρ c (Proc.devRef .tc Cert.KernelIdeal.main_v50),
    Cert.KernelIdeal.Run.run_final (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19, e20⟩ := hagree c
  rw [Cert.ReferenceIdeal.Read.val_main_v99_eq, e0, e1, e2, e3, e4, e5, e6, e7, e8, e9, e10, e11, e12, e13, e14, e15, e16, e17, e18, e19, e20]
  exact Cert.Bridge.result_eq m ρ c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
